-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x100 : Shape := ⟨2, ![600000, 100]⟩
abbrev S1500000 : Shape := ⟨1, ![1500000]⟩
abbrev S200000 : Shape := ⟨1, ![200000]⟩
abbrev S40960 : Shape := ⟨1, ![40960]⟩
abbrev S100x256 : Shape := ⟨2, ![100, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩

class Facts : Prop where
  bcast_S_S600000x100 : S_.BroadcastsInDim S600000x100 (![] : Fin 0 → Fin S600000x100.rank)
  reducesTo_S600000x100_S_d0_1 : S600000x100.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg13 : FVec F S256x47 .f32) (main_arg14 : FVec F S256x47 .f32) (main_arg15 : FVec F S47 .f32) (main_v33 : IVec S_ 1) : IVec S_ 1 :=
  let main_v34 : FVec F S256x47 .f32 := Host.absf main_arg13
  let main_cst_12 : FVec F S_ .f32 := constant S_ .f32 0x7F800000#32
  let main_v35 : FVec F S256x47 .f32 := broadcastInDim S256x47 ![] bcast_S_S256x47 main_cst_12
  let main_v36 : IVec S256x47 1 := cmpf .olt main_v34 main_v35
  let main_c_13 : IVec S_ 1 := constantI S_ 1 1#1
  let main_v37 : IVec S_ 1 := (fun x v => Host.reduce IntOp.andi x v reducesTo_S256x47_S_d0_1 h_S_) main_v36 main_c_13
  let main_v38 : IVec S_ 1 := andi main_v33 main_v37
  let main_v39 : FVec F S256x47 .f32 := Host.absf main_arg14
  let main_cst_14 : FVec F S_ .f32 := constant S_ .f32 0x7F800000#32
  let main_v40 : FVec F S256x47 .f32 := broadcastInDim S256x47 ![] bcast_S_S256x47 main_cst_14
  let main_v41 : IVec S256x47 1 := cmpf .olt main_v39 main_v40
  let main_c_15 : IVec S_ 1 := constantI S_ 1 1#1
  let main_v42 : IVec S_ 1 := (fun x v => Host.reduce IntOp.andi x v reducesTo_S256x47_S_d0_1 h_S_) main_v41 main_c_15
  let main_v43 : IVec S_ 1 := andi main_v38 main_v42
  let main_v44 : FVec F S47 .f32 := Host.absf main_arg15
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg10 : FVec F S256x256 .f32) (main_arg11 : FVec F S256x256 .f32) (main_arg12 : FVec F S256 .f32) (main_arg13 : FVec F S256x47 .f32) (main_arg14 : FVec F S256x47 .f32) (main_arg15 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg13 main_arg14 main_arg15 main_v33

def fn {F : FTy → Type} [FloatOps F] (main_arg0 : FVec F S600000x100 .f32) (main_arg1 : IVec S1500000 32) (main_arg2 : IVec S1500000 32) (main_arg3 : IVec S200000 32) (main_arg4 : IVec S200000 32) (main_arg5 : IVec S40960 32) (main_arg6 : IVec S40960 32) (main_arg7 : FVec F S100x256 .f32) (main_arg8 : FVec F S100x256 .f32) (main_arg9 : FVec F S256 .f32) (main_arg10 : FVec F S256x256 .f32) (main_arg11 : FVec F S256x256 .f32) (main_arg12 : FVec F S256 .f32) (main_arg13 : FVec F S256x47 .f32) (main_arg14 : FVec F S256x47 .f32) (main_arg15 : FVec F S47 .f32) : IVec S_ 1 :=
  let main_v0 : FVec F S600000x100 .f32 := Host.absf main_arg0
  let main_cst : FVec F S_ .f32 := constant S_ .f32 0x7F800000#32
  let main_v1 : FVec F S600000x100 .f32 := broadcastInDim S600000x100 ![] bcast_S_S600000x100 main_cst
  let main_v2 : IVec S600000x100 1 := cmpf .olt main_v0 main_v1
  let main_c : IVec S_ 1 := constantI S_ 1 1#1
  let main_v3 : IVec S_ 1 := (fun x v => Host.reduce IntOp.andi x v reducesTo_S600000x100_S_d0_1 h_S_) main_v2 main_c
  let main_v4 : FVec F S100x256 .f32 := Host.absf main_arg7
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S100x256 .f32 := Host.absf main_arg8
  let main_cst_2 : FVec F S_ .f32 := constant S_ .f32 0x7F800000#32
  let main_v10 : FVec F S100x256 .f32 := broadcastInDim S100x256 ![] bcast_S_S100x256 main_cst_2
  let main_v11 : IVec S100x256 1 := cmpf .olt main_v9 main_v10
  let main_c_3 : IVec S_ 1 := constantI S_ 1 1#1
  let main_v12 : IVec S_ 1 := (fun x v => Host.reduce IntOp.andi x v reducesTo_S100x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_arg15 main_v13 main_v16
-- ==== Kernel.lean ====
abbrev S600000x100 : Shape := ⟨2, ![600000, 100]⟩
abbrev S1500000 : Shape := ⟨1, ![1500000]⟩
abbrev S200000 : Shape := ⟨1, ![200000]⟩
abbrev S40960 : Shape := ⟨1, ![40960]⟩
abbrev S100x256 : Shape := ⟨2, ![100, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩
abbrev S1500000x1 : Shape := ⟨2, ![1500000, 1]⟩
abbrev S1500000x100 : Shape := ⟨2, ![1500000, 100]⟩
abbrev S100000x100 : Shape := ⟨2, ![100000, 100]⟩
abbrev S100000 : Shape := ⟨1, ![100000]⟩
abbrev S100000x1 : Shape := ⟨2, ![100000, 1]⟩
abbrev S100000x256 : Shape := ⟨2, ![100000, 256]⟩
abbrev S5000x100 : Shape := ⟨2, ![5000, 100]⟩
abbrev S5000x256 : Shape := ⟨2, ![5000, 256]⟩
abbrev S1x256 : Shape := ⟨2, ![1, 256]⟩
abbrev S200000x1 : Shape := ⟨2, ![200000, 1]⟩
abbrev S200000x256 : Shape := ⟨2, ![200000, 256]⟩
abbrev S20000x256 : Shape := ⟨2, ![20000, 256]⟩
abbrev S20000 : Shape := ⟨1, ![20000]⟩
abbrev S20000x1 : Shape := ⟨2, ![20000, 1]⟩
abbrev S4000x256 : Shape := ⟨2, ![4000, 256]⟩
abbrev S40960x1 : Shape := ⟨2, ![40960, 1]⟩
abbrev S40960x256 : Shape := ⟨2, ![40960, 256]⟩
abbrev S4096x256 : Shape := ⟨2, ![4096, 256]⟩
abbrev S4096 : Shape := ⟨1, ![4096]⟩
abbrev S4096x1 : Shape := ⟨2, ![4096, 1]⟩
abbrev S4096x47 : Shape := ⟨2, ![4096, 47]⟩
abbrev S1024x256 : Shape := ⟨2, ![1024, 256]⟩
abbrev S1024x47 : Shape := ⟨2, ![1024, 47]⟩
abbrev S1x47 : Shape := ⟨2, ![1, 47]⟩
abbrev S1024 : Shape := ⟨1, ![1024]⟩
abbrev S1024x1 : Shape := ⟨2, ![1024, 1]⟩

abbrev nBuf : Space → Nat
  | .hbm => 97
  | .vmem => 27
  | .smem => 0
  | _ => 0

abbrev bufTy : (tb : Table) → Fin (tcTables nBuf tb) → BufTy
  | .hbm, ⟨0, _⟩ => ⟨S600000x100, .f32⟩
  | .hbm, ⟨1, _⟩ => ⟨S1500000, .i32⟩
  | .hbm, ⟨2, _⟩ => ⟨S1500000, .i32⟩
  | .hbm, ⟨3, _⟩ => ⟨S200000, .i32⟩
  | .hbm, ⟨4, _⟩ => ⟨S200000, .i32⟩
  | .hbm, ⟨5, _⟩ => ⟨S40960, .i32⟩
  | .hbm, ⟨6, _⟩ => ⟨S40960, .i32⟩
  | .hbm, ⟨7, _⟩ => ⟨S100x256, .f32⟩
  | .hbm, ⟨8, _⟩ => ⟨S100x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S_, .i32⟩
  | .hbm, ⟨17, _⟩ => ⟨S1500000, .i32⟩
  | .hbm, ⟨18, _⟩ => ⟨S1500000, .i1⟩
  | .hbm, ⟨19, _⟩ => ⟨S_, .i32⟩
  | .hbm, ⟨20, _⟩ => ⟨S1500000, .i32⟩
  | .hbm, ⟨21, _⟩ => ⟨S1500000, .i32⟩
  | .hbm, ⟨22, _⟩ => ⟨S1500000, .i32⟩
  | .hbm, ⟨23, _⟩ => ⟨S1500000x1, .i32⟩
  | .hbm, ⟨24, _⟩ => ⟨S1500000x100, .f32⟩
  | .hbm, ⟨25, _⟩ => ⟨S_, .f32⟩
  | .hbm, ⟨26, _⟩ => ⟨S100000x100, .f32⟩
  | .hbm, ⟨27, _⟩ => ⟨S1500000x1, .i32⟩
  | .hbm, ⟨28, _⟩ => ⟨S100000x100, .f32⟩
  | .hbm, ⟨29, _⟩ => ⟨S_, .f32⟩
  | .hbm, ⟨30, _⟩ => ⟨S1500000, .f32⟩
  | .hbm, ⟨31, _⟩ => ⟨S_, .f32⟩
  | .hbm, ⟨32, _⟩ => ⟨S100000, .f32⟩
  | .hbm, ⟨33, _⟩ => ⟨S1500000x1, .i32⟩
  | .hbm, ⟨34, _⟩ => ⟨S100000, .f32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x100, .f32⟩
  | .hbm, ⟨40, _⟩ => ⟨S100000x100, .f32⟩
  | .hbm, ⟨41, _⟩ => ⟨S100000x100, .f32⟩
  | .hbm, ⟨42, _⟩ => ⟨S100000x256, .f32⟩
  | .hbm, ⟨43, _⟩ => ⟨S_, .i32⟩
  | .hbm, ⟨44, _⟩ => ⟨S200000, .i32⟩
  | .hbm, ⟨45, _⟩ => ⟨S200000, .i1⟩
  | .hbm, ⟨46, _⟩ => ⟨S_, .i32⟩
  | .hbm, ⟨47, _⟩ => ⟨S200000, .i32⟩
  | .hbm, ⟨48, _⟩ => ⟨S200000, .i32⟩
  | .hbm, ⟨49, _⟩ => ⟨S200000, .i32⟩
  | .hbm, ⟨50, _⟩ => ⟨S200000x1, .i32⟩
  | .hbm, ⟨51, _⟩ => ⟨S200000x256, .f32⟩
  | .hbm, ⟨52, _⟩ => ⟨S_, .f32⟩
  | .hbm, ⟨53, _⟩ => ⟨S20000x256, .f32⟩
  | .hbm, ⟨54, _⟩ => ⟨S200000x1, .i32⟩
  | .hbm, ⟨55, _⟩ => ⟨S20000x256, .f32⟩
  | .hbm, ⟨56, _⟩ => ⟨S_, .f32⟩
  | .hbm, ⟨57, _⟩ => ⟨S200000, .f32⟩
  | .hbm, ⟨58, _⟩ => ⟨S_, .f32⟩
  | .hbm, ⟨59, _⟩ => ⟨S20000, .f32⟩
  | .hbm, ⟨60, _⟩ => ⟨S200000x1, .i32⟩
  | .hbm, ⟨61, _⟩ => ⟨S20000, .f32⟩
  | .hbm, ⟨62, _⟩ => ⟨S20000x1, .f32⟩
  | .hbm, ⟨63, _⟩ => ⟨S_, .f32⟩
  | .hbm, ⟨64, _⟩ => ⟨S20000x1, .f32⟩
  | .hbm, ⟨65, _⟩ => ⟨S20000x1, .f32⟩
  | .hbm, ⟨66, _⟩ => ⟨S20000x256, .f32⟩
  | .hbm, ⟨67, _⟩ => ⟨S20000x256, .f32⟩
  | .hbm, ⟨68, _⟩ => ⟨S20000x256, .f32⟩
  | .hbm, ⟨69, _⟩ => ⟨S20000x256, .f32⟩
  | .hbm, ⟨70, _⟩ => ⟨S_, .i32⟩
  | .hbm, ⟨71, _⟩ => ⟨S40960, .i32⟩
  | .hbm, ⟨72, _⟩ => ⟨S40960, .i1⟩
  | .hbm, ⟨73, _⟩ => ⟨S_, .i32⟩
  | .hbm, ⟨74, _⟩ => ⟨S40960, .i32⟩
  | .hbm, ⟨75, _⟩ => ⟨S40960, .i32⟩
  | .hbm, ⟨76, _⟩ => ⟨S40960, .i32⟩
  | .hbm, ⟨77, _⟩ => ⟨S40960x1, .i32⟩
  | .hbm, ⟨78, _⟩ => ⟨S40960x256, .f32⟩
  | .hbm, ⟨79, _⟩ => ⟨S_, .f32⟩
  | .hbm, ⟨80, _⟩ => ⟨S4096x256, .f32⟩
  | .hbm, ⟨81, _⟩ => ⟨S40960x1, .i32⟩
  | .hbm, ⟨82, _⟩ => ⟨S4096x256, .f32⟩
  | .hbm, ⟨83, _⟩ => ⟨S_, .f32⟩
  | .hbm, ⟨84, _⟩ => ⟨S40960, .f32⟩
  | .hbm, ⟨85, _⟩ => ⟨S_, .f32⟩
  | .hbm, ⟨86, _⟩ => ⟨S4096, .f32⟩
  | .hbm, ⟨87, _⟩ => ⟨S40960x1, .i32⟩
  | .hbm, ⟨88, _⟩ => ⟨S4096, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S4096x256, .f32⟩
  | .hbm, ⟨94, _⟩ => ⟨S4096x256, .f32⟩
  | .hbm, ⟨95, _⟩ => ⟨S4096x256, .f32⟩
  | .hbm, ⟨96, _⟩ => ⟨S4096x47, .f32⟩
  | .local _ .vmem, ⟨0, _⟩ => ⟨S5000x100, .f32⟩
  | .local _ .vmem, ⟨1, _⟩ => ⟨S5000x100, .f32⟩
  | .local _ .vmem, ⟨2, _⟩ => ⟨S5000x100, .f32⟩
  | .local _ .vmem, ⟨3, _⟩ => ⟨S5000x100, .f32⟩
  | .local _ .vmem, ⟨4, _⟩ => ⟨S100x256, .f32⟩
  | .local _ .vmem, ⟨5, _⟩ => ⟨S100x256, .f32⟩
  | .local _ .vmem, ⟨6, _⟩ => ⟨S256, .f32⟩
  | .local _ .vmem, ⟨7, _⟩ => ⟨S5000x256, .f32⟩
  | .local _ .vmem, ⟨8, _⟩ => ⟨S5000x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S256x256, .f32⟩
  | .local _ .vmem, ⟨14, _⟩ => ⟨S256x256, .f32⟩
  | .local _ .vmem, ⟨15, _⟩ => ⟨S256, .f32⟩
  | .local _ .vmem, ⟨16, _⟩ => ⟨S4000x256, .f32⟩
  | .local _ .vmem, ⟨17, _⟩ => ⟨S4000x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S256x47, .f32⟩
  | .local _ .vmem, ⟨23, _⟩ => ⟨S256x47, .f32⟩
  | .local _ .vmem, ⟨24, _⟩ => ⟨S47, .f32⟩
  | .local _ .vmem, ⟨25, _⟩ => ⟨S1024x47, .f32⟩
  | .local _ .vmem, ⟨26, _⟩ => ⟨S1024x47, .f32⟩
  | _, _ => ⟨S600000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_cst_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_13 : Ref sig .tc := ⟨.hbm, 83, rfl⟩
abbrev main_v52 : Ref sig .tc := ⟨.hbm, 84, rfl⟩
abbrev main_cst_14 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_15 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S100000x100 : S_.BroadcastsInDim S100000x100 (![] : Fin 0 → Fin S100000x100.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x100_0_1 : S100000x1.BroadcastsInDim S100000x100 (![0, 1] : Fin 2 → Fin S100000x100.rank)
  slices_S600000x100_S100000x100_0_0 : S600000x100.Slices ![0, 0] S100000x100
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S200000 : S_.BroadcastsInDim S200000 (![] : Fin 0 → Fin S200000.rank)
  bcast_S200000_S200000x1_0 : S200000.BroadcastsInDim S200000x1 (![0] : Fin 1 → Fin S200000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  slices_S100000x256_S20000x256_0_0 : S100000x256.Slices ![0, 0] S20000x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  broadcasts_S1x256_S4000x256 : S1x256.Broadcasts S4000x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  slices_S20000x256_S4096x256_0_0 : S20000x256.Slices ![0, 0] S4096x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x47_S256x47_0_0 : ∀ a, (![0, 0] : Fin 2 → Nat) a + S256x47.size a ≤ S256x47.size a
  h_S256x47 : 0 < S256x47.numel
  inb_S47_S47_0 : ∀ a, (![0] : Fin 1 → Nat) a + S47.size a ≤ S47.size a
  h_S47 : 0 < S47.numel
  shapeCasts_S47_S1x47 : S47.ShapeCasts S1x47
  broadcasts_S1x47_S1024x47 : S1x47.Broadcasts S1024x47
  reduces_S1024x47_S1024 : S1024x47.Reduces [1] S1024
  shapeCasts_S1024_S1024x1 : S1024.ShapeCasts S1024x1
  broadcasts_S1024x1_S1024x47 : S1024x1.Broadcasts S1024x47
  inb_S1024x47_S1024x47_0_0 : ∀ a, (![0, 0] : Fin 2 → Nat) a + S1024x47.size a ≤ S1024x47.size a
  h_S1024x47 : 0 < S1024x47.numel
  gather_S600000x100_S1500000x1_S1500000x100_1_0_n_n_0_1_1100_wf : GatherDims.WF S600000x100 S1500000x1 S1500000x100 [1] [0] [] [0] [] 1 ![1, 100]
  scatter_S100000x100_S1500000x1_S1500000x100_1_0_0_1_wf : ScatterDims.WF S100000x100 S1500000x1 S1500000x100 [1] [0] [0] 1
  scatter_S100000_S1500000x1_S1500000_n_0_0_1_wf : ScatterDims.WF S100000 S1500000x1 S1500000 [] [0] [0] 1
  dot_S5000x100_S100x256_S5000x256_1_0_0_1_n_n_wf : DotDims.WF S5000x100 S100x256 S5000x256 [1] [0] [0] [1] [] []
  gather_S100000x256_S200000x1_S200000x256_1_0_n_n_0_1_1256_wf : GatherDims.WF S100000x256 S200000x1 S200000x256 [1] [0] [] [0] [] 1 ![1, 256]
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  dot_S4000x256_S256x256_S4000x256_1_0_0_1_n_n_wf : DotDims.WF S4000x256 S256x256 S4000x256 [1] [0] [0] [1] [] []
  gather_S20000x256_S40960x1_S40960x256_1_0_n_n_0_1_1256_wf : GatherDims.WF S20000x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S1024x256_S256x47_S1024x47_1_0_0_1_n_n_wf : DotDims.WF S1024x256 S256x47 S1024x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x100.size a ≤ S100000x100.size a
  hwx0_1 : ∀ i : grid0.Coords, EltTy.bits .f32 = 32 ∨ (Rect.block (s := S100000x100) S5000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x256.size a ≤ S100x256.size a
  hwx0_2 : ∀ i : grid0.Coords, EltTy.bits .f32 = 32 ∨ (Rect.block (s := S100x256) S100x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x256.size a ≤ S100x256.size a
  hwx0_3 : ∀ i : grid0.Coords, EltTy.bits .f32 = 32 ∨ (Rect.block (s := S100x256) S100x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S100000x256.size a
  hwx0_5 : ∀ i : grid0.Coords, EltTy.bits .f32 = 32 ∨ (Rect.block (s := S100000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S20000x256.size a
  hwx1_0 : ∀ i : grid1.Coords, EltTy.bits .f32 = 32 ∨ (Rect.block (s := S20000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S20000x256.size a
  hwx1_1 : ∀ i : grid1.Coords, EltTy.bits .f32 = 32 ∨ (Rect.block (s := S20000x256) S4000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S20000x256.size a
  hwx1_5 : ∀ i : grid1.Coords, EltTy.bits .f32 = 32 ∨ (Rect.block (s := S20000x256) S4000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .f32 = 32 ∨ (Rect.block (s := S4096x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S4096x256.size a
  hwx2_1 : ∀ i : grid2.Coords, EltTy.bits .f32 = 32 ∨ (Rect.block (s := S4096x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x47.size a ≤ S256x47.size a
  hwx2_2 : ∀ i : grid2.Coords, EltTy.bits .f32 = 32 ∨ (Rect.block (s := S256x47) S256x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .f32 = 32 ∨ (Rect.block (s := S256x47) S256x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S47.size a ≤ S47.size a
  hwx2_4 : ∀ i : grid2.Coords, EltTy.bits .f32 = 32 ∨ (Rect.block (s := S47) S47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x47.size a ≤ S4096x47.size a
  hwx2_5 : ∀ i : grid2.Coords, EltTy.bits .f32 = 32 ∨ (Rect.block (s := S4096x47) S1024x47.size (cc2_transform_5 i) (hinb2_5 i)).WholeWords (EltTy.packing .f32)

variable [Facts₀]

def gather_S600000x100_S1500000x1_S1500000x100_1_0_n_n_0_1_1100 : GatherDims S600000x100 S1500000x1 S1500000x100 where
  offsetDims := [1]
  collapsedSliceDims := [0]
  operandBatchingDims := []
  startIndicesBatchingDims := []
  startIndexMap := [0]
  indexVectorDim := 1
  sliceSizes := ![1, 100]
  wf := gather_S600000x100_S1500000x1_S1500000x100_1_0_n_n_0_1_1100_wf
def scatter_S100000x100_S1500000x1_S1500000x100_1_0_0_1 : ScatterDims S100000x100 S1500000x1 S1500000x100 where
  updateWindowDims := [1]
  insertedWindowDims := [0]
  scatterDimsToOperandDims := [0]
  indexVectorDim := 1
  wf := scatter_S100000x100_S1500000x1_S1500000x100_1_0_0_1_wf
def scatter_S100000_S1500000x1_S1500000_n_0_0_1 : ScatterDims S100000 S1500000x1 S1500000 where
  updateWindowDims := []
  insertedWindowDims := [0]
  scatterDimsToOperandDims := [0]
  indexVectorDim := 1
  wf := scatter_S100000_S1500000x1_S1500000_n_0_0_1_wf
def dot_S5000x100_S100x256_S5000x256_1_0_0_1_n_n : DotDims S5000x100 S100x256 S5000x256 where
  lhsContracting := [1]
  rhsContracting := [0]
  lhsNonContracting := [0]
  rhsNonContracting := [1]
  lhsBatch := []
  rhsBatch := []
  wf := dot_S5000x100_S100x256_S5000x256_1_0_0_1_n_n_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S20000x256_S40960x1_S40960x256_1_0_n_n_0_1_1256 : GatherDims S20000x256 S40960x1 S40960x256 where
  offsetDims := [1]
  collapsedSliceDims := [0]
  operandBatchingDims := []
  startIndicesBatchingDims := []
  startIndexMap := [0]
  indexVectorDim := 1
  sliceSizes := ![1, 256]
  wf := gather_S20000x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

abbrev win0_0 : Pipeline.Window sig grid0 :=
  Pipeline.Window.ofSpec (Memref.whole main_v18) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S100x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S100x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S256x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1024x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S600000x100 : Shape := ⟨2, ![600000, 100]⟩
abbrev S1500000 : Shape := ⟨1, ![1500000]⟩
abbrev S200000 : Shape := ⟨1, ![200000]⟩
abbrev S40960 : Shape := ⟨1, ![40960]⟩
abbrev S100x256 : Shape := ⟨2, ![100, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S100000x100 : Shape := ⟨2, ![100000, 100]⟩
abbrev S_ : Shape := ⟨0, ![]⟩
abbrev S1500000x1 : Shape := ⟨2, ![1500000, 1]⟩
abbrev S1500000x100 : Shape := ⟨2, ![1500000, 100]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S20000x256 : Shape := ⟨2, ![20000, 256]⟩
abbrev S200000x1 : Shape := ⟨2, ![200000, 1]⟩
abbrev S200000x256 : Shape := ⟨2, ![200000, 256]⟩
abbrev S20000 : Shape := ⟨1, ![20000]⟩
abbrev S20000x1 : Shape := ⟨2, ![20000, 1]⟩
abbrev S4096x256 : Shape := ⟨2, ![4096, 256]⟩
abbrev S40960x1 : Shape := ⟨2, ![40960, 1]⟩
abbrev S40960x256 : Shape := ⟨2, ![40960, 256]⟩
abbrev S4096 : Shape := ⟨1, ![4096]⟩
abbrev S4096x1 : Shape := ⟨2, ![4096, 1]⟩
abbrev S4096x47 : Shape := ⟨2, ![4096, 47]⟩
abbrev S1x47 : Shape := ⟨2, ![1, 47]⟩

abbrev nBuf : Space → Nat
  | .hbm => 133
  | .vmem => 0
  | .smem => 0
  | _ => 0

abbrev hbmTy0_0 (i : Nat) : BufTy := match i % 128 with
  | 0 => ⟨S600000x100, .f32⟩
  | 1 => ⟨S1500000, .i32⟩
  | 2 => ⟨S1500000, .i32⟩
  | 3 => ⟨S200000, .i32⟩
  | 4 => ⟨S200000, .i32⟩
  | 5 => ⟨S40960, .i32⟩
  | 6 => ⟨S40960, .i32⟩
  | 7 => ⟨S100x256, .f32⟩
  | 8 => ⟨S100x256, .f32⟩
  | 9 => ⟨S256, .f32⟩
  | 10 => ⟨S256x256, .f32⟩
  | 11 => ⟨S256x256, .f32⟩
  | 12 => ⟨S256, .f32⟩
  | 13 => ⟨S256x47, .f32⟩
  | 14 => ⟨S256x47, .f32⟩
  | 15 => ⟨S47, .f32⟩
  | 16 => ⟨S100000x100, .f32⟩
  | 17 => ⟨S_, .i32⟩
  | 18 => ⟨S1500000, .i32⟩
  | 19 => ⟨S1500000, .i1⟩
  | 20 => ⟨S_, .i32⟩
  | 21 => ⟨S1500000, .i32⟩
  | 22 => ⟨S1500000, .i32⟩
  | 23 => ⟨S1500000, .i32⟩
  | 24 => ⟨S1500000x1, .i32⟩
  | 25 => ⟨S1500000x100, .f32⟩
  | 26 => ⟨S_, .f32⟩
  | 27 => ⟨S100000x100, .f32⟩
  | 28 => ⟨S1500000x1, .i32⟩
  | 29 => ⟨S100000x100, .f32⟩
  | 30 => ⟨S_, .f32⟩
  | 31 => ⟨S1500000, .f32⟩
  | 32 => ⟨S_, .f32⟩
  | 33 => ⟨S100000, .f32⟩
  | 34 => ⟨S1500000x1, .i32⟩
  | 35 => ⟨S100000, .f32⟩
  | 36 => ⟨S100000x1, .f32⟩
  | 37 => ⟨S_, .f32⟩
  | 38 => ⟨S100000x1, .f32⟩
  | 39 => ⟨S100000x1, .f32⟩
  | 40 => ⟨S100000x100, .f32⟩
  | 41 => ⟨S100000x100, .f32⟩
  | 42 => ⟨S100000x256, .f32⟩
  | 43 => ⟨S100000x256, .f32⟩
  | 44 => ⟨S100000x256, .f32⟩
  | 45 => ⟨S1x256, .f32⟩
  | 46 => ⟨S100000x256, .f32⟩
  | 47 => ⟨S100000x256, .f32⟩
  | 48 => ⟨S_, .f32⟩
  | 49 => ⟨S100000x256, .f32⟩
  | 50 => ⟨S100000x256, .f32⟩
  | 51 => ⟨S20000x256, .f32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S200000x256, .f32⟩
  | 61 => ⟨S_, .f32⟩
  | 62 => ⟨S20000x256, .f32⟩
  | 63 => ⟨S200000x1, .i32⟩
  | 64 => ⟨S20000x256, .f32⟩
  | 65 => ⟨S_, .f32⟩
  | 66 => ⟨S200000, .f32⟩
  | 67 => ⟨S_, .f32⟩
  | 68 => ⟨S20000, .f32⟩
  | 69 => ⟨S200000x1, .i32⟩
  | 70 => ⟨S20000, .f32⟩
  | 71 => ⟨S20000x1, .f32⟩
  | 72 => ⟨S_, .f32⟩
  | 73 => ⟨S20000x1, .f32⟩
  | 74 => ⟨S20000x1, .f32⟩
  | 75 => ⟨S20000x256, .f32⟩
  | 76 => ⟨S20000x256, .f32⟩
  | 77 => ⟨S20000x256, .f32⟩
  | 78 => ⟨S20000x256, .f32⟩
  | 79 => ⟨S20000x256, .f32⟩
  | 80 => ⟨S1x256, .f32⟩
  | 81 => ⟨S20000x256, .f32⟩
  | 82 => ⟨S20000x256, .f32⟩
  | 83 => ⟨S_, .f32⟩
  | 84 => ⟨S20000x256, .f32⟩
  | 85 => ⟨S20000x256, .f32⟩
  | 86 => ⟨S4096x256, .f32⟩
  | 87 => ⟨S_, .i32⟩
  | 88 => ⟨S40960, .i32⟩
  | 89 => ⟨S40960, .i1⟩
  | 90 => ⟨S_, .i32⟩
  | 91 => ⟨S40960, .i32⟩
  | 92 => ⟨S40960, .i32⟩
  | 93 => ⟨S40960, .i32⟩
  | 94 => ⟨S40960x1, .i32⟩
  | 95 => ⟨S40960x256, .f32⟩
  | 96 => ⟨S_, .f32⟩
  | 97 => ⟨S4096x256, .f32⟩
  | 98 => ⟨S40960x1, .i32⟩
  | 99 => ⟨S4096x256, .f32⟩
  | 100 => ⟨S_, .f32⟩
  | 101 => ⟨S40960, .f32⟩
  | 102 => ⟨S_, .f32⟩
  | 103 => ⟨S4096, .f32⟩
  | 104 => ⟨S40960x1, .i32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S4096x256, .f32⟩
  | 111 => ⟨S4096x256, .f32⟩
  | 112 => ⟨S4096x47, .f32⟩
  | 113 => ⟨S4096x47, .f32⟩
  | 114 => ⟨S4096x47, .f32⟩
  | 115 => ⟨S1x47, .f32⟩
  | 116 => ⟨S4096x47, .f32⟩
  | 117 => ⟨S4096x47, .f32⟩
  | 118 => ⟨S_, .f32⟩
  | 119 => ⟨S4096, .f32⟩
  | 120 => ⟨S_, .f32⟩
  | 121 => ⟨S4096, .f32⟩
  | 122 => ⟨S4096, .f32⟩
  | 123 => ⟨S4096x1, .f32⟩
  | 124 => ⟨S4096x47, .f32⟩
  | 125 => ⟨S4096x47, .f32⟩
  | 126 => ⟨S4096x47, .f32⟩
  | 127 => ⟨S_, .f32⟩
  | _ => ⟨S600000x100, .f32⟩

abbrev hbmTy0_1 (i : Nat) : BufTy := match i % 128 with
  | 0 => ⟨S4096, .f32⟩
  | 1 => ⟨S4096x1, .f32⟩
  | 2 => ⟨S4096x1, .f32⟩
  | 3 => ⟨S4096x47, .f32⟩
  | 4 => ⟨S4096x47, .f32⟩
  | _ => ⟨S600000x100, .f32⟩

abbrev hbmTy (i : Nat) : BufTy := match i / 128 with
  | 0 => hbmTy0_0 i
  | 1 => hbmTy0_1 i
  | _ => ⟨S600000x100, .f32⟩

abbrev bufTy : (tb : Table) → Fin (tcTables nBuf tb) → BufTy
  | .hbm, ⟨i, _⟩ => hbmTy i
  | _, _ => ⟨S600000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_call2_cst : Ref sig .tc := ⟨.hbm, 118, rfl⟩
abbrev main_call2_v0 : Ref sig .tc := ⟨.hbm, 119, rfl⟩
abbrev main_call2_cst_0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_cst_1 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_v80 : Ref sig .tc := ⟨.hbm, 132, rfl⟩

abbrev nD : Nat := 1
abbrev τ : Topo := Topo.v7x

variable {F : FTy → Type} [FloatOps F]

class Facts₀ : Prop where
  slices_S600000x100_S100000x100_0_0 : S600000x100.Slices ![0, 0] S100000x100
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S100000x100 : S_.BroadcastsInDim S100000x100 (![] : Fin 0 → Fin S100000x100.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x100_0_1 : S100000x1.BroadcastsInDim S100000x100 (![0, 1] : Fin 2 → Fin S100000x100.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  slices_S100000x256_S20000x256_0_0 : S100000x256.Slices ![0, 0] S20000x256
  bcast_S_S200000 : S_.BroadcastsInDim S200000 (![] : Fin 0 → Fin S200000.rank)
  bcast_S200000_S200000x1_0 : S200000.BroadcastsInDim S200000x1 (![0] : Fin 1 → Fin S200000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  bcast_S1x256_S20000x256_0_1 : S1x256.BroadcastsInDim S20000x256 (![0, 1] : Fin 2 → Fin S20000x256.rank)
  slices_S20000x256_S4096x256_0_0 : S20000x256.Slices ![0, 0] S4096x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  reducesTo_S4096x47_S4096_d1 : S4096x47.ReducesTo [1] S4096
  h_S_ : 0 < S_.numel
  bcast_S4096x1_S4096x47_0_1 : S4096x1.BroadcastsInDim S4096x47 (![0, 1] : Fin 2 → Fin S4096x47.rank)
  gather_S600000x100_S1500000x1_S1500000x100_1_0_n_n_0_1_1100_wf : GatherDims.WF S600000x100 S1500000x1 S1500000x100 [1] [0] [] [0] [] 1 ![1, 100]
  scatter_S100000x100_S1500000x1_S1500000x100_1_0_0_1_wf : ScatterDims.WF S100000x100 S1500000x1 S1500000x100 [1] [0] [0] 1
  scatter_S100000_S1500000x1_S1500000_n_0_0_1_wf : ScatterDims.WF S100000 S1500000x1 S1500000 [] [0] [0] 1
  dot_S100000x100_S100x256_S100000x256_1_0_0_1_n_n_wf : DotDims.WF S100000x100 S100x256 S100000x256 [1] [0] [0] [1] [] []
  gather_S100000x256_S200000x1_S200000x256_1_0_n_n_0_1_1256_wf : GatherDims.WF S100000x256 S200000x1 S200000x256 [1] [0] [] [0] [] 1 ![1, 256]
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  dot_S20000x256_S256x256_S20000x256_1_0_0_1_n_n_wf : DotDims.WF S20000x256 S256x256 S20000x256 [1] [0] [0] [1] [] []
  gather_S20000x256_S40960x1_S40960x256_1_0_n_n_0_1_1256_wf : GatherDims.WF S20000x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x47_S4096x47_1_0_0_1_n_n_wf : DotDims.WF S4096x256 S256x47 S4096x47 [1] [0] [0] [1] [] []

variable [Facts₀]

def gather_S600000x100_S1500000x1_S1500000x100_1_0_n_n_0_1_1100 : GatherDims S600000x100 S1500000x1 S1500000x100 where
  offsetDims := [1]
  collapsedSliceDims := [0]
  operandBatchingDims := []
  startIndicesBatchingDims := []
  startIndexMap := [0]
  indexVectorDim := 1
  sliceSizes := ![1, 100]
  wf := gather_S600000x100_S1500000x1_S1500000x100_1_0_n_n_0_1_1100_wf
def scatter_S100000x100_S1500000x1_S1500000x100_1_0_0_1 : ScatterDims S100000x100 S1500000x1 S1500000x100 where
  updateWindowDims := [1]
  insertedWindowDims := [0]
  scatterDimsToOperandDims := [0]
  indexVectorDim := 1
  wf := scatter_S100000x100_S1500000x1_S1500000x100_1_0_0_1_wf
def scatter_S100000_S1500000x1_S1500000_n_0_0_1 : ScatterDims S100000 S1500000x1 S1500000 where
  updateWindowDims := []
  insertedWindowDims := [0]
  scatterDimsToOperandDims := [0]
  indexVectorDim := 1
  wf := scatter_S100000_S1500000x1_S1500000_n_0_0_1_wf
def dot_S100000x100_S100x256_S100000x256_1_0_0_1_n_n : DotDims S100000x100 S100x256 S100000x256 where
  lhsContracting := [1]
  rhsContracting := [0]
  lhsNonContracting := [0]
  rhsNonContracting := [1]
  lhsBatch := []
  rhsBatch := []
  wf := dot_S100000x100_S100x256_S100000x256_1_0_0_1_n_n_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S40960x1_S40960x256_1_0_n_n_0_1_1256 : GatherDims S20000x256 S40960x1 S40960x256 where
  offsetDims := [1]
  collapsedSliceDims := [0]
  operandBatchingDims := []
  startIndicesBatchingDims := []
  startIndexMap := [0]
  indexVectorDim := 1
  sliceSizes := ![1, 256]
  wf := gather_S20000x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x47_S4096x47_1_0_0_1_n_n : DotDims S4096x256 S256x47 S4096x47 where
  lhsContracting := [1]
  rhsContracting := [0]
  lhsNonContracting := [0]
  rhsNonContracting := [1]
  lhsBatch := []
  rhsBatch := []
  wf := dot_S4096x256_S256x47_S4096x47_1_0_0_1_n_n_wf

class Facts : Prop extends Facts₀ where

variable [Facts]
-- ==== Proof.KerRun.lean ====
/-
  The kernel program's run with its result named.

  @main is three host stretches, each followed by a region. Under the launch theorem for such programs every weakly
  fair execution terminates without a fault, and the final memory holds, at every buffer that outlives the regions, the
  contents at the last segment boundary: the fold of the stretches' operations and the regions' write-backs from the launch
  memory. Here that is read at the result buffer as well as at the sixteen argument arrays (which end as launched).
-/
import proofs.«137784_j76347338654181_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and every argument array as launched. -/
theorem run_named : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.KerRun

end
-- ==== Proof.HostK.lean ====
/-
  The host side of the three graph-convolution layers, as functions of a layer's input array.

  For a layer with source indices `src`, target indices `dst` (one pair per edge) and input rows `x`: the messages are
  the rows `x[src]` (a negative index counted from the end); they are summed per target row, the edges of each target row
  are counted the same way from ones, the count is raised to at least one, and the sum is divided by it: the mean of a
  row's incoming messages. The layer's target features are the first rows of `x`. Both programs apply exactly these
  operations, so each is kept as one function and never opened.
-/
import proofs.«137784_j76347338654181_1_alg».proof.Proof.Gen.KernelIdeal
import Idealize.ShloMosaic.PureOps.Ideal

noncomputable section

namespace Cert.KernelIdeal.HostTerms

open Cert.KernelIdeal Cert.KernelIdeal.Facts₀ Cert.KernelIdeal.Facts Idealize.ShloMosaic

/-- The mean of the incoming messages of layer 0's 100000 target rows. -/
def agg0 (src dst : (⟨S1500000, .i32⟩ : BufTy).Contents (Elt Ideal)) (x : (⟨S600000x100, .f32⟩ : BufTy).Contents (Elt Ideal)) : (⟨S100000x100, .f32⟩ : BufTy).Contents (Elt Ideal) :=
  (Host.divf (F := Ideal) (Host.scatterAdd (F := Ideal) scatter_S100000x100_S1500000x1_S1500000x100_1_0_0_1 (broadcastInDim S100000x100 ![] bcast_S_S100000x100 (constant (F := Ideal) S_ .f32 0x00000000#32)) (broadcastInDim S1500000x1 ![0] bcast_S1500000_S1500000x1_0 dst) (Host.gather gather_S600000x100_S1500000x1_S1500000x100_1_0_n_n_0_1_1100 x (broadcastInDim S1500000x1 ![0] bcast_S1500000_S1500000x1_0 (select (cmpi .slt src (broadcastInDim S1500000 ![] bcast_S_S1500000 (constantI S_ 32 0#32))) (addi src (broadcastInDim S1500000 ![] bcast_S_S1500000 (constantI S_ 32 600000#32))) src)))) (broadcastInDim S100000x100 ![0, 1] bcast_S100000x1_S100000x100_0_1 (maximumf (F := Ideal) (broadcastInDim S100000x1 ![0] bcast_S100000_S100000x1_0 (Host.scatterAdd (F := Ideal) scatter_S100000_S1500000x1_S1500000_n_0_0_1 (broadcastInDim S100000 ![] bcast_S_S100000 (constant (F := Ideal) S_ .f32 0x00000000#32)) (broadcastInDim S1500000x1 ![0] bcast_S1500000_S1500000x1_0 dst) (broadcastInDim S1500000 ![] bcast_S_S1500000 (constant (F := Ideal) S_ .f32 0x3F800000#32)))) (broadcastInDim S100000x1 ![] bcast_S_S100000x1 (constant (F := Ideal) S_ .f32 0x3F800000#32)))))

/-- Layer 0's target features: the first 100000 rows. -/
def tgt0 (x : (⟨S600000x100, .f32⟩ : BufTy).Contents (Elt Ideal)) : (⟨S100000x100, .f32⟩ : BufTy).Contents (Elt Ideal) :=
  (extractStridedSlice S100000x100 ![0, 0] x slices_S600000x100_S100000x100_0_0)

/-- The mean of the incoming messages of layer 1's 20000 target rows. -/
def agg1 (src dst : (⟨S200000, .i32⟩ : BufTy).Contents (Elt Ideal)) (x : (⟨S100000x256, .f32⟩ : BufTy).Contents (Elt Ideal)) : (⟨S20000x256, .f32⟩ : BufTy).Contents (Elt Ideal) :=
  (Host.divf (F := Ideal) (Host.scatterAdd (F := Ideal) scatter_S20000x256_S200000x1_S200000x256_1_0_0_1 (broadcastInDim S20000x256 ![] bcast_S_S20000x256 (constant (F := Ideal) S_ .f32 0x00000000#32)) (broadcastInDim S200000x1 ![0] bcast_S200000_S200000x1_0 dst) (Host.gather gather_S100000x256_S200000x1_S200000x256_1_0_n_n_0_1_1256 x (broadcastInDim S200000x1 ![0] bcast_S200000_S200000x1_0 (select (cmpi .slt src (broadcastInDim S200000 ![] bcast_S_S200000 (constantI S_ 32 0#32))) (addi src (broadcastInDim S200000 ![] bcast_S_S200000 (constantI S_ 32 100000#32))) src)))) (broadcastInDim S20000x256 ![0, 1] bcast_S20000x1_S20000x256_0_1 (maximumf (F := Ideal) (broadcastInDim S20000x1 ![0] bcast_S20000_S20000x1_0 (Host.scatterAdd (F := Ideal) scatter_S20000_S200000x1_S200000_n_0_0_1 (broadcastInDim S20000 ![] bcast_S_S20000 (constant (F := Ideal) S_ .f32 0x00000000#32)) (broadcastInDim S200000x1 ![0] bcast_S200000_S200000x1_0 dst) (broadcastInDim S200000 ![] bcast_S_S200000 (constant (F := Ideal) S_ .f32 0x3F800000#32)))) (broadcastInDim S20000x1 ![] bcast_S_S20000x1 (constant (F := Ideal) S_ .f32 0x3F800000#32)))))

/-- Layer 1's target features: the first 20000 rows. -/
def tgt1 (x : (⟨S100000x256, .f32⟩ : BufTy).Contents (Elt Ideal)) : (⟨S20000x256, .f32⟩ : BufTy).Contents (Elt Ideal) :=
  (extractStridedSlice S20000x256 ![0, 0] x slices_S100000x256_S20000x256_0_0)

/-- The mean of the incoming messages of layer 2's 4096 target rows. -/
def agg2 (src dst : (⟨S40960, .i32⟩ : BufTy).Contents (Elt Ideal)) (x : (⟨S20000x256, .f32⟩ : BufTy).Contents (Elt Ideal)) : (⟨S4096x256, .f32⟩ : BufTy).Contents (Elt Ideal) :=
  (Host.divf (F := Ideal) (Host.scatterAdd (F := Ideal) scatter_S4096x256_S40960x1_S40960x256_1_0_0_1 (broadcastInDim S4096x256 ![] bcast_S_S4096x256 (constant (F := Ideal) S_ .f32 0x00000000#32)) (broadcastInDim S40960x1 ![0] bcast_S40960_S40960x1_0 dst) (Host.gather gather_S20000x256_S40960x1_S40960x256_1_0_n_n_0_1_1256 x (broadcastInDim S40960x1 ![0] bcast_S40960_S40960x1_0 (select (cmpi .slt src (broadcastInDim S40960 ![] bcast_S_S40960 (constantI S_ 32 0#32))) (addi src (broadcastInDim S40960 ![] bcast_S_S40960 (constantI S_ 32 20000#32))) src)))) (broadcastInDim S4096x256 ![0, 1] bcast_S4096x1_S4096x256_0_1 (maximumf (F := Ideal) (broadcastInDim S4096x1 ![0] bcast_S4096_S4096x1_0 (Host.scatterAdd (F := Ideal) scatter_S4096_S40960x1_S40960_n_0_0_1 (broadcastInDim S4096 ![] bcast_S_S4096 (constant (F := Ideal) S_ .f32 0x00000000#32)) (broadcastInDim S40960x1 ![0] bcast_S40960_S40960x1_0 dst) (broadcastInDim S40960 ![] bcast_S_S40960 (constant (F := Ideal) S_ .f32 0x3F800000#32)))) (broadcastInDim S4096x1 ![] bcast_S_S4096x1 (constant (F := Ideal) S_ .f32 0x3F800000#32)))))

/-- Layer 2's target features: the first 4096 rows. -/
def tgt2 (x : (⟨S20000x256, .f32⟩ : BufTy).Contents (Elt Ideal)) : (⟨S4096x256, .f32⟩ : BufTy).Contents (Elt Ideal) :=
  (extractStridedSlice S4096x256 ![0, 0] x slices_S20000x256_S4096x256_0_0)

end Cert.KernelIdeal.HostTerms

end
-- ==== Proof.KerStage0.lean ====
/-
  Host stretch 0 of the kernel program, read back.

  From any buffer contents `W`, after the stretch's operations: the layer's first operand holds the mean of the incoming
  messages, the second the layer's target rows — both as the shared host functions of the contents of the edge index
  arrays and of the layer's input rows — and the buffers a later stretch or region reads are as they were.
-/
import proofs.«137784_j76347338654181_1_alg».proof.Proof.Gen.KernelIdeal.Launch
import proofs.«137784_j76347338654181_1_alg».proof.Proof.HostK
import Idealize.ShloMosaic.Lib.StableHlo.Run

set_option maxRecDepth 16384

noncomputable section

namespace Cert.KernelIdeal.KerStage

open Cert.KernelIdeal Cert.KernelIdeal.Gen Idealize.ShloMosaic Idealize.ShloMosaic.TcCoe Idealize.SL.Sem Idealize.ShloMosaic.StableHlo

variable (W : Valuation τ sig (Elt Ideal))

set_option maxHeartbeats 1000000 in
/-- The mean of the incoming messages, after the stretch. -/
theorem s0_mean : after (hostOps0 (F := Ideal)) W (Proc.devRef .tc main_v18)
    = HostTerms.agg0 (W (Proc.devRef .tc main_arg1)) (W (Proc.devRef .tc main_arg2)) (W (Proc.devRef .tc main_arg0)) := by
  dsimp only [hostOps0]; after_results_simp; rfl

/-- The target rows, after the stretch. -/
theorem s0_tgt : after (hostOps0 (F := Ideal)) W (Proc.devRef .tc main_v19) = HostTerms.tgt0 (W (Proc.devRef .tc main_arg0)) := by
  dsimp only [hostOps0]; after_results_simp; rfl

/-- The stretch writes nothing to this buffer. -/
theorem s0_keep_main_arg3 : after (hostOps0 (F := Ideal)) W (Proc.devRef .tc main_arg3) = W (Proc.devRef .tc main_arg3) := by
  dsimp only [hostOps0]; after_results_simp

/-- The stretch writes nothing to this buffer. -/
theorem s0_keep_main_arg4 : after (hostOps0 (F := Ideal)) W (Proc.devRef .tc main_arg4) = W (Proc.devRef .tc main_arg4) := by
  dsimp only [hostOps0]; after_results_simp

/-- The stretch writes nothing to this buffer. -/
theorem s0_keep_main_arg5 : after (hostOps0 (F := Ideal)) W (Proc.devRef .tc main_arg5) = W (Proc.devRef .tc main_arg5) := by
  dsimp only [hostOps0]; after_results_simp

/-- The stretch writes nothing to this buffer. -/
theorem s0_keep_main_arg6 : after (hostOps0 (F := Ideal)) W (Proc.devRef .tc main_arg6) = W (Proc.devRef .tc main_arg6) := by
  dsimp only [hostOps0]; after_results_simp

/-- The stretch writes nothing to this buffer. -/
theorem s0_keep_main_arg7 : after (hostOps0 (F := Ideal)) W (Proc.devRef .tc main_arg7) = W (Proc.devRef .tc main_arg7) := by
  dsimp only [hostOps0]; after_results_simp

/-- The stretch writes nothing to this buffer. -/
theorem s0_keep_main_arg8 : after (hostOps0 (F := Ideal)) W (Proc.devRef .tc main_arg8) = W (Proc.devRef .tc main_arg8) := by
  dsimp only [hostOps0]; after_results_simp

/-- The stretch writes nothing to this buffer. -/
theorem s0_keep_main_arg9 : after (hostOps0 (F := Ideal)) W (Proc.devRef .tc main_arg9) = W (Proc.devRef .tc main_arg9) := by
  dsimp only [hostOps0]; after_results_simp

/-- The stretch writes nothing to this buffer. -/
theorem s0_keep_main_arg10 : after (hostOps0 (F := Ideal)) W (Proc.devRef .tc main_arg10) = W (Proc.devRef .tc main_arg10) := by
  dsimp only [hostOps0]; after_results_simp

/-- The stretch writes nothing to this buffer. -/
theorem s0_keep_main_arg11 : after (hostOps0 (F := Ideal)) W (Proc.devRef .tc main_arg11) = W (Proc.devRef .tc main_arg11) := by
  dsimp only [hostOps0]; after_results_simp

/-- The stretch writes nothing to this buffer. -/
theorem s0_keep_main_arg12 : after (hostOps0 (F := Ideal)) W (Proc.devRef .tc main_arg12) = W (Proc.devRef .tc main_arg12) := by
  dsimp only [hostOps0]; after_results_simp

/-- The stretch writes nothing to this buffer. -/
theorem s0_keep_main_arg13 : after (hostOps0 (F := Ideal)) W (Proc.devRef .tc main_arg13) = W (Proc.devRef .tc main_arg13) := by
  dsimp only [hostOps0]; after_results_simp

/-- The stretch writes nothing to this buffer. -/
theorem s0_keep_main_arg14 : after (hostOps0 (F := Ideal)) W (Proc.devRef .tc main_arg14) = W (Proc.devRef .tc main_arg14) := by
  dsimp only [hostOps0]; after_results_simp

/-- The stretch writes nothing to this buffer. -/
theorem s0_keep_main_arg15 : after (hostOps0 (F := Ideal)) W (Proc.devRef .tc main_arg15) = W (Proc.devRef .tc main_arg15) := by
  dsimp only [hostOps0]; after_results_simp

end Cert.KernelIdeal.KerStage

end
-- ==== Proof.KerStage1.lean ====
/-
  Host stretch 1 of the kernel program, read back.

  From any buffer contents `W`, after the stretch's operations: the layer's first operand holds the mean of the incoming
  messages, the second the layer's target rows — both as the shared host functions of the contents of the edge index
  arrays and of the layer's input rows — and the buffers a later stretch or region reads are as they were.
-/
import proofs.«137784_j76347338654181_1_alg».proof.Proof.Gen.KernelIdeal.Launch
import proofs.«137784_j76347338654181_1_alg».proof.Proof.HostK
import Idealize.ShloMosaic.Lib.StableHlo.Run

set_option maxRecDepth 16384

noncomputable section

namespace Cert.KernelIdeal.KerStage

open Cert.KernelIdeal Cert.KernelIdeal.Gen Idealize.ShloMosaic Idealize.ShloMosaic.TcCoe Idealize.SL.Sem Idealize.ShloMosaic.StableHlo

variable (W : Valuation τ sig (Elt Ideal))

set_option maxHeartbeats 1000000 in
/-- The mean of the incoming messages, after the stretch. -/
theorem s1_mean : after (hostOps1 (F := Ideal)) W (Proc.devRef .tc main_v39)
    = HostTerms.agg1 (W (Proc.devRef .tc main_arg3)) (W (Proc.devRef .tc main_arg4)) (W (Proc.devRef .tc main_v20)) := by
  dsimp only [hostOps1]; after_results_simp; rfl

/-- The target rows, after the stretch. -/
theorem s1_tgt : after (hostOps1 (F := Ideal)) W (Proc.devRef .tc main_v40) = HostTerms.tgt1 (W (Proc.devRef .tc main_v20)) := by
  dsimp only [hostOps1]; after_results_simp; rfl

/-- The stretch writes nothing to this buffer. -/
theorem s1_keep_main_arg5 : after (hostOps1 (F := Ideal)) W (Proc.devRef .tc main_arg5) = W (Proc.devRef .tc main_arg5) := by
  dsimp only [hostOps1]; after_results_simp

/-- The stretch writes nothing to this buffer. -/
theorem s1_keep_main_arg6 : after (hostOps1 (F := Ideal)) W (Proc.devRef .tc main_arg6) = W (Proc.devRef .tc main_arg6) := by
  dsimp only [hostOps1]; after_results_simp

/-- The stretch writes nothing to this buffer. -/
theorem s1_keep_main_arg10 : after (hostOps1 (F := Ideal)) W (Proc.devRef .tc main_arg10) = W (Proc.devRef .tc main_arg10) := by
  dsimp only [hostOps1]; after_results_simp

/-- The stretch writes nothing to this buffer. -/
theorem s1_keep_main_arg11 : after (hostOps1 (F := Ideal)) W (Proc.devRef .tc main_arg11) = W (Proc.devRef .tc main_arg11) := by
  dsimp only [hostOps1]; after_results_simp

/-- The stretch writes nothing to this buffer. -/
theorem s1_keep_main_arg12 : after (hostOps1 (F := Ideal)) W (Proc.devRef .tc main_arg12) = W (Proc.devRef .tc main_arg12) := by
  dsimp only [hostOps1]; after_results_simp

/-- The stretch writes nothing to this buffer. -/
theorem s1_keep_main_arg13 : after (hostOps1 (F := Ideal)) W (Proc.devRef .tc main_arg13) = W (Proc.devRef .tc main_arg13) := by
  dsimp only [hostOps1]; after_results_simp

/-- The stretch writes nothing to this buffer. -/
theorem s1_keep_main_arg14 : after (hostOps1 (F := Ideal)) W (Proc.devRef .tc main_arg14) = W (Proc.devRef .tc main_arg14) := by
  dsimp only [hostOps1]; after_results_simp

/-- The stretch writes nothing to this buffer. -/
theorem s1_keep_main_arg15 : after (hostOps1 (F := Ideal)) W (Proc.devRef .tc main_arg15) = W (Proc.devRef .tc main_arg15) := by
  dsimp only [hostOps1]; after_results_simp

end Cert.KernelIdeal.KerStage

end
-- ==== Proof.KerStage2.lean ====
/-
  Host stretch 2 of the kernel program, read back.

  From any buffer contents `W`, after the stretch's operations: the layer's first operand holds the mean of the incoming
  messages, the second the layer's target rows — both as the shared host functions of the contents of the edge index
  arrays and of the layer's input rows — and the buffers a later stretch or region reads are as they were.
-/
import proofs.«137784_j76347338654181_1_alg».proof.Proof.Gen.KernelIdeal.Launch
import proofs.«137784_j76347338654181_1_alg».proof.Proof.HostK
import Idealize.ShloMosaic.Lib.StableHlo.Run

set_option maxRecDepth 16384

noncomputable section

namespace Cert.KernelIdeal.KerStage

open Cert.KernelIdeal Cert.KernelIdeal.Gen Idealize.ShloMosaic Idealize.ShloMosaic.TcCoe Idealize.SL.Sem Idealize.ShloMosaic.StableHlo

variable (W : Valuation τ sig (Elt Ideal))

set_option maxHeartbeats 1000000 in
/-- The mean of the incoming messages, after the stretch. -/
theorem s2_mean : after (hostOps2 (F := Ideal)) W (Proc.devRef .tc main_v60)
    = HostTerms.agg2 (W (Proc.devRef .tc main_arg5)) (W (Proc.devRef .tc main_arg6)) (W (Proc.devRef .tc main_v41)) := by
  dsimp only [hostOps2]; after_results_simp; rfl

/-- The target rows, after the stretch. -/
theorem s2_tgt : after (hostOps2 (F := Ideal)) W (Proc.devRef .tc main_v61) = HostTerms.tgt2 (W (Proc.devRef .tc main_v41)) := by
  dsimp only [hostOps2]; after_results_simp; rfl

/-- The stretch writes nothing to this buffer. -/
theorem s2_keep_main_arg13 : after (hostOps2 (F := Ideal)) W (Proc.devRef .tc main_arg13) = W (Proc.devRef .tc main_arg13) := by
  dsimp only [hostOps2]; after_results_simp

/-- The stretch writes nothing to this buffer. -/
theorem s2_keep_main_arg14 : after (hostOps2 (F := Ideal)) W (Proc.devRef .tc main_arg14) = W (Proc.devRef .tc main_arg14) := by
  dsimp only [hostOps2]; after_results_simp

/-- The stretch writes nothing to this buffer. -/
theorem s2_keep_main_arg15 : after (hostOps2 (F := Ideal)) W (Proc.devRef .tc main_arg15) = W (Proc.devRef .tc main_arg15) := by
  dsimp only [hostOps2]; after_results_simp

end Cert.KernelIdeal.KerStage

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Region0.lean ====
/-
  Region 0 of the kernel program: the dense part of graph-convolution layer 0, tiled over the rows.

  Each grid point `t` loads rows `[5000·t, 5000·(t+1))` of the two `[100000, 100]` operands (the neighbourhood mean and the
  target features), the whole `[100, 256]` weights and the `[256]` bias, and writes the same rows of the `[100000, 256]`
  result. The body's stored value, entry by entry, is the layer of LibDense on the loaded blocks; a row of the
  result depends on the same row of the two operands only, so the block a point writes back is the restriction of
  the layer of the WHOLE operand arrays to the point's rows. The 20 blocks cover every row, so the result array
  after the region is that layer of the arrays as the region finds them.
-/
import proofs.«137784_j76347338654181_1_alg».proof.Proof.Gen.KernelIdeal.Frame
import proofs.«137784_j76347338654181_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The layer's value as one function of the five operand arrays. -/
abbrev layer (mean xt : S100000x100.Idx → EReal) (wl wr : S100x256.Idx → EReal) (b : S256.Idx → EReal) : S100000x256.Idx → EReal :=
  LibDense.relu (n := 100000) (K := 100) (d := 256) mean xt wl wr b

/-- The same on one block of rows. -/
abbrev layerBlk (mean xt : S5000x100.Idx → EReal) (wl wr : S100x256.Idx → EReal) (b : S256.Idx → EReal) : S5000x256.Idx → EReal :=
  LibDense.relu (n := 5000) (K := 100) (d := 256) mean xt wl wr b

theorem hz2 : (![0, 0] : Fin 2 → Nat) = fun _ => 0 := funext fun a => by fin_cases a <;> rfl
theorem hz1 : (![0] : Fin 1 → Nat) = fun _ => 0 := funext fun a => by fin_cases a <;> rfl

/-- The block's matrix products contract over the `100` columns of a row. -/
theorem dot_plain : dot_S5000x100_S100x256_S5000x256_1_0_0_1_n_n = DotDims.plain 5000 100 256 := rfl

/-- The body's stored value is the layer of its loaded blocks. -/
theorem pay_eq (x0 x1 : Vec Ideal S5000x100 .f32) (x2 x3 : Vec Ideal S100x256 .f32) (x4 : Vec Ideal S256 .f32) :
    k0_pay1 (F := Ideal) x0 x1 x2 x3 x4 = layerBlk x0 x1 x2 x3 x4 := by
  funext i
  unfold k0_pay1
  rw [dot_plain, shapeCast_self, shapeCast_self]
  show max ((FloatOps.matmul (DotDims.plain 5000 100 256) none (truncf .bf16 x0 bitsLt_bf16_f32) (truncf .bf16 x2 bitsLt_bf16_f32) (constant (F := Ideal) S5000x256 .f32 0x00000000#32) i
      + FloatOps.matmul (DotDims.plain 5000 100 256) none (truncf .bf16 x1 bitsLt_bf16_f32) (truncf .bf16 x3 bitsLt_bf16_f32) (constant (F := Ideal) S5000x256 .f32 0x00000000#32) i)
      + broadcastTo S5000x256 (shapeCast S1x256 x4 shapeCasts_S256_S1x256) broadcasts_S1x256_S5000x256 i) (Ideal.ofBits .f32 0x00000000#32) = _
  rw [LibDense.matmul_plain, LibDense.matmul_plain, LibDense.bias_row]
  rfl

/-- The printed index maps over the grid: the two row operands and the result move together down the rows, one block per
    point; the weights and the bias stay. -/
theorem idx_facts : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 19 :=
  (by decide +kernel : ∀ t : Fin grid0.N, _)

/-- Every block of rows is some point's. -/
theorem idx_onto : ∀ q : Fin 20, ∃ t : Fin cfg0.N, win0_5.index t = ![q.val, 0] :=
  (by decide +kernel : ∀ q : Fin 20, ∃ t : Fin grid0.N, win0_5.index t = ![q.val, 0])

/-! ## The input blocks, read where the result's block says -/

section Blocks
variable (c : Dev nD) (t : Fin cfg0.N) (j : S5000x256.Idx)

/-- Row operand `w` (0: the mean, 1: the target features) at (row of `j`, `k`). -/
theorem rd0 (k : Fin 100) :
    iblk0 V c 0 t (ix2 (j 0) k) = (V c main_v18 : S100000x100.Idx → EReal) (ix2 ((((cfg0.win 5).blk t).view.emb j) 0) k) := by
  obtain ⟨e0, e1, e2, e3, e4, e5, e6, e7, e8, e9, e10⟩ := idx_facts t
  show V c main_v18 (((cfg0.win 0).blk t).view.emb (ix2 (j 0) k)) = V c main_v18 (ix2 ((((cfg0.win 5).blk t).view.emb j) 0) k)
  refine congrArg (V c main_v18) (funext fun a => Fin.ext ?_)
  match a with
  | ⟨0, _⟩ => show win0_0.index t (0 : Fin 2) * 5000 + 1 * (j 0).val = win0_5.index t (0 : Fin 2) * 5000 + 1 * (j 0).val; omega
  | ⟨1, _⟩ => show win0_0.index t (1 : Fin 2) * 100 + 1 * k.val = k.val; omega

theorem rd1 (k : Fin 100) :
    iblk0 V c 1 t (ix2 (j 0) k) = (V c main_v19 : S100000x100.Idx → EReal) (ix2 ((((cfg0.win 5).blk t).view.emb j) 0) k) := by
  obtain ⟨e0, e1, e2, e3, e4, e5, e6, e7, e8, e9, e10⟩ := idx_facts t
  show V c main_v19 (((cfg0.win 1).blk t).view.emb (ix2 (j 0) k)) = V c main_v19 (ix2 ((((cfg0.win 5).blk t).view.emb j) 0) k)
  refine congrArg (V c main_v19) (funext fun a => Fin.ext ?_)
  match a with
  | ⟨0, _⟩ => show win0_1.index t (0 : Fin 2) * 5000 + 1 * (j 0).val = win0_5.index t (0 : Fin 2) * 5000 + 1 * (j 0).val; omega
  | ⟨1, _⟩ => show win0_1.index t (1 : Fin 2) * 100 + 1 * k.val = k.val; omega

/-- The weights (2: left, 3: right) at (`k`, column of `j`). -/
theorem rd2 (k : Fin 100) :
    iblk0 V c 2 t (ix2 k (j 1)) = (V c main_arg7 : S100x256.Idx → EReal) (ix2 k ((((cfg0.win 5).blk t).view.emb j) 1)) := by
  obtain ⟨e0, e1, e2, e3, e4, e5, e6, e7, e8, e9, e10⟩ := idx_facts t
  show V c main_arg7 (((cfg0.win 2).blk t).view.emb (ix2 k (j 1))) = V c main_arg7 (ix2 k ((((cfg0.win 5).blk t).view.emb j) 1))
  refine congrArg (V c main_arg7) (funext fun a => Fin.ext ?_)
  match a with
  | ⟨0, _⟩ => show win0_2.index t (0 : Fin 2) * 100 + 1 * k.val = k.val; omega
  | ⟨1, _⟩ => show win0_2.index t (1 : Fin 2) * 256 + 1 * (j 1).val = win0_5.index t (1 : Fin 2) * 256 + 1 * (j 1).val; omega

theorem rd3 (k : Fin 100) :
    iblk0 V c 3 t (ix2 k (j 1)) = (V c main_arg8 : S100x256.Idx → EReal) (ix2 k ((((cfg0.win 5).blk t).view.emb j) 1)) := by
  obtain ⟨e0, e1, e2, e3, e4, e5, e6, e7, e8, e9, e10⟩ := idx_facts t
  show V c main_arg8 (((cfg0.win 3).blk t).view.emb (ix2 k (j 1))) = V c main_arg8 (ix2 k ((((cfg0.win 5).blk t).view.emb j) 1))
  refine congrArg (V c main_arg8) (funext fun a => Fin.ext ?_)
  match a with
  | ⟨0, _⟩ => show win0_3.index t (0 : Fin 2) * 100 + 1 * k.val = k.val; omega
  | ⟨1, _⟩ => show win0_3.index t (1 : Fin 2) * 256 + 1 * (j 1).val = win0_5.index t (1 : Fin 2) * 256 + 1 * (j 1).val; omega

/-- The bias at the column of `j`. -/
theorem rd4 (q : Fin 256) (hq : q.val = (j 1).val) :
    iblk0 V c 4 t (ix1 q) = (V c main_arg9 : S256.Idx → EReal) (ix1 ((((cfg0.win 5).blk t).view.emb j) 1)) := by
  obtain ⟨e0, e1, e2, e3, e4, e5, e6, e7, e8, e9, e10⟩ := idx_facts t
  show V c main_arg9 (((cfg0.win 4).blk t).view.emb (ix1 q)) = V c main_arg9 (ix1 ((((cfg0.win 5).blk t).view.emb j) 1))
  refine congrArg (V c main_arg9) (funext fun a => Fin.ext ?_)
  match a with
  | ⟨0, _⟩ => show win0_4.index t (0 : Fin 1) * 256 + 1 * q.val = win0_5.index t (1 : Fin 2) * 256 + 1 * (j 1).val; omega

end Blocks

/-- The layer of the point's input blocks, at an entry of the block, is the layer of the whole arrays at that entry of
    the array: every row and column the entry reads is read at the same place. -/
theorem block_eq (c : Dev nD) (t : Fin cfg0.N) (j : S5000x256.Idx) :
    layerBlk (iblk0 V c 0 t) (iblk0 V c 1 t) (iblk0 V c 2 t) (iblk0 V c 3 t) (iblk0 V c 4 t) j
      = layer (V c main_v18) (V c main_v19) (V c main_arg7) (V c main_arg8) (V c main_arg9) (((cfg0.win 5).blk t).view.emb j) := by
  exact LibDense.relu_congr (n := 5000) (n' := 100000) (K := 100) (d := 256) _ _ _ _ _ _ _ _ _ _ j _
    (rd0 V c t j) (rd1 V c t j) (rd2 V c t j) (rd3 V c t j) (rd4 V c t j (j 1) rfl)

/-- What point `t` writes back is block `t` of the layer of the operand arrays as the region finds them. -/
theorem flushed_eq (c : Dev nD) (t : Fin cfg0.N) :
    (dat0 V c).flushed 5 t = ((cfg0.win 5).blk t).view.read (Elt Ideal)
      (layer (V c main_v18) (V c main_v19) (V c main_arg7) (V c main_arg8) (V c main_arg9)) := by
  show (cfg0.win 5).cut (grid0.coords t) ((dat0 V c).after 5 t) = _
  rw [after0_5]
  unfold out0_5
  rw [View.canon_unit_zero hz2]
  simp only [View.ld_unit_zero (S := S5000x100) hz2, View.ld_unit_zero (S := S100x256) hz2, View.ld_unit_zero (S := S256) hz1]
  rw [pay_eq]
  funext j
  exact block_eq V c t j

/-- An index of the result array is in point `t`'s block iff each coordinate is in the block's range on its axis. -/
theorem mem_blk (t : Fin cfg0.N) (i : S100000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v20).slice (win0_5.rect t)).set ↔ _
  rw [View.set_slice_whole, Rect.mem_set_unit]
  exact Iff.rfl

/-- Every entry of the result is in the block of the point that owns its row. -/
theorem cover (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 256 ≤ (i 1).val ∧ (i 1).val < win0_5.index t (1 : Fin 2) * 256 + 256; omega

/-- The result array after the region: the layer of the five operand arrays as the region finds them. -/
theorem final (c : Dev nD) :
    (dat0 V c).arrAt 5 cfg0.N
      = layer (V c main_v18) (V c main_v19) (V c main_arg7) (V c main_arg8) (V c main_arg9) :=
  (dat0 V c).arrAt_eq_of_cover 5 _ (fun t _ => flushed_eq V c t) cover

end Cert.KernelIdeal.Region0

end
-- ==== Proof.Region1.lean ====
/-
  Region 1 of the kernel program: the dense part of graph-convolution layer 1, tiled over the rows.

  Each grid point `t` loads rows `[4000·t, 4000·(t+1))` of the two `[20000, 256]` operands (the neighbourhood mean and the
  target features), the whole `[256, 256]` weights and the `[256]` bias, and writes the same rows of the `[20000, 256]`
  result. The body's stored value, entry by entry, is the layer of LibDense on the loaded blocks; a row of the
  result depends on the same row of the two operands only, so the block a point writes back is the restriction of
  the layer of the WHOLE operand arrays to the point's rows. The 5 blocks cover every row, so the result array
  after the region is that layer of the arrays as the region finds them.
-/
import proofs.«137784_j76347338654181_1_alg».proof.Proof.Gen.KernelIdeal.Frame
import proofs.«137784_j76347338654181_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The layer's value as one function of the five operand arrays. -/
abbrev layer (mean xt : S20000x256.Idx → EReal) (wl wr : S256x256.Idx → EReal) (b : S256.Idx → EReal) : S20000x256.Idx → EReal :=
  LibDense.relu (n := 20000) (K := 256) (d := 256) mean xt wl wr b

/-- The same on one block of rows. -/
abbrev layerBlk (mean xt : S4000x256.Idx → EReal) (wl wr : S256x256.Idx → EReal) (b : S256.Idx → EReal) : S4000x256.Idx → EReal :=
  LibDense.relu (n := 4000) (K := 256) (d := 256) mean xt wl wr b

theorem hz2 : (![0, 0] : Fin 2 → Nat) = fun _ => 0 := funext fun a => by fin_cases a <;> rfl
theorem hz1 : (![0] : Fin 1 → Nat) = fun _ => 0 := funext fun a => by fin_cases a <;> rfl

/-- The block's matrix products contract over the `256` columns of a row. -/
theorem dot_plain : dot_S4000x256_S256x256_S4000x256_1_0_0_1_n_n = DotDims.plain 4000 256 256 := rfl

/-- The body's stored value is the layer of its loaded blocks. -/
theorem pay_eq (x0 x1 : Vec Ideal S4000x256 .f32) (x2 x3 : Vec Ideal S256x256 .f32) (x4 : Vec Ideal S256 .f32) :
    k1_pay1 (F := Ideal) x0 x1 x2 x3 x4 = layerBlk x0 x1 x2 x3 x4 := by
  funext i
  unfold k1_pay1
  rw [dot_plain, shapeCast_self, shapeCast_self]
  show max ((FloatOps.matmul (DotDims.plain 4000 256 256) none (truncf .bf16 x0 bitsLt_bf16_f32) (truncf .bf16 x2 bitsLt_bf16_f32) (constant (F := Ideal) S4000x256 .f32 0x00000000#32) i
      + FloatOps.matmul (DotDims.plain 4000 256 256) none (truncf .bf16 x1 bitsLt_bf16_f32) (truncf .bf16 x3 bitsLt_bf16_f32) (constant (F := Ideal) S4000x256 .f32 0x00000000#32) i)
      + broadcastTo S4000x256 (shapeCast S1x256 x4 shapeCasts_S256_S1x256) broadcasts_S1x256_S4000x256 i) (Ideal.ofBits .f32 0x00000000#32) = _
  rw [LibDense.matmul_plain, LibDense.matmul_plain, LibDense.bias_row]
  rfl

/-- The printed index maps over the grid: the two row operands and the result move together down the rows, one block per
    point; the weights and the bias stay. -/
theorem idx_facts : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 ∧ win1_5.index t (0 : Fin 2) ≤ 4 :=
  (by decide +kernel : ∀ t : Fin grid1.N, _)

/-- Every block of rows is some point's. -/
theorem idx_onto : ∀ q : Fin 5, ∃ t : Fin cfg1.N, win1_5.index t = ![q.val, 0] :=
  (by decide +kernel : ∀ q : Fin 5, ∃ t : Fin grid1.N, win1_5.index t = ![q.val, 0])

/-! ## The input blocks, read where the result's block says -/

section Blocks
variable (c : Dev nD) (t : Fin cfg1.N) (j : S4000x256.Idx)

/-- Row operand `w` (0: the mean, 1: the target features) at (row of `j`, `k`). -/
theorem rd0 (k : Fin 256) :
    iblk1 V c 0 t (ix2 (j 0) k) = (V c main_v39 : S20000x256.Idx → EReal) (ix2 ((((cfg1.win 5).blk t).view.emb j) 0) k) := by
  obtain ⟨e0, e1, e2, e3, e4, e5, e6, e7, e8, e9, e10⟩ := idx_facts t
  show V c main_v39 (((cfg1.win 0).blk t).view.emb (ix2 (j 0) k)) = V c main_v39 (ix2 ((((cfg1.win 5).blk t).view.emb j) 0) k)
  refine congrArg (V c main_v39) (funext fun a => Fin.ext ?_)
  match a with
  | ⟨0, _⟩ => show win1_0.index t (0 : Fin 2) * 4000 + 1 * (j 0).val = win1_5.index t (0 : Fin 2) * 4000 + 1 * (j 0).val; omega
  | ⟨1, _⟩ => show win1_0.index t (1 : Fin 2) * 256 + 1 * k.val = k.val; omega

theorem rd1 (k : Fin 256) :
    iblk1 V c 1 t (ix2 (j 0) k) = (V c main_v40 : S20000x256.Idx → EReal) (ix2 ((((cfg1.win 5).blk t).view.emb j) 0) k) := by
  obtain ⟨e0, e1, e2, e3, e4, e5, e6, e7, e8, e9, e10⟩ := idx_facts t
  show V c main_v40 (((cfg1.win 1).blk t).view.emb (ix2 (j 0) k)) = V c main_v40 (ix2 ((((cfg1.win 5).blk t).view.emb j) 0) k)
  refine congrArg (V c main_v40) (funext fun a => Fin.ext ?_)
  match a with
  | ⟨0, _⟩ => show win1_1.index t (0 : Fin 2) * 4000 + 1 * (j 0).val = win1_5.index t (0 : Fin 2) * 4000 + 1 * (j 0).val; omega
  | ⟨1, _⟩ => show win1_1.index t (1 : Fin 2) * 256 + 1 * k.val = k.val; omega

/-- The weights (2: left, 3: right) at (`k`, column of `j`). -/
theorem rd2 (k : Fin 256) :
    iblk1 V c 2 t (ix2 k (j 1)) = (V c main_arg10 : S256x256.Idx → EReal) (ix2 k ((((cfg1.win 5).blk t).view.emb j) 1)) := by
  obtain ⟨e0, e1, e2, e3, e4, e5, e6, e7, e8, e9, e10⟩ := idx_facts t
  show V c main_arg10 (((cfg1.win 2).blk t).view.emb (ix2 k (j 1))) = V c main_arg10 (ix2 k ((((cfg1.win 5).blk t).view.emb j) 1))
  refine congrArg (V c main_arg10) (funext fun a => Fin.ext ?_)
  match a with
  | ⟨0, _⟩ => show win1_2.index t (0 : Fin 2) * 256 + 1 * k.val = k.val; omega
  | ⟨1, _⟩ => show win1_2.index t (1 : Fin 2) * 256 + 1 * (j 1).val = win1_5.index t (1 : Fin 2) * 256 + 1 * (j 1).val; omega

theorem rd3 (k : Fin 256) :
    iblk1 V c 3 t (ix2 k (j 1)) = (V c main_arg11 : S256x256.Idx → EReal) (ix2 k ((((cfg1.win 5).blk t).view.emb j) 1)) := by
  obtain ⟨e0, e1, e2, e3, e4, e5, e6, e7, e8, e9, e10⟩ := idx_facts t
  show V c main_arg11 (((cfg1.win 3).blk t).view.emb (ix2 k (j 1))) = V c main_arg11 (ix2 k ((((cfg1.win 5).blk t).view.emb j) 1))
  refine congrArg (V c main_arg11) (funext fun a => Fin.ext ?_)
  match a with
  | ⟨0, _⟩ => show win1_3.index t (0 : Fin 2) * 256 + 1 * k.val = k.val; omega
  | ⟨1, _⟩ => show win1_3.index t (1 : Fin 2) * 256 + 1 * (j 1).val = win1_5.index t (1 : Fin 2) * 256 + 1 * (j 1).val; omega

/-- The bias at the column of `j`. -/
theorem rd4 (q : Fin 256) (hq : q.val = (j 1).val) :
    iblk1 V c 4 t (ix1 q) = (V c main_arg12 : S256.Idx → EReal) (ix1 ((((cfg1.win 5).blk t).view.emb j) 1)) := by
  obtain ⟨e0, e1, e2, e3, e4, e5, e6, e7, e8, e9, e10⟩ := idx_facts t
  show V c main_arg12 (((cfg1.win 4).blk t).view.emb (ix1 q)) = V c main_arg12 (ix1 ((((cfg1.win 5).blk t).view.emb j) 1))
  refine congrArg (V c main_arg12) (funext fun a => Fin.ext ?_)
  match a with
  | ⟨0, _⟩ => show win1_4.index t (0 : Fin 1) * 256 + 1 * q.val = win1_5.index t (1 : Fin 2) * 256 + 1 * (j 1).val; omega

end Blocks

/-- The layer of the point's input blocks, at an entry of the block, is the layer of the whole arrays at that entry of
    the array: every row and column the entry reads is read at the same place. -/
theorem block_eq (c : Dev nD) (t : Fin cfg1.N) (j : S4000x256.Idx) :
    layerBlk (iblk1 V c 0 t) (iblk1 V c 1 t) (iblk1 V c 2 t) (iblk1 V c 3 t) (iblk1 V c 4 t) j
      = layer (V c main_v39) (V c main_v40) (V c main_arg10) (V c main_arg11) (V c main_arg12) (((cfg1.win 5).blk t).view.emb j) := by
  exact LibDense.relu_congr (n := 4000) (n' := 20000) (K := 256) (d := 256) _ _ _ _ _ _ _ _ _ _ j _
    (rd0 V c t j) (rd1 V c t j) (rd2 V c t j) (rd3 V c t j) (rd4 V c t j (j 1) rfl)

/-- What point `t` writes back is block `t` of the layer of the operand arrays as the region finds them. -/
theorem flushed_eq (c : Dev nD) (t : Fin cfg1.N) :
    (dat1 V c).flushed 5 t = ((cfg1.win 5).blk t).view.read (Elt Ideal)
      (layer (V c main_v39) (V c main_v40) (V c main_arg10) (V c main_arg11) (V c main_arg12)) := by
  show (cfg1.win 5).cut (grid1.coords t) ((dat1 V c).after 5 t) = _
  rw [after1_5]
  unfold out1_5
  rw [View.canon_unit_zero hz2]
  simp only [View.ld_unit_zero (S := S4000x256) hz2, View.ld_unit_zero (S := S256x256) hz2, View.ld_unit_zero (S := S256) hz1]
  rw [pay_eq]
  funext j
  exact block_eq V c t j

/-- An index of the result array is in point `t`'s block iff each coordinate is in the block's range on its axis. -/
theorem mem_blk (t : Fin cfg1.N) (i : S20000x256.Idx) :
    i ∈ ((cfg1.win 5).blk t).view.set ↔ ∀ a : Fin 2, win1_5.index t a * S4000x256.size a ≤ (i a).val ∧ (i a).val < win1_5.index t a * S4000x256.size a + S4000x256.size a := by
  show i ∈ ((View.whole main_v41).slice (win1_5.rect t)).set ↔ _
  rw [View.set_slice_whole, Rect.mem_set_unit]
  exact Iff.rfl

/-- Every entry of the result is in the block of the point that owns its row. -/
theorem cover (i : S20000x256.Idx) : ∃ t : Fin cfg1.N, (cfg1.win 5).flush t = true ∧ i ∈ ((cfg1.win 5).blk t).view.set := by
  have hi0 : (i 0).val < 20000 := (i 0).isLt
  have hi1 : (i 1).val < 256 := (i 1).isLt
  obtain ⟨t, ht⟩ := idx_onto ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 256 ≤ (i 1).val ∧ (i 1).val < win1_5.index t (1 : Fin 2) * 256 + 256; omega

/-- The result array after the region: the layer of the five operand arrays as the region finds them. -/
theorem final (c : Dev nD) :
    (dat1 V c).arrAt 5 cfg1.N
      = layer (V c main_v39) (V c main_v40) (V c main_arg10) (V c main_arg11) (V c main_arg12) :=
  (dat1 V c).arrAt_eq_of_cover 5 _ (fun t _ => flushed_eq V c t) cover

end Cert.KernelIdeal.Region1

end
-- ==== Proof.LibLogSoftmax.lean ====
/-
  The row-wise log-softmax on the extended reals, as both programs compute it, and the two column forms it needs.

  For a row `z : Fin d → EReal`: its maximum `M` is taken as the fold of `max` over the row from the word of minus
  infinity, joined once more with that word; the shifted row is `z k - M`; the result at column `q` is
  `(z q - M) - log (∑ k, exp (z k - M))`. Nothing here needs the entries to be finite: the statement is only that the
  result at a row depends on that row alone.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibLogSoftmax

open Idealize.ShloMosaic Idealize.ShloMosaic.ValueIdx

/-- The value of the word of minus infinity. -/
abbrev negInf : EReal := Ideal.ofBits .f32 0xFF800000#32

/-- A row's maximum: the fold of `max` from minus infinity, joined with minus infinity. -/
def rowMax {d : ℕ} (row : Fin d → EReal) : EReal :=
  max negInf ((Finset.univ : Finset (Fin d)).fold max negInf row)

/-- The log-softmax of a row at column `q`. -/
def lsmRow {d : ℕ} (row : Fin d → EReal) (q : Fin d) : EReal :=
  (row q - rowMax row) - Ideal.log (∑ k : Fin d, Ideal.exp (row k - rowMax row))

/-- Row-wise log-softmax of an `[n, d]` array. -/
def logSoftmax {n d : ℕ} (z : (⟨2, ![n, d]⟩ : Shape).Idx → EReal) : (⟨2, ![n, d]⟩ : Shape).Idx → EReal :=
  fun i => lsmRow (fun k => z (ix2 (i 0) k)) (i 1)

/-- Two arrays that agree along a row (each its own row) have the same log-softmax at any column of it. -/
theorem logSoftmax_congr {n n' d : ℕ} (z : (⟨2, ![n, d]⟩ : Shape).Idx → EReal) (z' : (⟨2, ![n', d]⟩ : Shape).Idx → EReal)
    (i : (⟨2, ![n, d]⟩ : Shape).Idx) (i' : (⟨2, ![n', d]⟩ : Shape).Idx) (hcol : (i 1).val = (i' 1).val)
    (hrow : ∀ k : Fin d, z (ix2 (i 0) k) = z' (ix2 (i' 0) k)) : logSoftmax z i = logSoftmax z' i' := by
  unfold logSoftmax
  have hr : (fun k : Fin d => z (ix2 (i 0) k)) = fun k : Fin d => z' (ix2 (i' 0) k) := funext hrow
  have hc : (i 1 : Fin d) = (i' 1 : Fin d) := Fin.ext hcol
  rw [hr, hc]

/-! ## The two column forms: a vector as a column, and a column broadcast along the rows -/

/-- A vector `v : [n]` cast to the column `[n, 1]`, at (r, 0), is `v r`. -/
theorem col_cast {n : ℕ} (v : (⟨1, ![n]⟩ : Shape).Idx → EReal) (h : (⟨1, ![n]⟩ : Shape).ShapeCasts ⟨2, ![n, 1]⟩)
    (y : (⟨2, ![n, 1]⟩ : Shape).Idx) : shapeCast ⟨2, ![n, 1]⟩ v h y = v (ix1 (y 0)) := by
  refine shapeCast_apply v h y (ix1 (y 0)) ?_
  rw [Shape.rowMajor_val_one, Shape.rowMajor_val_two]
  have h1 : (y 1).val < 1 := idx2_lt1 y
  show (y 0).val = (y 0).val * 1 + (y 1).val
  omega

/-- A column `u : [n, 1]` broadcast to `[n, d]`, at (r, j), is `u (r, 0)`. -/
theorem col_bcast {n d : ℕ} (u : (⟨2, ![n, 1]⟩ : Shape).Idx → EReal) (h : (⟨2, ![n, 1]⟩ : Shape).Broadcasts ⟨2, ![n, d]⟩)
    (i : (⟨2, ![n, d]⟩ : Shape).Idx) : broadcastTo ⟨2, ![n, d]⟩ u h i = u (ix2 (i 0) ⟨0, Nat.one_pos⟩) := by
  refine broadcastTo_apply u h i (ix2 (i 0) ⟨0, Nat.one_pos⟩) (fun a => ?_)
  match a with
  | ⟨0, _⟩ =>
    show (i 0).val = if n = 1 then 0 else (i 0).val
    have hlt : (i 0).val < n := idx2_lt0 i
    split
    · omega
    · rfl
  | ⟨1, _⟩ => exact (if_pos rfl).symm

end Cert.LibLogSoftmax

end
-- ==== Proof.Region2.lean ====
/-
  Region 2 of the kernel program: the dense part of the last graph-convolution layer followed by the row-wise
  log-softmax, tiled over the rows.

  Each grid point `t` loads rows `[1024·t, 1024·(t+1))` of the two `[4096, 256]` operands (the neighbourhood mean and the
  target features), the whole `[256, 47]` weights and the `[47]` bias, and writes the same rows of the `[4096, 47]`
  result. The body's stored value is the log-softmax of LibLogSoftmax of the affine part of LibDense on the loaded
  blocks: the row maximum is the fold of `max` along the row from minus infinity, joined with minus infinity; the
  shifted row is exponentiated, summed along the row, and the logarithm of the sum is subtracted. A row of the result
  depends on the same row of the two row operands only, and a block holds all 47 columns of its rows, so the block a
  point writes back is the restriction of the layer of the WHOLE operand arrays to the point's rows. The 4 blocks
  cover every row, so the result array after the region is that layer of the arrays as the region finds them.
-/
import proofs.«137784_j76347338654181_1_alg».proof.Proof.Gen.KernelIdeal.Frame
import proofs.«137784_j76347338654181_1_alg».proof.Proof.LibDense
import proofs.«137784_j76347338654181_1_alg».proof.Proof.LibLogSoftmax
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The layer's value as one function of the five operand arrays. -/
abbrev layer (mean xt : S4096x256.Idx → EReal) (wl wr : S256x47.Idx → EReal) (b : S47.Idx → EReal) : S4096x47.Idx → EReal :=
  LibLogSoftmax.logSoftmax (LibDense.affine (n := 4096) (K := 256) (d := 47) mean xt wl wr b)

/-- The same on one block of rows. -/
abbrev layerBlk (mean xt : S1024x256.Idx → EReal) (wl wr : S256x47.Idx → EReal) (b : S47.Idx → EReal) : S1024x47.Idx → EReal :=
  LibLogSoftmax.logSoftmax (LibDense.affine (n := 1024) (K := 256) (d := 47) mean xt wl wr b)

theorem hz2 : (![0, 0] : Fin 2 → Nat) = fun _ => 0 := funext fun a => by fin_cases a <;> rfl
theorem hz1 : (![0] : Fin 1 → Nat) = fun _ => 0 := funext fun a => by fin_cases a <;> rfl

/-- The block's matrix products contract over the `256` columns of a row. -/
theorem dot_plain : dot_S1024x256_S256x47_S1024x47_1_0_0_1_n_n = DotDims.plain 1024 256 47 := rfl

/-! ## The body's stored value, stage by stage -/

/-- The affine part as the body spells it: two matrix products into zero accumulators, added, plus the bias row. -/
def affVec (x0 x1 : Vec Ideal S1024x256 .f32) (x2 x3 : Vec Ideal S256x47 .f32) (x4 : Vec Ideal S47 .f32) : FVec Ideal S1024x47 .f32 :=
  addf (addf
      (matmul dot_S1024x256_S256x47_S1024x47_1_0_0_1_n_n none
        (truncf .bf16 (shapeCast S1024x256 x0 shapeCasts_S1024x256_S1024x256) bitsLt_bf16_f32) (truncf .bf16 x2 bitsLt_bf16_f32)
        (constant S1024x47 .f32 0x00000000#32))
      (matmul dot_S1024x256_S256x47_S1024x47_1_0_0_1_n_n none
        (truncf .bf16 (shapeCast S1024x256 x1 shapeCasts_S1024x256_S1024x256) bitsLt_bf16_f32) (truncf .bf16 x3 bitsLt_bf16_f32)
        (constant S1024x47 .f32 0x00000000#32)))
    (broadcastTo S1024x47 (shapeCast S1x47 x4 shapeCasts_S47_S1x47) broadcasts_S1x47_S1024x47)

/-- The row maxima: the reduction of `max` along each row from minus infinity, joined with minus infinity. -/
def rowMaxVec (z : FVec Ideal S1024x47 .f32) : FVec Ideal S1024 .f32 :=
  maximumf (broadcast S1024 (Scalar.ofBits .f32 0xFF800000#32 : Ideal .f32))
    (multiReduction .maximumf [1] S1024 z 0xFF800000#32 reduces_S1024x47_S1024 (.inl rfl) rfl)

/-- The rows shifted by their maxima. -/
def shiftVec (z : FVec Ideal S1024x47 .f32) : FVec Ideal S1024x47 .f32 :=
  subf z (broadcastTo S1024x47 (shapeCast S1024x1 (rowMaxVec z) shapeCasts_S1024_S1024x1) broadcasts_S1024x1_S1024x47)

/-- The logarithm of each shifted row's sum of exponentials, as a column. -/
def lseVec (z : FVec Ideal S1024x47 .f32) : FVec Ideal S1024x1 .f32 :=
  log (shapeCast S1024x1
    (multiReduction .add [1] S1024 (exp (shiftVec z)) 0x00000000#32 reduces_S1024x47_S1024 (.inl rfl) rfl) shapeCasts_S1024_S1024x1)

/-- The log-softmax as the body spells it, from the affine part. -/
def lsmVec (z : FVec Ideal S1024x47 .f32) : FVec Ideal S1024x47 .f32 :=
  subf (shiftVec z) (broadcastTo S1024x47 (lseVec z) broadcasts_S1024x1_S1024x47)

/-- The body's stored value is these stages composed. -/
theorem pay_split (x0 x1 : Vec Ideal S1024x256 .f32) (x2 x3 : Vec Ideal S256x47 .f32) (x4 : Vec Ideal S47 .f32) :
    k2_pay1 (F := Ideal) x0 x1 x2 x3 x4 = lsmVec (affVec x0 x1 x2 x3 x4) := rfl

/-- The affine stage is the affine part of LibDense. -/
theorem affVec_eq (x0 x1 : Vec Ideal S1024x256 .f32) (x2 x3 : Vec Ideal S256x47 .f32) (x4 : Vec Ideal S47 .f32) :
    affVec x0 x1 x2 x3 x4 = LibDense.affine (n := 1024) (K := 256) (d := 47) x0 x1 x2 x3 x4 := by
  funext i
  unfold affVec
  rw [dot_plain, shapeCast_self, shapeCast_self]
  show (FloatOps.matmul (DotDims.plain 1024 256 47) none (truncf .bf16 x0 bitsLt_bf16_f32) (truncf .bf16 x2 bitsLt_bf16_f32) (constant (F := Ideal) S1024x47 .f32 0x00000000#32) i
      + FloatOps.matmul (DotDims.plain 1024 256 47) none (truncf .bf16 x1 bitsLt_bf16_f32) (truncf .bf16 x3 bitsLt_bf16_f32) (constant (F := Ideal) S1024x47 .f32 0x00000000#32) i)
      + broadcastTo S1024x47 (shapeCast S1x47 x4 shapeCasts_S47_S1x47) broadcasts_S1x47_S1024x47 i = _
  rw [LibDense.matmul_plain, LibDense.matmul_plain, LibDense.bias_row]
  rfl

/-- The index a reduction along the columns inserts column `k` into, at row `r`, is (r, k). -/
theorem lift_eq (r : S1024.Idx) (k : Fin 47) : reduces_S1024x47_S1024.lift r k = ix2 (r 0) k :=
  funext fun a => Fin.ext (by
    match a with
    | ⟨0, _⟩ => rfl
    | ⟨1, _⟩ => rfl)

/-- The row maxima, at row `r`, are the row maximum of LibLogSoftmax of that row. -/
theorem rowMaxVec_eq (z : FVec Ideal S1024x47 .f32) (r : S1024.Idx) :
    rowMaxVec z r = LibLogSoftmax.rowMax (fun k : Fin 47 => z (ix2 (r 0) k)) := by
  show max (Ideal.ofBits .f32 0xFF800000#32)
      (multiReduction .maximumf [1] S1024 z 0xFF800000#32 reduces_S1024x47_S1024 (.inl rfl) rfl r) = _
  refine congrArg (max (Ideal.ofBits .f32 0xFF800000#32)) ?_
  refine (Ideal.multiReduction_maximumf_single z 0xFF800000#32 reduces_S1024x47_S1024 (.inl rfl) rfl r).trans ?_
  have hrow : (z ∘ reduces_S1024x47_S1024.lift r) = fun k : Fin 47 => z (ix2 (r 0) k) :=
    funext fun k => congrArg z (lift_eq r k)
  exact congrArg (fun f : Fin 47 → EReal => (Finset.univ : Finset (Fin 47)).fold max LibLogSoftmax.negInf f) hrow

/-- The shifted rows, entry by entry. -/
theorem shiftVec_eq (z : FVec Ideal S1024x47 .f32) (i : S1024x47.Idx) :
    shiftVec z i = z i - LibLogSoftmax.rowMax (fun k : Fin 47 => z (ix2 (i 0) k)) := by
  show z i - broadcastTo S1024x47 (shapeCast S1024x1 (rowMaxVec z) shapeCasts_S1024_S1024x1) broadcasts_S1024x1_S1024x47 i = _
  refine congrArg (fun m : EReal => z i - m) ?_
  refine (LibLogSoftmax.col_bcast _ broadcasts_S1024x1_S1024x47 i).trans ?_
  refine (LibLogSoftmax.col_cast _ shapeCasts_S1024_S1024x1 _).trans ?_
  exact rowMaxVec_eq z _

/-- The logarithm of the row sums, at row `y 0`. -/
theorem lseVec_eq (z : FVec Ideal S1024x47 .f32) (y : S1024x1.Idx) :
    lseVec z y = Ideal.log (∑ k : Fin 47, Ideal.exp (shiftVec z (ix2 (y 0) k))) := by
  show Ideal.log (shapeCast S1024x1
      (multiReduction .add [1] S1024 (exp (shiftVec z)) 0x00000000#32 reduces_S1024x47_S1024 (.inl rfl) rfl) shapeCasts_S1024_S1024x1 y) = _
  refine congrArg Ideal.log ?_
  refine (LibLogSoftmax.col_cast _ shapeCasts_S1024_S1024x1 y).trans ?_
  refine (Ideal.multiReduction_add_single (exp (shiftVec z)) 0x00000000#32 reduces_S1024x47_S1024 (.inl rfl) rfl _).trans ?_
  exact Finset.sum_congr rfl (fun k _ => congrArg (fun idx => Ideal.exp (shiftVec z idx)) (lift_eq _ k))

/-- The log-softmax stage is the log-softmax of LibLogSoftmax. -/
theorem lsmVec_eq (z : FVec Ideal S1024x47 .f32) : lsmVec z = LibLogSoftmax.logSoftmax z := by
  funext i
  have h0 : shiftVec z i = z (ix2 (i 0) (i 1)) - LibLogSoftmax.rowMax (fun k : Fin 47 => z (ix2 (i 0) k)) :=
    (shiftVec_eq z i).trans
      (congrArg (fun idx => z idx - LibLogSoftmax.rowMax (fun k : Fin 47 => z (ix2 (i 0) k))) (eq_ix2 i))
  have h1 : broadcastTo S1024x47 (lseVec z) broadcasts_S1024x1_S1024x47 i
      = Ideal.log (∑ k : Fin 47, Ideal.exp (z (ix2 (i 0) k) - LibLogSoftmax.rowMax (fun k : Fin 47 => z (ix2 (i 0) k)))) := by
    refine (LibLogSoftmax.col_bcast _ broadcasts_S1024x1_S1024x47 i).trans ?_
    refine (lseVec_eq z _).trans ?_
    refine congrArg Ideal.log (Finset.sum_congr rfl fun k _ => congrArg Ideal.exp ?_)
    exact shiftVec_eq z (ix2 (i 0) k)
  show shiftVec z i - broadcastTo S1024x47 (lseVec z) broadcasts_S1024x1_S1024x47 i = _
  rw [h0, h1]
  rfl

/-- The body's stored value is the layer of its loaded blocks. -/
theorem pay_eq (x0 x1 : Vec Ideal S1024x256 .f32) (x2 x3 : Vec Ideal S256x47 .f32) (x4 : Vec Ideal S47 .f32) :
    k2_pay1 (F := Ideal) x0 x1 x2 x3 x4 = layerBlk x0 x1 x2 x3 x4 :=
  (pay_split x0 x1 x2 x3 x4).trans ((lsmVec_eq _).trans (congrArg LibLogSoftmax.logSoftmax (affVec_eq x0 x1 x2 x3 x4)))

/-- The printed index maps over the grid: the two row operands and the result move together down the rows, one block per
    point; the weights and the bias stay. -/
theorem idx_facts : ∀ t : Fin cfg2.N, win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (1 : Fin 2) = 0 ∧ win2_5.index t (0 : Fin 2) ≤ 3 :=
  (by decide +kernel : ∀ t : Fin grid2.N, _)

/-- Every block of rows is some point's. -/
theorem idx_onto : ∀ q : Fin 4, ∃ t : Fin cfg2.N, win2_5.index t = ![q.val, 0] :=
  (by decide +kernel : ∀ q : Fin 4, ∃ t : Fin grid2.N, win2_5.index t = ![q.val, 0])

/-! ## The input blocks, read where the result's block says -/

section Blocks
variable (c : Dev nD) (t : Fin cfg2.N)

/-- Row operand `w` (0: the mean, 1: the target features) at (row of `j`, `k`). -/
theorem rd0 (j : S1024x47.Idx) (k : Fin 256) :
    iblk2 V c 0 t (ix2 (j 0) k) = (V c main_v60 : S4096x256.Idx → EReal) (ix2 ((((cfg2.win 5).blk t).view.emb j) 0) k) := by
  obtain ⟨e0, e1, e2, e3, e4, e5, e6, e7, e8, e9, e10⟩ := idx_facts t
  show V c main_v60 (((cfg2.win 0).blk t).view.emb (ix2 (j 0) k)) = V c main_v60 (ix2 ((((cfg2.win 5).blk t).view.emb j) 0) k)
  refine congrArg (V c main_v60) (funext fun a => Fin.ext ?_)
  match a with
  | ⟨0, _⟩ => show win2_0.index t (0 : Fin 2) * 1024 + 1 * (j 0).val = win2_5.index t (0 : Fin 2) * 1024 + 1 * (j 0).val; omega
  | ⟨1, _⟩ => show win2_0.index t (1 : Fin 2) * 256 + 1 * k.val = k.val; omega

theorem rd1 (j : S1024x47.Idx) (k : Fin 256) :
    iblk2 V c 1 t (ix2 (j 0) k) = (V c main_v61 : S4096x256.Idx → EReal) (ix2 ((((cfg2.win 5).blk t).view.emb j) 0) k) := by
  obtain ⟨e0, e1, e2, e3, e4, e5, e6, e7, e8, e9, e10⟩ := idx_facts t
  show V c main_v61 (((cfg2.win 1).blk t).view.emb (ix2 (j 0) k)) = V c main_v61 (ix2 ((((cfg2.win 5).blk t).view.emb j) 0) k)
  refine congrArg (V c main_v61) (funext fun a => Fin.ext ?_)
  match a with
  | ⟨0, _⟩ => show win2_1.index t (0 : Fin 2) * 1024 + 1 * (j 0).val = win2_5.index t (0 : Fin 2) * 1024 + 1 * (j 0).val; omega
  | ⟨1, _⟩ => show win2_1.index t (1 : Fin 2) * 256 + 1 * k.val = k.val; omega

/-- The weights (2: left, 3: right) at (`k`, `q`): the block is the whole array. -/
theorem rd2 (k : Fin 256) (q : Fin 47) :
    iblk2 V c 2 t (ix2 k q) = (V c main_arg13 : S256x47.Idx → EReal) (ix2 k q) := by
  obtain ⟨e0, e1, e2, e3, e4, e5, e6, e7, e8, e9, e10⟩ := idx_facts t
  show V c main_arg13 (((cfg2.win 2).blk t).view.emb (ix2 k q)) = V c main_arg13 (ix2 k q)
  refine congrArg (V c main_arg13) (funext fun a => Fin.ext ?_)
  match a with
  | ⟨0, _⟩ => show win2_2.index t (0 : Fin 2) * 256 + 1 * k.val = k.val; omega
  | ⟨1, _⟩ => show win2_2.index t (1 : Fin 2) * 47 + 1 * q.val = q.val; omega

theorem rd3 (k : Fin 256) (q : Fin 47) :
    iblk2 V c 3 t (ix2 k q) = (V c main_arg14 : S256x47.Idx → EReal) (ix2 k q) := by
  obtain ⟨e0, e1, e2, e3, e4, e5, e6, e7, e8, e9, e10⟩ := idx_facts t
  show V c main_arg14 (((cfg2.win 3).blk t).view.emb (ix2 k q)) = V c main_arg14 (ix2 k q)
  refine congrArg (V c main_arg14) (funext fun a => Fin.ext ?_)
  match a with
  | ⟨0, _⟩ => show win2_3.index t (0 : Fin 2) * 256 + 1 * k.val = k.val; omega
  | ⟨1, _⟩ => show win2_3.index t (1 : Fin 2) * 47 + 1 * q.val = q.val; omega

/-- The bias at column `q`: the block is the whole array. -/
theorem rd4 (q : Fin 47) :
    iblk2 V c 4 t (ix1 q) = (V c main_arg15 : S47.Idx → EReal) (ix1 q) := by
  obtain ⟨e0, e1, e2, e3, e4, e5, e6, e7, e8, e9, e10⟩ := idx_facts t
  show V c main_arg15 (((cfg2.win 4).blk t).view.emb (ix1 q)) = V c main_arg15 (ix1 q)
  refine congrArg (V c main_arg15) (funext fun a => Fin.ext ?_)
  match a with
  | ⟨0, _⟩ => show win2_4.index t (0 : Fin 1) * 47 + 1 * q.val = q.val; omega

/-- The column of an entry of the result's block is its column in the array. -/
theorem col_eq (j : S1024x47.Idx) : (j 1).val = ((((cfg2.win 5).blk t).view.emb j) 1).val := by
  obtain ⟨e0, e1, e2, e3, e4, e5, e6, e7, e8, e9, e10⟩ := idx_facts t
  show (j 1).val = win2_5.index t (1 : Fin 2) * 47 + 1 * (j 1).val
  omega

end Blocks

/-- The layer of the point's input blocks, at an entry of the block, is the layer of the whole arrays at that entry of
    the array: the entry's whole row of the affine part is read at the same places, and its column is the same. -/
theorem block_eq (c : Dev nD) (t : Fin cfg2.N) (j : S1024x47.Idx) :
    layerBlk (iblk2 V c 0 t) (iblk2 V c 1 t) (iblk2 V c 2 t) (iblk2 V c 3 t) (iblk2 V c 4 t) j
      = layer (V c main_v60) (V c main_v61) (V c main_arg13) (V c main_arg14) (V c main_arg15) (((cfg2.win 5).blk t).view.emb j) := by
  refine LibLogSoftmax.logSoftmax_congr (n := 1024) (n' := 4096) (d := 47) _ _ j _ (col_eq t j) (fun k => ?_)
  exact LibDense.affine_congr (n := 1024) (n' := 4096) (K := 256) (d := 47) _ _ _ _ _ _ _ _ _ _
    (ix2 (j 0) k) (ix2 ((((cfg2.win 5).blk t).view.emb j) 0) k)
    (rd0 V c t j) (rd1 V c t j) (fun k' => rd2 V c t k' k) (fun k' => rd3 V c t k' k) (rd4 V c t k)

/-- What point `t` writes back is block `t` of the layer of the operand arrays as the region finds them. -/
theorem flushed_eq (c : Dev nD) (t : Fin cfg2.N) :
    (dat2 V c).flushed 5 t = ((cfg2.win 5).blk t).view.read (Elt Ideal)
      (layer (V c main_v60) (V c main_v61) (V c main_arg13) (V c main_arg14) (V c main_arg15)) := by
  show (cfg2.win 5).cut (grid2.coords t) ((dat2 V c).after 5 t) = _
  rw [after2_5]
  unfold out2_5
  rw [View.canon_unit_zero hz2]
  simp only [View.ld_unit_zero (S := S1024x256) hz2, View.ld_unit_zero (S := S256x47) hz2, View.ld_unit_zero (S := S47) hz1]
  rw [pay_eq]
  funext j
  exact block_eq V c t j

/-- An index of the result array is in point `t`'s block iff each coordinate is in the block's range on its axis. -/
theorem mem_blk (t : Fin cfg2.N) (i : S4096x47.Idx) :
    i ∈ ((cfg2.win 5).blk t).view.set ↔ ∀ a : Fin 2, win2_5.index t a * S1024x47.size a ≤ (i a).val ∧ (i a).val < win2_5.index t a * S1024x47.size a + S1024x47.size a := by
  show i ∈ ((View.whole main_v62).slice (win2_5.rect t)).set ↔ _
  rw [View.set_slice_whole, Rect.mem_set_unit]
  exact Iff.rfl

/-- Every entry of the result is in the block of the point that owns its row. -/
theorem cover (i : S4096x47.Idx) : ∃ t : Fin cfg2.N, (cfg2.win 5).flush t = true ∧ i ∈ ((cfg2.win 5).blk t).view.set := by
  have hi0 : (i 0).val < 4096 := (i 0).isLt
  have hi1 : (i 1).val < 47 := (i 1).isLt
  obtain ⟨t, ht⟩ := idx_onto ⟨(i 0).val / 1024, by omega⟩
  have q0 : win2_5.index t (0 : Fin 2) = (i 0).val / 1024 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 47 ≤ (i 1).val ∧ (i 1).val < win2_5.index t (1 : Fin 2) * 47 + 47; omega

/-- The result array after the region: the layer of the five operand arrays as the region finds them. -/
theorem final (c : Dev nD) :
    (dat2 V c).arrAt 5 cfg2.N
      = layer (V c main_v60) (V c main_v61) (V c main_arg13) (V c main_arg14) (V c main_arg15) :=
  (dat2 V c).arrAt_eq_of_cover 5 _ (fun t _ => flushed_eq V c t) cover

end Cert.KernelIdeal.Region2

end
-- ==== Proof.Spec.lean ====
/-
  The three-layer graph-convolution network as one function of its arguments, on the extended reals.

  A layer takes its input rows `x`, forms for every target row the mean of the incoming messages (`agg x`) and the target
  rows' own features (`tgt x`), and applies the dense part `agg x · Wl + tgt x · Wr + b`; the first two layers end with the
  rectifier, the last with the row-wise log-softmax. How the mean and the target rows are formed from `x` is the same
  for both programs and is left as a parameter here.
-/
import proofs.«137784_j76347338654181_1_alg».proof.Proof.LibDense
import proofs.«137784_j76347338654181_1_alg».proof.Proof.LibLogSoftmax

noncomputable section

namespace Cert.Spec

open Idealize.ShloMosaic

/-- An `[n, d]` array of extended reals. -/
abbrev Arr (n d : ℕ) : Type := (⟨2, ![n, d]⟩ : Shape).Idx → EReal
/-- A `[d]` vector of extended reals. -/
abbrev Row (d : ℕ) : Type := (⟨1, ![d]⟩ : Shape).Idx → EReal

/-- A hidden layer: the dense part of the aggregated and the target rows, then the rectifier. -/
def hidden {n n' K d : ℕ} (agg tgt : Arr n K → Arr n' K) (x : Arr n K) (wl wr : Arr K d) (b : Row d) : Arr n' d :=
  LibDense.relu (agg x) (tgt x) wl wr b

/-- The last layer: the dense part, then the row-wise log-softmax. -/
def last {n n' K d : ℕ} (agg tgt : Arr n K → Arr n' K) (x : Arr n K) (wl wr : Arr K d) (b : Row d) : Arr n' d :=
  LibLogSoftmax.logSoftmax (LibDense.affine (agg x) (tgt x) wl wr b)

/-- The network: 600000 input rows of 100 features, hidden layers of 100000 and 20000 rows of 256 features, and 4096
    result rows of 47 log-probabilities. -/
def net (agg0 tgt0 : Arr 600000 100 → Arr 100000 100) (agg1 tgt1 : Arr 100000 256 → Arr 20000 256)
    (agg2 tgt2 : Arr 20000 256 → Arr 4096 256) (x : Arr 600000 100)
    (wl0 wr0 : Arr 100 256) (b0 : Row 256) (wl1 wr1 : Arr 256 256) (b1 : Row 256) (wl2 wr2 : Arr 256 47) (b2 : Row 47) :
    Arr 4096 47 :=
  last agg2 tgt2 (hidden agg1 tgt1 (hidden agg0 tgt0 x wl0 wr0 b0) wl1 wr1 b1) wl2 wr2 b2

end Cert.Spec

end
-- ==== Proof.KerValue.lean ====
/-
  The kernel program's result as the network of its arguments.

  The buffer contents at the segment boundaries are a fold from the launch memory: a host stretch leaves each layer's two
  operands at the shared host functions of what it found (the mean of the incoming messages, the target rows) and keeps the
  other buffers; a region leaves its result array at the dense layer of its five operand arrays and keeps the others. Read
  from the last boundary back to the launch, the result buffer holds the three layers applied in turn to the argument
  arrays, and that is the network.
-/
import proofs.«137784_j76347338654181_1_alg».proof.Proof.KerRun
import proofs.«137784_j76347338654181_1_alg».proof.Proof.KerStage0
import proofs.«137784_j76347338654181_1_alg».proof.Proof.KerStage1
import proofs.«137784_j76347338654181_1_alg».proof.Proof.KerStage2
import proofs.«137784_j76347338654181_1_alg».proof.Proof.Region0
import proofs.«137784_j76347338654181_1_alg».proof.Proof.Region1
import proofs.«137784_j76347338654181_1_alg».proof.Proof.Region2
import proofs.«137784_j76347338654181_1_alg».proof.Proof.Spec

set_option maxRecDepth 16384

noncomputable section

namespace Cert.KernelIdeal.KerValue

open Cert.KernelIdeal Cert.KernelIdeal.Gen Idealize.ShloMosaic Idealize.ShloMosaic.TcCoe Idealize.SL.Sem Idealize.ShloMosaic.StableHlo

/-- A hidden layer from its parts: operands equal to the shared host functions of the layer's input and to the
    weights and bias give the layer of the specification. -/
theorem hidden_of {n n' K d : ℕ} (agg tgt : Cert.Spec.Arr n K → Cert.Spec.Arr n' K) (x : Cert.Spec.Arr n K)
    {a xt : Cert.Spec.Arr n' K} {wl wr wl' wr' : Cert.Spec.Arr K d} {b b' : Cert.Spec.Row d}
    (ha : a = agg x) (hx : xt = tgt x) (hwl : wl = wl') (hwr : wr = wr') (hb : b = b') :
    LibDense.relu a xt wl wr b = Cert.Spec.hidden agg tgt x wl' wr' b' := by
  subst ha hx hwl hwr hb; rfl

/-- The same for the last layer. -/
theorem last_of {n n' K d : ℕ} (agg tgt : Cert.Spec.Arr n K → Cert.Spec.Arr n' K) (x : Cert.Spec.Arr n K)
    {a xt : Cert.Spec.Arr n' K} {wl wr wl' wr' : Cert.Spec.Arr K d} {b b' : Cert.Spec.Row d}
    (ha : a = agg x) (hx : xt = tgt x) (hwl : wl = wl') (hwr : wr = wr') (hb : b = b') :
    LibLogSoftmax.logSoftmax (LibDense.affine a xt wl wr b) = Cert.Spec.last agg tgt x wl' wr' b' := by
  subst ha hx hwl hwr hb; rfl

variable (m : (ℓ : Loc nD τ sig) → Buf (Elt Ideal) ℓ) (ρ : Dev nD → PrngReg) (c : Dev nD)

/-! ## The arguments at the boundaries: no stretch and no region writes them -/

theorem W2_arg3 : W2 m ρ c (Proc.devRef .tc main_arg3) = (m ((c.tc : Thread nD τ).loc main_arg3)) :=
  (W2_of_ne m ρ c main_arg3 (by decide)).trans (KerStage.s0_keep_main_arg3 (W0 m ρ c))
theorem W2_arg4 : W2 m ρ c (Proc.devRef .tc main_arg4) = (m ((c.tc : Thread nD τ).loc main_arg4)) :=
  (W2_of_ne m ρ c main_arg4 (by decide)).trans (KerStage.s0_keep_main_arg4 (W0 m ρ c))
theorem W2_arg5 : W2 m ρ c (Proc.devRef .tc main_arg5) = (m ((c.tc : Thread nD τ).loc main_arg5)) :=
  (W2_of_ne m ρ c main_arg5 (by decide)).trans (KerStage.s0_keep_main_arg5 (W0 m ρ c))
theorem W2_arg6 : W2 m ρ c (Proc.devRef .tc main_arg6) = (m ((c.tc : Thread nD τ).loc main_arg6)) :=
  (W2_of_ne m ρ c main_arg6 (by decide)).trans (KerStage.s0_keep_main_arg6 (W0 m ρ c))
theorem W2_arg10 : W2 m ρ c (Proc.devRef .tc main_arg10) = (m ((c.tc : Thread nD τ).loc main_arg10)) :=
  (W2_of_ne m ρ c main_arg10 (by decide)).trans (KerStage.s0_keep_main_arg10 (W0 m ρ c))
theorem W2_arg11 : W2 m ρ c (Proc.devRef .tc main_arg11) = (m ((c.tc : Thread nD τ).loc main_arg11)) :=
  (W2_of_ne m ρ c main_arg11 (by decide)).trans (KerStage.s0_keep_main_arg11 (W0 m ρ c))
theorem W2_arg12 : W2 m ρ c (Proc.devRef .tc main_arg12) = (m ((c.tc : Thread nD τ).loc main_arg12)) :=
  (W2_of_ne m ρ c main_arg12 (by decide)).trans (KerStage.s0_keep_main_arg12 (W0 m ρ c))
theorem W2_arg13 : W2 m ρ c (Proc.devRef .tc main_arg13) = (m ((c.tc : Thread nD τ).loc main_arg13)) :=
  (W2_of_ne m ρ c main_arg13 (by decide)).trans (KerStage.s0_keep_main_arg13 (W0 m ρ c))
theorem W2_arg14 : W2 m ρ c (Proc.devRef .tc main_arg14) = (m ((c.tc : Thread nD τ).loc main_arg14)) :=
  (W2_of_ne m ρ c main_arg14 (by decide)).trans (KerStage.s0_keep_main_arg14 (W0 m ρ c))
theorem W2_arg15 : W2 m ρ c (Proc.devRef .tc main_arg15) = (m ((c.tc : Thread nD τ).loc main_arg15)) :=
  (W2_of_ne m ρ c main_arg15 (by decide)).trans (KerStage.s0_keep_main_arg15 (W0 m ρ c))
theorem W4_arg5 : W4 m ρ c (Proc.devRef .tc main_arg5) = (m ((c.tc : Thread nD τ).loc main_arg5)) :=
  (W4_of_ne m ρ c main_arg5 (by decide)).trans ((KerStage.s1_keep_main_arg5 (W2 m ρ c)).trans (W2_arg5 m ρ c))
theorem W4_arg6 : W4 m ρ c (Proc.devRef .tc main_arg6) = (m ((c.tc : Thread nD τ).loc main_arg6)) :=
  (W4_of_ne m ρ c main_arg6 (by decide)).trans ((KerStage.s1_keep_main_arg6 (W2 m ρ c)).trans (W2_arg6 m ρ c))
theorem W4_arg13 : W4 m ρ c (Proc.devRef .tc main_arg13) = (m ((c.tc : Thread nD τ).loc main_arg13)) :=
  (W4_of_ne m ρ c main_arg13 (by decide)).trans ((KerStage.s1_keep_main_arg13 (W2 m ρ c)).trans (W2_arg13 m ρ c))
theorem W4_arg14 : W4 m ρ c (Proc.devRef .tc main_arg14) = (m ((c.tc : Thread nD τ).loc main_arg14)) :=
  (W4_of_ne m ρ c main_arg14 (by decide)).trans ((KerStage.s1_keep_main_arg14 (W2 m ρ c)).trans (W2_arg14 m ρ c))
theorem W4_arg15 : W4 m ρ c (Proc.devRef .tc main_arg15) = (m ((c.tc : Thread nD τ).loc main_arg15)) :=
  (W4_of_ne m ρ c main_arg15 (by decide)).trans ((KerStage.s1_keep_main_arg15 (W2 m ρ c)).trans (W2_arg15 m ρ c))

/-! ## The layers -/

/-- After region 0 its result array is the first hidden layer of the arguments. -/
theorem h0_eq : W2 m ρ c (Proc.devRef .tc main_v20) = (Cert.Spec.hidden (HostTerms.agg0 (m ((c.tc : Thread nD τ).loc main_arg1)) (m ((c.tc : Thread nD τ).loc main_arg2))) HostTerms.tgt0 (m ((c.tc : Thread nD τ).loc main_arg0)) (m ((c.tc : Thread nD τ).loc main_arg7)) (m ((c.tc : Thread nD τ).loc main_arg8)) (m ((c.tc : Thread nD τ).loc main_arg9))) :=
  ((W2_arr m ρ c 5).trans (Region0.final (V1 m ρ) c)).trans
    (hidden_of (HostTerms.agg0 (m ((c.tc : Thread nD τ).loc main_arg1)) (m ((c.tc : Thread nD τ).loc main_arg2))) HostTerms.tgt0 (m ((c.tc : Thread nD τ).loc main_arg0))
      (KerStage.s0_mean (W0 m ρ c)) (KerStage.s0_tgt (W0 m ρ c))
      (KerStage.s0_keep_main_arg7 (W0 m ρ c)) (KerStage.s0_keep_main_arg8 (W0 m ρ c)) (KerStage.s0_keep_main_arg9 (W0 m ρ c)))

/-- After region 1 its result array is the second hidden layer. -/
theorem h1_eq : W4 m ρ c (Proc.devRef .tc main_v41) = (Cert.Spec.hidden (HostTerms.agg1 (m ((c.tc : Thread nD τ).loc main_arg3)) (m ((c.tc : Thread nD τ).loc main_arg4))) HostTerms.tgt1 (Cert.Spec.hidden (HostTerms.agg0 (m ((c.tc : Thread nD τ).loc main_arg1)) (m ((c.tc : Thread nD τ).loc main_arg2))) HostTerms.tgt0 (m ((c.tc : Thread nD τ).loc main_arg0)) (m ((c.tc : Thread nD τ).loc main_arg7)) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12))) :=
  ((W4_arr m ρ c 5).trans (Region1.final (V3 m ρ) c)).trans
    (hidden_of (HostTerms.agg1 (m ((c.tc : Thread nD τ).loc main_arg3)) (m ((c.tc : Thread nD τ).loc main_arg4))) HostTerms.tgt1 (Cert.Spec.hidden (HostTerms.agg0 (m ((c.tc : Thread nD τ).loc main_arg1)) (m ((c.tc : Thread nD τ).loc main_arg2))) HostTerms.tgt0 (m ((c.tc : Thread nD τ).loc main_arg0)) (m ((c.tc : Thread nD τ).loc main_arg7)) (m ((c.tc : Thread nD τ).loc main_arg8)) (m ((c.tc : Thread nD τ).loc main_arg9)))
      ((KerStage.s1_mean (W2 m ρ c)).trans (by rw [W2_arg3 m ρ c, W2_arg4 m ρ c, h0_eq m ρ c]))
      ((KerStage.s1_tgt (W2 m ρ c)).trans (by rw [h0_eq m ρ c]))
      ((KerStage.s1_keep_main_arg10 (W2 m ρ c)).trans (W2_arg10 m ρ c))
      ((KerStage.s1_keep_main_arg11 (W2 m ρ c)).trans (W2_arg11 m ρ c))
      ((KerStage.s1_keep_main_arg12 (W2 m ρ c)).trans (W2_arg12 m ρ c)))

/-- After region 2 its result array is the last layer. -/
theorem h2_eq : W6 m ρ c (Proc.devRef .tc main_v62) = (Cert.Spec.last (HostTerms.agg2 (m ((c.tc : Thread nD τ).loc main_arg5)) (m ((c.tc : Thread nD τ).loc main_arg6))) HostTerms.tgt2 (Cert.Spec.hidden (HostTerms.agg1 (m ((c.tc : Thread nD τ).loc main_arg3)) (m ((c.tc : Thread nD τ).loc main_arg4))) HostTerms.tgt1 (Cert.Spec.hidden (HostTerms.agg0 (m ((c.tc : Thread nD τ).loc main_arg1)) (m ((c.tc : Thread nD τ).loc main_arg2))) HostTerms.tgt0 (m ((c.tc : Thread nD τ).loc main_arg0)) (m ((c.tc : Thread nD τ).loc main_arg7)) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12))) (m ((c.tc : Thread nD τ).loc main_arg13)) (m ((c.tc : Thread nD τ).loc main_arg14)) (m ((c.tc : Thread nD τ).loc main_arg15))) :=
  ((W6_arr m ρ c 5).trans (Region2.final (V5 m ρ) c)).trans
    (last_of (HostTerms.agg2 (m ((c.tc : Thread nD τ).loc main_arg5)) (m ((c.tc : Thread nD τ).loc main_arg6))) HostTerms.tgt2 (Cert.Spec.hidden (HostTerms.agg1 (m ((c.tc : Thread nD τ).loc main_arg3)) (m ((c.tc : Thread nD τ).loc main_arg4))) HostTerms.tgt1 (Cert.Spec.hidden (HostTerms.agg0 (m ((c.tc : Thread nD τ).loc main_arg1)) (m ((c.tc : Thread nD τ).loc main_arg2))) HostTerms.tgt0 (m ((c.tc : Thread nD τ).loc main_arg0)) (m ((c.tc : Thread nD τ).loc main_arg7)) (m ((c.tc : Thread nD τ).loc main_arg8)) (m ((c.tc : Thread nD τ).loc main_arg9))) (m ((c.tc : Thread nD τ).loc main_arg10)) (m ((c.tc : Thread nD τ).loc main_arg11)) (m ((c.tc : Thread nD τ).loc main_arg12)))
      ((KerStage.s2_mean (W4 m ρ c)).trans (by rw [W4_arg5 m ρ c, W4_arg6 m ρ c, h1_eq m ρ c]))
      ((KerStage.s2_tgt (W4 m ρ c)).trans (by rw [h1_eq m ρ c]))
      ((KerStage.s2_keep_main_arg13 (W4 m ρ c)).trans (W4_arg13 m ρ c))
      ((KerStage.s2_keep_main_arg14 (W4 m ρ c)).trans (W4_arg14 m ρ c))
      ((KerStage.s2_keep_main_arg15 (W4 m ρ c)).trans (W4_arg15 m ρ c)))

/-- The result buffer at the last boundary is the network of the arguments. -/
theorem out_eq : W6 m ρ c (Proc.devRef .tc main_v62) = Cert.Spec.net (HostTerms.agg0 (m ((c.tc : Thread nD τ).loc main_arg1)) (m ((c.tc : Thread nD τ).loc main_arg2))) HostTerms.tgt0 (HostTerms.agg1 (m ((c.tc : Thread nD τ).loc main_arg3)) (m ((c.tc : Thread nD τ).loc main_arg4))) HostTerms.tgt1 (HostTerms.agg2 (m ((c.tc : Thread nD τ).loc main_arg5)) (m ((c.tc : Thread nD τ).loc main_arg6))) HostTerms.tgt2 (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  h2_eq m ρ c

/-! ## The run -/

/-- Every weakly fair execution of the kernel program terminates, nothing faulting, with the result buffer at the network
    of the launch contents of the arguments and every argument array as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v62) = Cert.Spec.net (HostTerms.agg0 (m ((c.tc : Thread nD τ).loc main_arg1)) (m ((c.tc : Thread nD τ).loc main_arg2))) HostTerms.tgt0 (HostTerms.agg1 (m ((c.tc : Thread nD τ).loc main_arg3)) (m ((c.tc : Thread nD τ).loc main_arg4))) HostTerms.tgt1 (HostTerms.agg2 (m ((c.tc : Thread nD τ).loc main_arg5)) (m ((c.tc : Thread nD τ).loc main_arg6))) HostTerms.tgt2 (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).1.trans (out_eq m ρ c), (h c).2⟩) (KerRun.run_named (F := Ideal) m ρ)

end Cert.KernelIdeal.KerValue

end
-- ==== Proof.RefRun.lean ====
/-
  The reference program's @main as the list of its 117 host operations, in order (the three called functions' operations
  standing in their calls' places), and its run as a fold: from any memory with zero counters every weakly fair execution
  of @main terminates, and every buffer of a device then holds what folding the operations' results over the device's
  launch contents leaves there.
-/
import proofs.«137784_j76347338654181_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 117 operations, in order (a called function's operations stand in its call's place, spelt `TRef.…`). -/
abbrev ops : List (HloOp τ sig (Elt F)) :=
  [ unary main_arg0 main_v0 ((extractStridedSlice S100000x100 ![0, 0] · slices_S600000x100_S100000x100_0_0) : (⟨S600000x100, .f32⟩ : BufTy).Contents (Elt F) → (⟨S100000x100, .f32⟩ : BufTy).Contents (Elt F)),
    nullary main_c (constantI S_ 32 0#32),
    unary main_c main_v1 (broadcastInDim S1500000 ![] bcast_S_S1500000 : (⟨S_, .i32⟩ : BufTy).Contents (Elt F) → (⟨S1500000, .i32⟩ : BufTy).Contents (Elt F)),
    binary main_arg1 main_v1 main_v2 (cmpi .slt : (⟨S1500000, .i32⟩ : BufTy).Contents (Elt F) → (⟨S1500000, .i32⟩ : BufTy).Contents (Elt F) → (⟨S1500000, .i1⟩ : BufTy).Contents (Elt F)),
    nullary main_c_0 (constantI S_ 32 600000#32),
    unary main_c_0 main_v3 (broadcastInDim S1500000 ![] bcast_S_S1500000 : (⟨S_, .i32⟩ : BufTy).Contents (Elt F) → (⟨S1500000, .i32⟩ : BufTy).Contents (Elt F)),
    binary main_arg1 main_v3 main_v4 (addi : (⟨S1500000, .i32⟩ : BufTy).Contents (Elt F) → (⟨S1500000, .i32⟩ : BufTy).Contents (Elt F) → (⟨S1500000, .i32⟩ : BufTy).Contents (Elt F)),
    ternary main_v2 main_v4 main_arg1 main_v5 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v5 main_v6 (broadcastInDim S1500000x1 ![0] bcast_S1500000_S1500000x1_0 : (⟨S1500000, .i32⟩ : BufTy).Contents (Elt F) → (⟨S1500000x1, .i32⟩ : BufTy).Contents (Elt F)),
    binary main_arg0 main_v6 main_v7 ((fun x i => Host.gather gather_S600000x100_S1500000x1_S1500000x100_1_0_n_n_0_1_1100 x i) : (⟨S600000x100, .f32⟩ : BufTy).Contents (Elt F) → (⟨S1500000x1, .i32⟩ : BufTy).Contents (Elt F) → (⟨S1500000x100, .f32⟩ : BufTy).Contents (Elt F)),
    nullary main_cst (constant S_ .f32 0x00000000#32),
    unary main_cst main_v8 (broadcastInDim S100000x100 ![] bcast_S_S100000x100 : (⟨S_, .f32⟩ : BufTy).Contents (Elt F) → (⟨S100000x100, .f32⟩ : BufTy).Contents (Elt F)),
    unary main_arg2 main_v9 (broadcastInDim S1500000x1 ![0] bcast_S1500000_S1500000x1_0 : (⟨S1500000, .i32⟩ : BufTy).Contents (Elt F) → (⟨S1500000x1, .i32⟩ : BufTy).Contents (Elt F)),
    ternary main_v8 main_v9 main_v7 main_v10 ((fun x i u => Host.scatterAdd scatter_S100000x100_S1500000x1_S1500000x100_1_0_0_1 x i u) : (⟨S100000x100, .f32⟩ : BufTy).Contents (Elt F) → (⟨S1500000x1, .i32⟩ : BufTy).Contents (Elt F) → (⟨S1500000x100, .f32⟩ : BufTy).Contents (Elt F) → (⟨S100000x100, .f32⟩ : BufTy).Contents (Elt F)),
    nullary main_cst_1 (constant S_ .f32 0x3F800000#32),
    unary main_cst_1 main_v11 (broadcastInDim S1500000 ![] bcast_S_S1500000 : (⟨S_, .f32⟩ : BufTy).Contents (Elt F) → (⟨S1500000, .f32⟩ : BufTy).Contents (Elt F)),
    nullary main_cst_2 (constant S_ .f32 0x00000000#32),
    unary main_cst_2 main_v12 (broadcastInDim S100000 ![] bcast_S_S100000 : (⟨S_, .f32⟩ : BufTy).Contents (Elt F) → (⟨S100000, .f32⟩ : BufTy).Contents (Elt F)),
    unary main_arg2 main_v13 (broadcastInDim S1500000x1 ![0] bcast_S1500000_S1500000x1_0 : (⟨S1500000, .i32⟩ : BufTy).Contents (Elt F) → (⟨S1500000x1, .i32⟩ : BufTy).Contents (Elt F)),
    ternary main_v12 main_v13 main_v11 main_v14 ((fun x i u => Host.scatterAdd scatter_S100000_S1500000x1_S1500000_n_0_0_1 x i u) : (⟨S100000, .f32⟩ : BufTy).Contents (Elt F) → (⟨S1500000x1, .i32⟩ : BufTy).Contents (Elt F) → (⟨S1500000, .f32⟩ : BufTy).Contents (Elt F) → (⟨S100000, .f32⟩ : BufTy).Contents (Elt F)),
    unary main_v14 main_v15 (broadcastInDim S100000x1 ![0] bcast_S100000_S100000x1_0 : (⟨S100000, .f32⟩ : BufTy).Contents (Elt F) → (⟨S100000x1, .f32⟩ : BufTy).Contents (Elt F)),
    nullary main_cst_3 (constant S_ .f32 0x3F800000#32),
    unary main_cst_3 main_v16 (broadcastInDim S100000x1 ![] bcast_S_S100000x1 : (⟨S_, .f32⟩ : BufTy).Contents (Elt F) → (⟨S100000x1, .f32⟩ : BufTy).Contents (Elt F)),
    binary main_v15 main_v16 main_v17 (maximumf : (⟨S100000x1, .f32⟩ : BufTy).Contents (Elt F) → (⟨S100000x1, .f32⟩ : BufTy).Contents (Elt F) → (⟨S100000x1, .f32⟩ : BufTy).Contents (Elt F)),
    unary main_v17 main_v18 (broadcastInDim S100000x100 ![0, 1] bcast_S100000x1_S100000x100_0_1 : (⟨S100000x1, .f32⟩ : BufTy).Contents (Elt F) → (⟨S100000x100, .f32⟩ : BufTy).Contents (Elt F)),
    binary main_v10 main_v18 main_v19 (Host.divf : (⟨S100000x100, .f32⟩ : BufTy).Contents (Elt F) → (⟨S100000x100, .f32⟩ : BufTy).Contents (Elt F) → (⟨S100000x100, .f32⟩ : BufTy).Contents (Elt F)),
    binary main_v19 main_arg7 main_v20 ((fun l r => Host.dotGeneral dot_S100000x100_S100x256_S100000x256_1_0_0_1_n_n none l r) : (⟨S100000x100, .f32⟩ : BufTy).Contents (Elt F) → (⟨S100x256, .f32⟩ : BufTy).Contents (Elt F) → (⟨S100000x256, .f32⟩ : BufTy).Contents (Elt F)),
    binary main_v0 main_arg8 main_v21 ((fun l r => Host.dotGeneral dot_S100000x100_S100x256_S100000x256_1_0_0_1_n_n none l r) : (⟨S100000x100, .f32⟩ : BufTy).Contents (Elt F) → (⟨S100x256, .f32⟩ : BufTy).Contents (Elt F) → (⟨S100000x256, .f32⟩ : BufTy).Contents (Elt F)),
    binary main_v20 main_v21 main_v22 (addf : (⟨S100000x256, .f32⟩ : BufTy).Contents (Elt F) → (⟨S100000x256, .f32⟩ : BufTy).Contents (Elt F) → (⟨S100000x256, .f32⟩ : BufTy).Contents (Elt F)),
    unary main_arg9 main_v23 (broadcastInDim S1x256 ![1] bcast_S256_S1x256_1 : (⟨S256, .f32⟩ : BufTy).Contents (Elt F) → (⟨S1x256, .f32⟩ : BufTy).Contents (Elt F)),
    unary main_v23 main_v24 (broadcastInDim S100000x256 ![0, 1] bcast_S1x256_S100000x256_0_1 : (⟨S1x256, .f32⟩ : BufTy).Contents (Elt F) → (⟨S100000x256, .f32⟩ : BufTy).Contents (Elt F)),
    binary main_v22 main_v24 main_v25 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v25) (TRef.of (T := ⟨S100000x256, .f32⟩) main_call0_v0) (TRef.of (T := ⟨S100000x256, .f32⟩) main_v26) maximumf,
    unary main_v26 main_v27 ((extractStridedSlice S20000x256 ![0, 0] · slices_S100000x256_S20000x256_0_0) : (⟨S100000x256, .f32⟩ : BufTy).Contents (Elt F) → (⟨S20000x256, .f32⟩ : BufTy).Contents (Elt F)),
    nullary main_c_4 (constantI S_ 32 0#32),
    unary main_c_4 main_v28 (broadcastInDim S200000 ![] bcast_S_S200000 : (⟨S_, .i32⟩ : BufTy).Contents (Elt F) → (⟨S200000, .i32⟩ : BufTy).Contents (Elt F)),
    binary main_arg3 main_v28 main_v29 (cmpi .slt : (⟨S200000, .i32⟩ : BufTy).Contents (Elt F) → (⟨S200000, .i32⟩ : BufTy).Contents (Elt F) → (⟨S200000, .i1⟩ : BufTy).Contents (Elt F)),
    nullary main_c_5 (constantI S_ 32 100000#32),
    unary main_c_5 main_v30 (broadcastInDim S200000 ![] bcast_S_S200000 : (⟨S_, .i32⟩ : BufTy).Contents (Elt F) → (⟨S200000, .i32⟩ : BufTy).Contents (Elt F)),
    binary main_arg3 main_v30 main_v31 (addi : (⟨S200000, .i32⟩ : BufTy).Contents (Elt F) → (⟨S200000, .i32⟩ : BufTy).Contents (Elt F) → (⟨S200000, .i32⟩ : BufTy).Contents (Elt F)),
    ternary main_v29 main_v31 main_arg3 main_v32 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v32 main_v33 (broadcastInDim S200000x1 ![0] bcast_S200000_S200000x1_0 : (⟨S200000, .i32⟩ : BufTy).Contents (Elt F) → (⟨S200000x1, .i32⟩ : BufTy).Contents (Elt F)),
    binary main_v26 main_v33 main_v34 ((fun x i => Host.gather gather_S100000x256_S200000x1_S200000x256_1_0_n_n_0_1_1256 x i) : (⟨S100000x256, .f32⟩ : BufTy).Contents (Elt F) → (⟨S200000x1, .i32⟩ : BufTy).Contents (Elt F) → (⟨S200000x256, .f32⟩ : BufTy).Contents (Elt F)),
    nullary main_cst_6 (constant S_ .f32 0x00000000#32),
    unary main_cst_6 main_v35 (broadcastInDim S20000x256 ![] bcast_S_S20000x256 : (⟨S_, .f32⟩ : BufTy).Contents (Elt F) → (⟨S20000x256, .f32⟩ : BufTy).Contents (Elt F)),
    unary main_arg4 main_v36 (broadcastInDim S200000x1 ![0] bcast_S200000_S200000x1_0 : (⟨S200000, .i32⟩ : BufTy).Contents (Elt F) → (⟨S200000x1, .i32⟩ : BufTy).Contents (Elt F)),
    ternary main_v35 main_v36 main_v34 main_v37 ((fun x i u => Host.scatterAdd scatter_S20000x256_S200000x1_S200000x256_1_0_0_1 x i u) : (⟨S20000x256, .f32⟩ : BufTy).Contents (Elt F) → (⟨S200000x1, .i32⟩ : BufTy).Contents (Elt F) → (⟨S200000x256, .f32⟩ : BufTy).Contents (Elt F) → (⟨S20000x256, .f32⟩ : BufTy).Contents (Elt F)),
    nullary main_cst_7 (constant S_ .f32 0x3F800000#32),
    unary main_cst_7 main_v38 (broadcastInDim S200000 ![] bcast_S_S200000 : (⟨S_, .f32⟩ : BufTy).Contents (Elt F) → (⟨S200000, .f32⟩ : BufTy).Contents (Elt F)),
    nullary main_cst_8 (constant S_ .f32 0x00000000#32),
    unary main_cst_8 main_v39 (broadcastInDim S20000 ![] bcast_S_S20000 : (⟨S_, .f32⟩ : BufTy).Contents (Elt F) → (⟨S20000, .f32⟩ : BufTy).Contents (Elt F)),
    unary main_arg4 main_v40 (broadcastInDim S200000x1 ![0] bcast_S200000_S200000x1_0 : (⟨S200000, .i32⟩ : BufTy).Contents (Elt F) → (⟨S200000x1, .i32⟩ : BufTy).Contents (Elt F)),
    ternary main_v39 main_v40 main_v38 main_v41 ((fun x i u => Host.scatterAdd scatter_S20000_S200000x1_S200000_n_0_0_1 x i u) : (⟨S20000, .f32⟩ : BufTy).Contents (Elt F) → (⟨S200000x1, .i32⟩ : BufTy).Contents (Elt F) → (⟨S200000, .f32⟩ : BufTy).Contents (Elt F) → (⟨S20000, .f32⟩ : BufTy).Contents (Elt F)),
    unary main_v41 main_v42 (broadcastInDim S20000x1 ![0] bcast_S20000_S20000x1_0 : (⟨S20000, .f32⟩ : BufTy).Contents (Elt F) → (⟨S20000x1, .f32⟩ : BufTy).Contents (Elt F)),
    nullary main_cst_9 (constant S_ .f32 0x3F800000#32),
    unary main_cst_9 main_v43 (broadcastInDim S20000x1 ![] bcast_S_S20000x1 : (⟨S_, .f32⟩ : BufTy).Contents (Elt F) → (⟨S20000x1, .f32⟩ : BufTy).Contents (Elt F)),
    binary main_v42 main_v43 main_v44 (maximumf : (⟨S20000x1, .f32⟩ : BufTy).Contents (Elt F) → (⟨S20000x1, .f32⟩ : BufTy).Contents (Elt F) → (⟨S20000x1, .f32⟩ : BufTy).Contents (Elt F)),
    unary main_v44 main_v45 (broadcastInDim S20000x256 ![0, 1] bcast_S20000x1_S20000x256_0_1 : (⟨S20000x1, .f32⟩ : BufTy).Contents (Elt F) → (⟨S20000x256, .f32⟩ : BufTy).Contents (Elt F)),
    binary main_v37 main_v45 main_v46 (Host.divf : (⟨S20000x256, .f32⟩ : BufTy).Contents (Elt F) → (⟨S20000x256, .f32⟩ : BufTy).Contents (Elt F) → (⟨S20000x256, .f32⟩ : BufTy).Contents (Elt F)),
    binary main_v46 main_arg10 main_v47 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    binary main_v27 main_arg11 main_v48 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    binary main_v47 main_v48 main_v49 (addf : (⟨S20000x256, .f32⟩ : BufTy).Contents (Elt F) → (⟨S20000x256, .f32⟩ : BufTy).Contents (Elt F) → (⟨S20000x256, .f32⟩ : BufTy).Contents (Elt F)),
    unary main_arg12 main_v50 (broadcastInDim S1x256 ![1] bcast_S256_S1x256_1 : (⟨S256, .f32⟩ : BufTy).Contents (Elt F) → (⟨S1x256, .f32⟩ : BufTy).Contents (Elt F)),
    unary main_v50 main_v51 (broadcastInDim S20000x256 ![0, 1] bcast_S1x256_S20000x256_0_1 : (⟨S1x256, .f32⟩ : BufTy).Contents (Elt F) → (⟨S20000x256, .f32⟩ : BufTy).Contents (Elt F)),
    binary main_v49 main_v51 main_v52 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x256, .f32⟩) main_call1_v0) (broadcastInDim S20000x256 ![] bcast_S_S20000x256),
    TRef.binary (TRef.of (T := ⟨S20000x256, .f32⟩) main_v52) (TRef.of (T := ⟨S20000x256, .f32⟩) main_call1_v0) (TRef.of (T := ⟨S20000x256, .f32⟩) main_v53) maximumf,
    unary main_v53 main_v54 ((extractStridedSlice S4096x256 ![0, 0] · slices_S20000x256_S4096x256_0_0) : (⟨S20000x256, .f32⟩ : BufTy).Contents (Elt F) → (⟨S4096x256, .f32⟩ : BufTy).Contents (Elt F)),
    nullary main_c_10 (constantI S_ 32 0#32),
    unary main_c_10 main_v55 (broadcastInDim S40960 ![] bcast_S_S40960 : (⟨S_, .i32⟩ : BufTy).Contents (Elt F) → (⟨S40960, .i32⟩ : BufTy).Contents (Elt F)),
    binary main_arg5 main_v55 main_v56 (cmpi .slt : (⟨S40960, .i32⟩ : BufTy).Contents (Elt F) → (⟨S40960, .i32⟩ : BufTy).Contents (Elt F) → (⟨S40960, .i1⟩ : BufTy).Contents (Elt F)),
    nullary main_c_11 (constantI S_ 32 20000#32),
    unary main_c_11 main_v57 (broadcastInDim S40960 ![] bcast_S_S40960 : (⟨S_, .i32⟩ : BufTy).Contents (Elt F) → (⟨S40960, .i32⟩ : BufTy).Contents (Elt F)),
    binary main_arg5 main_v57 main_v58 (addi : (⟨S40960, .i32⟩ : BufTy).Contents (Elt F) → (⟨S40960, .i32⟩ : BufTy).Contents (Elt F) → (⟨S40960, .i32⟩ : BufTy).Contents (Elt F)),
    ternary main_v56 main_v58 main_arg5 main_v59 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
    unary main_v59 main_v60 (broadcastInDim S40960x1 ![0] bcast_S40960_S40960x1_0 : (⟨S40960, .i32⟩ : BufTy).Contents (Elt F) → (⟨S40960x1, .i32⟩ : BufTy).Contents (Elt F)),
    binary main_v53 main_v60 main_v61 ((fun x i => Host.gather gather_S20000x256_S40960x1_S40960x256_1_0_n_n_0_1_1256 x i) : (⟨S20000x256, .f32⟩ : BufTy).Contents (Elt F) → (⟨S40960x1, .i32⟩ : BufTy).Contents (Elt F) → (⟨S40960x256, .f32⟩ : BufTy).Contents (Elt F)),
    nullary main_cst_12 (constant S_ .f32 0x00000000#32),
    unary main_cst_12 main_v62 (broadcastInDim S4096x256 ![] bcast_S_S4096x256 : (⟨S_, .f32⟩ : BufTy).Contents (Elt F) → (⟨S4096x256, .f32⟩ : BufTy).Contents (Elt F)),
    unary main_arg6 main_v63 (broadcastInDim S40960x1 ![0] bcast_S40960_S40960x1_0 : (⟨S40960, .i32⟩ : BufTy).Contents (Elt F) → (⟨S40960x1, .i32⟩ : BufTy).Contents (Elt F)),
    ternary main_v62 main_v63 main_v61 main_v64 ((fun x i u => Host.scatterAdd scatter_S4096x256_S40960x1_S40960x256_1_0_0_1 x i u) : (⟨S4096x256, .f32⟩ : BufTy).Contents (Elt F) → (⟨S40960x1, .i32⟩ : BufTy).Contents (Elt F) → (⟨S40960x256, .f32⟩ : BufTy).Contents (Elt F) → (⟨S4096x256, .f32⟩ : BufTy).Contents (Elt F)),
    nullary main_cst_13 (constant S_ .f32 0x3F800000#32),
    unary main_cst_13 main_v65 (broadcastInDim S40960 ![] bcast_S_S40960 : (⟨S_, .f32⟩ : BufTy).Contents (Elt F) → (⟨S40960, .f32⟩ : BufTy).Contents (Elt F)),
    nullary main_cst_14 (constant S_ .f32 0x00000000#32),
    unary main_cst_14 main_v66 (broadcastInDim S4096 ![] bcast_S_S4096 : (⟨S_, .f32⟩ : BufTy).Contents (Elt F) → (⟨S4096, .f32⟩ : BufTy).Contents (Elt F)),
    unary main_arg6 main_v67 (broadcastInDim S40960x1 ![0] bcast_S40960_S40960x1_0 : (⟨S40960, .i32⟩ : BufTy).Contents (Elt F) → (⟨S40960x1, .i32⟩ : BufTy).Contents (Elt F)),
    ternary main_v66 main_v67 main_v65 main_v68 ((fun x i u => Host.scatterAdd scatter_S4096_S40960x1_S40960_n_0_0_1 x i u) : (⟨S4096, .f32⟩ : BufTy).Contents (Elt F) → (⟨S40960x1, .i32⟩ : BufTy).Contents (Elt F) → (⟨S40960, .f32⟩ : BufTy).Contents (Elt F) → (⟨S4096, .f32⟩ : BufTy).Contents (Elt F)),
    unary main_v68 main_v69 (broadcastInDim S4096x1 ![0] bcast_S4096_S4096x1_0 : (⟨S4096, .f32⟩ : BufTy).Contents (Elt F) → (⟨S4096x1, .f32⟩ : BufTy).Contents (Elt F)),
    nullary main_cst_15 (constant S_ .f32 0x3F800000#32),
    unary main_cst_15 main_v70 (broadcastInDim S4096x1 ![] bcast_S_S4096x1 : (⟨S_, .f32⟩ : BufTy).Contents (Elt F) → (⟨S4096x1, .f32⟩ : BufTy).Contents (Elt F)),
    binary main_v69 main_v70 main_v71 (maximumf : (⟨S4096x1, .f32⟩ : BufTy).Contents (Elt F) → (⟨S4096x1, .f32⟩ : BufTy).Contents (Elt F) → (⟨S4096x1, .f32⟩ : BufTy).Contents (Elt F)),
    unary main_v71 main_v72 (broadcastInDim S4096x256 ![0, 1] bcast_S4096x1_S4096x256_0_1 : (⟨S4096x1, .f32⟩ : BufTy).Contents (Elt F) → (⟨S4096x256, .f32⟩ : BufTy).Contents (Elt F)),
    binary main_v64 main_v72 main_v73 (Host.divf : (⟨S4096x256, .f32⟩ : BufTy).Contents (Elt F) → (⟨S4096x256, .f32⟩ : BufTy).Contents (Elt F) → (⟨S4096x256, .f32⟩ : BufTy).Contents (Elt F)),
    binary main_v73 main_arg13 main_v74 ((fun l r => Host.dotGeneral dot_S4096x256_S256x47_S4096x47_1_0_0_1_n_n none l r) : (⟨S4096x256, .f32⟩ : BufTy).Contents (Elt F) → (⟨S256x47, .f32⟩ : BufTy).Contents (Elt F) → (⟨S4096x47, .f32⟩ : BufTy).Contents (Elt F)),
    binary main_v54 main_arg14 main_v75 ((fun l r => Host.dotGeneral dot_S4096x256_S256x47_S4096x47_1_0_0_1_n_n none l r) : (⟨S4096x256, .f32⟩ : BufTy).Contents (Elt F) → (⟨S256x47, .f32⟩ : BufTy).Contents (Elt F) → (⟨S4096x47, .f32⟩ : BufTy).Contents (Elt F)),
    binary main_v74 main_v75 main_v76 (addf : (⟨S4096x47, .f32⟩ : BufTy).Contents (Elt F) → (⟨S4096x47, .f32⟩ : BufTy).Contents (Elt F) → (⟨S4096x47, .f32⟩ : BufTy).Contents (Elt F)),
    unary main_arg15 main_v77 (broadcastInDim S1x47 ![1] bcast_S47_S1x47_1 : (⟨S47, .f32⟩ : BufTy).Contents (Elt F) → (⟨S1x47, .f32⟩ : BufTy).Contents (Elt F)),
    unary main_v77 main_v78 (broadcastInDim S4096x47 ![0, 1] bcast_S1x47_S4096x47_0_1 : (⟨S1x47, .f32⟩ : BufTy).Contents (Elt F) → (⟨S4096x47, .f32⟩ : BufTy).Contents (Elt F)),
    binary main_v76 main_v78 main_v79 (addf : (⟨S4096x47, .f32⟩ : BufTy).Contents (Elt F) → (⟨S4096x47, .f32⟩ : BufTy).Contents (Elt F) → (⟨S4096x47, .f32⟩ : BufTy).Contents (Elt F)),
    TRef.nullary (TRef.of (T := ⟨S_, .f32⟩) main_call2_cst) (constant S_ .f32 0xFF800000#32),
    TRef.binary (TRef.of (T := ⟨S4096x47, .f32⟩) main_v79) (TRef.of (T := ⟨S_, .f32⟩) main_call2_cst) (TRef.of (T := ⟨S4096, .f32⟩) main_call2_v0) (fun x v => Host.reduce FloatOps.maximumf x v reducesTo_S4096x47_S4096_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S4096, .f32⟩) main_call2_v1) (broadcastInDim S4096 ![] bcast_S_S4096),
    TRef.binary (TRef.of (T := ⟨S4096, .f32⟩) main_call2_v1) (TRef.of (T := ⟨S4096, .f32⟩) main_call2_v0) (TRef.of (T := ⟨S4096, .f32⟩) main_call2_v2) maximumf,
    TRef.unary (TRef.of (T := ⟨S4096, .f32⟩) main_call2_v2) (TRef.of (T := ⟨S4096x1, .f32⟩) main_call2_v3) (broadcastInDim S4096x1 ![0] bcast_S4096_S4096x1_0),
    TRef.unary (TRef.of (T := ⟨S4096x1, .f32⟩) main_call2_v3) (TRef.of (T := ⟨S4096x47, .f32⟩) main_call2_v4) (broadcastInDim S4096x47 ![0, 1] bcast_S4096x1_S4096x47_0_1),
    TRef.binary (TRef.of (T := ⟨S4096x47, .f32⟩) main_v79) (TRef.of (T := ⟨S4096x47, .f32⟩) main_call2_v4) (TRef.of (T := ⟨S4096x47, .f32⟩) main_call2_v5) subf,
    TRef.unary (TRef.of (T := ⟨S4096x47, .f32⟩) main_call2_v5) (TRef.of (T := ⟨S4096x47, .f32⟩) main_call2_v6) Host.exp,
    TRef.nullary (TRef.of (T := ⟨S_, .f32⟩) main_call2_cst_1) (constant S_ .f32 0x00000000#32),
    TRef.binary (TRef.of (T := ⟨S4096x47, .f32⟩) main_call2_v6) (TRef.of (T := ⟨S_, .f32⟩) main_call2_cst_1) (TRef.of (T := ⟨S4096, .f32⟩) main_call2_v7) (fun x v => Host.reduceAdd x v reducesTo_S4096x47_S4096_d1 h_S_),
    TRef.unary (TRef.of (T := ⟨S4096, .f32⟩) main_call2_v7) (TRef.of (T := ⟨S4096x1, .f32⟩) main_call2_v8) (broadcastInDim S4096x1 ![0] bcast_S4096_S4096x1_0),
    TRef.unary (TRef.of (T := ⟨S4096x1, .f32⟩) main_call2_v8) (TRef.of (T := ⟨S4096x1, .f32⟩) main_call2_v9) Host.log,
    TRef.unary (TRef.of (T := ⟨S4096x1, .f32⟩) main_call2_v9) (TRef.of (T := ⟨S4096x47, .f32⟩) main_call2_v10) (broadcastInDim S4096x47 ![0, 1] bcast_S4096x1_S4096x47_0_1),
    TRef.binary (TRef.of (T := ⟨S4096x47, .f32⟩) main_call2_v5) (TRef.of (T := ⟨S4096x47, .f32⟩) main_call2_v10) (TRef.of (T := ⟨S4096x47, .f32⟩) main_v80) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., binary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., binary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., binary_bufs_sub .., unary_bufs_sub .., binary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The run as a fold: every buffer ends at the operations' results folded, in order, over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefLists.lean ====
/-
  The reference program's 117 operations as six consecutive lists — for each of the three layers its plain operations and
  then the operations of the function it calls (the rectifier, the rectifier, the log-softmax) —, the references each list
  writes, and the fact that a list leaves every buffer it does not write as it was.
-/
import proofs.«137784_j76347338654181_1_alg».proof.Proof.RefRun

noncomputable section

namespace Cert.ReferenceIdeal.RefLists

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- Layer 0, the plain operations: 1 to 32, through the one that writes `main_v25`. -/
abbrev opsA1 : List (HloOp τ sig (Elt F)) :=
  [ unary main_arg0 main_v0 ((extractStridedSlice S100000x100 ![0, 0] · slices_S600000x100_S100000x100_0_0) : (⟨S600000x100, .f32⟩ : BufTy).Contents (Elt F) → (⟨S100000x100, .f32⟩ : BufTy).Contents (Elt F)),
    nullary main_c (constantI S_ 32 0#32),
    unary main_c main_v1 (broadcastInDim S1500000 ![] bcast_S_S1500000 : (⟨S_, .i32⟩ : BufTy).Contents (Elt F) → (⟨S1500000, .i32⟩ : BufTy).Contents (Elt F)),
    binary main_arg1 main_v1 main_v2 (cmpi .slt : (⟨S1500000, .i32⟩ : BufTy).Contents (Elt F) → (⟨S1500000, .i32⟩ : BufTy).Contents (Elt F) → (⟨S1500000, .i1⟩ : BufTy).Contents (Elt F)),
    nullary main_c_0 (constantI S_ 32 600000#32),
    unary main_c_0 main_v3 (broadcastInDim S1500000 ![] bcast_S_S1500000 : (⟨S_, .i32⟩ : BufTy).Contents (Elt F) → (⟨S1500000, .i32⟩ : BufTy).Contents (Elt F)),
    binary main_arg1 main_v3 main_v4 (addi : (⟨S1500000, .i32⟩ : BufTy).Contents (Elt F) → (⟨S1500000, .i32⟩ : BufTy).Contents (Elt F) → (⟨S1500000, .i32⟩ : BufTy).Contents (Elt F)),
    ternary main_v2 main_v4 main_arg1 main_v5 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v5 main_v6 (broadcastInDim S1500000x1 ![0] bcast_S1500000_S1500000x1_0 : (⟨S1500000, .i32⟩ : BufTy).Contents (Elt F) → (⟨S1500000x1, .i32⟩ : BufTy).Contents (Elt F)),
    binary main_arg0 main_v6 main_v7 ((fun x i => Host.gather gather_S600000x100_S1500000x1_S1500000x100_1_0_n_n_0_1_1100 x i) : (⟨S600000x100, .f32⟩ : BufTy).Contents (Elt F) → (⟨S1500000x1, .i32⟩ : BufTy).Contents (Elt F) → (⟨S1500000x100, .f32⟩ : BufTy).Contents (Elt F)),
    nullary main_cst (constant S_ .f32 0x00000000#32),
    unary main_cst main_v8 (broadcastInDim S100000x100 ![] bcast_S_S100000x100 : (⟨S_, .f32⟩ : BufTy).Contents (Elt F) → (⟨S100000x100, .f32⟩ : BufTy).Contents (Elt F)),
    unary main_arg2 main_v9 (broadcastInDim S1500000x1 ![0] bcast_S1500000_S1500000x1_0 : (⟨S1500000, .i32⟩ : BufTy).Contents (Elt F) → (⟨S1500000x1, .i32⟩ : BufTy).Contents (Elt F)),
    ternary main_v8 main_v9 main_v7 main_v10 ((fun x i u => Host.scatterAdd scatter_S100000x100_S1500000x1_S1500000x100_1_0_0_1 x i u) : (⟨S100000x100, .f32⟩ : BufTy).Contents (Elt F) → (⟨S1500000x1, .i32⟩ : BufTy).Contents (Elt F) → (⟨S1500000x100, .f32⟩ : BufTy).Contents (Elt F) → (⟨S100000x100, .f32⟩ : BufTy).Contents (Elt F)),
    nullary main_cst_1 (constant S_ .f32 0x3F800000#32),
    unary main_cst_1 main_v11 (broadcastInDim S1500000 ![] bcast_S_S1500000 : (⟨S_, .f32⟩ : BufTy).Contents (Elt F) → (⟨S1500000, .f32⟩ : BufTy).Contents (Elt F)),
    nullary main_cst_2 (constant S_ .f32 0x00000000#32),
    unary main_cst_2 main_v12 (broadcastInDim S100000 ![] bcast_S_S100000 : (⟨S_, .f32⟩ : BufTy).Contents (Elt F) → (⟨S100000, .f32⟩ : BufTy).Contents (Elt F)),
    unary main_arg2 main_v13 (broadcastInDim S1500000x1 ![0] bcast_S1500000_S1500000x1_0 : (⟨S1500000, .i32⟩ : BufTy).Contents (Elt F) → (⟨S1500000x1, .i32⟩ : BufTy).Contents (Elt F)),
    ternary main_v12 main_v13 main_v11 main_v14 ((fun x i u => Host.scatterAdd scatter_S100000_S1500000x1_S1500000_n_0_0_1 x i u) : (⟨S100000, .f32⟩ : BufTy).Contents (Elt F) → (⟨S1500000x1, .i32⟩ : BufTy).Contents (Elt F) → (⟨S1500000, .f32⟩ : BufTy).Contents (Elt F) → (⟨S100000, .f32⟩ : BufTy).Contents (Elt F)),
    unary main_v14 main_v15 (broadcastInDim S100000x1 ![0] bcast_S100000_S100000x1_0 : (⟨S100000, .f32⟩ : BufTy).Contents (Elt F) → (⟨S100000x1, .f32⟩ : BufTy).Contents (Elt F)),
    nullary main_cst_3 (constant S_ .f32 0x3F800000#32),
    unary main_cst_3 main_v16 (broadcastInDim S100000x1 ![] bcast_S_S100000x1 : (⟨S_, .f32⟩ : BufTy).Contents (Elt F) → (⟨S100000x1, .f32⟩ : BufTy).Contents (Elt F)),
    binary main_v15 main_v16 main_v17 (maximumf : (⟨S100000x1, .f32⟩ : BufTy).Contents (Elt F) → (⟨S100000x1, .f32⟩ : BufTy).Contents (Elt F) → (⟨S100000x1, .f32⟩ : BufTy).Contents (Elt F)),
    unary main_v17 main_v18 (broadcastInDim S100000x100 ![0, 1] bcast_S100000x1_S100000x100_0_1 : (⟨S100000x1, .f32⟩ : BufTy).Contents (Elt F) → (⟨S100000x100, .f32⟩ : BufTy).Contents (Elt F)),
    binary main_v10 main_v18 main_v19 (Host.divf : (⟨S100000x100, .f32⟩ : BufTy).Contents (Elt F) → (⟨S100000x100, .f32⟩ : BufTy).Contents (Elt F) → (⟨S100000x100, .f32⟩ : BufTy).Contents (Elt F)),
    binary main_v19 main_arg7 main_v20 ((fun l r => Host.dotGeneral dot_S100000x100_S100x256_S100000x256_1_0_0_1_n_n none l r) : (⟨S100000x100, .f32⟩ : BufTy).Contents (Elt F) → (⟨S100x256, .f32⟩ : BufTy).Contents (Elt F) → (⟨S100000x256, .f32⟩ : BufTy).Contents (Elt F)),
    binary main_v0 main_arg8 main_v21 ((fun l r => Host.dotGeneral dot_S100000x100_S100x256_S100000x256_1_0_0_1_n_n none l r) : (⟨S100000x100, .f32⟩ : BufTy).Contents (Elt F) → (⟨S100x256, .f32⟩ : BufTy).Contents (Elt F) → (⟨S100000x256, .f32⟩ : BufTy).Contents (Elt F)),
    binary main_v20 main_v21 main_v22 (addf : (⟨S100000x256, .f32⟩ : BufTy).Contents (Elt F) → (⟨S100000x256, .f32⟩ : BufTy).Contents (Elt F) → (⟨S100000x256, .f32⟩ : BufTy).Contents (Elt F)),
    unary main_arg9 main_v23 (broadcastInDim S1x256 ![1] bcast_S256_S1x256_1 : (⟨S256, .f32⟩ : BufTy).Contents (Elt F) → (⟨S1x256, .f32⟩ : BufTy).Contents (Elt F)),
    unary main_v23 main_v24 (broadcastInDim S100000x256 ![0, 1] bcast_S1x256_S100000x256_0_1 : (⟨S1x256, .f32⟩ : BufTy).Contents (Elt F) → (⟨S100000x256, .f32⟩ : BufTy).Contents (Elt F)),
    binary main_v22 main_v24 main_v25 (addf : (⟨S100000x256, .f32⟩ : BufTy).Contents (Elt F) → (⟨S100000x256, .f32⟩ : BufTy).Contents (Elt F) → (⟨S100000x256, .f32⟩ : BufTy).Contents (Elt F)) ]

/-- Layer 0, the rectifier's three operations: 33 to 35, through the one that writes `main_v26`. -/
abbrev opsA2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v25) (TRef.of (T := ⟨S100000x256, .f32⟩) main_call0_v0) (TRef.of (T := ⟨S100000x256, .f32⟩) main_v26) maximumf ]

/-- Layer 1, the plain operations: 36 to 67, through the one that writes `main_v52`. -/
abbrev opsB1 : List (HloOp τ sig (Elt F)) :=
  [ unary main_v26 main_v27 ((extractStridedSlice S20000x256 ![0, 0] · slices_S100000x256_S20000x256_0_0) : (⟨S100000x256, .f32⟩ : BufTy).Contents (Elt F) → (⟨S20000x256, .f32⟩ : BufTy).Contents (Elt F)),
    nullary main_c_4 (constantI S_ 32 0#32),
    unary main_c_4 main_v28 (broadcastInDim S200000 ![] bcast_S_S200000 : (⟨S_, .i32⟩ : BufTy).Contents (Elt F) → (⟨S200000, .i32⟩ : BufTy).Contents (Elt F)),
    binary main_arg3 main_v28 main_v29 (cmpi .slt : (⟨S200000, .i32⟩ : BufTy).Contents (Elt F) → (⟨S200000, .i32⟩ : BufTy).Contents (Elt F) → (⟨S200000, .i1⟩ : BufTy).Contents (Elt F)),
    nullary main_c_5 (constantI S_ 32 100000#32),
    unary main_c_5 main_v30 (broadcastInDim S200000 ![] bcast_S_S200000 : (⟨S_, .i32⟩ : BufTy).Contents (Elt F) → (⟨S200000, .i32⟩ : BufTy).Contents (Elt F)),
    binary main_arg3 main_v30 main_v31 (addi : (⟨S200000, .i32⟩ : BufTy).Contents (Elt F) → (⟨S200000, .i32⟩ : BufTy).Contents (Elt F) → (⟨S200000, .i32⟩ : BufTy).Contents (Elt F)),
    ternary main_v29 main_v31 main_arg3 main_v32 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v32 main_v33 (broadcastInDim S200000x1 ![0] bcast_S200000_S200000x1_0 : (⟨S200000, .i32⟩ : BufTy).Contents (Elt F) → (⟨S200000x1, .i32⟩ : BufTy).Contents (Elt F)),
    binary main_v26 main_v33 main_v34 ((fun x i => Host.gather gather_S100000x256_S200000x1_S200000x256_1_0_n_n_0_1_1256 x i) : (⟨S100000x256, .f32⟩ : BufTy).Contents (Elt F) → (⟨S200000x1, .i32⟩ : BufTy).Contents (Elt F) → (⟨S200000x256, .f32⟩ : BufTy).Contents (Elt F)),
    nullary main_cst_6 (constant S_ .f32 0x00000000#32),
    unary main_cst_6 main_v35 (broadcastInDim S20000x256 ![] bcast_S_S20000x256 : (⟨S_, .f32⟩ : BufTy).Contents (Elt F) → (⟨S20000x256, .f32⟩ : BufTy).Contents (Elt F)),
    unary main_arg4 main_v36 (broadcastInDim S200000x1 ![0] bcast_S200000_S200000x1_0 : (⟨S200000, .i32⟩ : BufTy).Contents (Elt F) → (⟨S200000x1, .i32⟩ : BufTy).Contents (Elt F)),
    ternary main_v35 main_v36 main_v34 main_v37 ((fun x i u => Host.scatterAdd scatter_S20000x256_S200000x1_S200000x256_1_0_0_1 x i u) : (⟨S20000x256, .f32⟩ : BufTy).Contents (Elt F) → (⟨S200000x1, .i32⟩ : BufTy).Contents (Elt F) → (⟨S200000x256, .f32⟩ : BufTy).Contents (Elt F) → (⟨S20000x256, .f32⟩ : BufTy).Contents (Elt F)),
    nullary main_cst_7 (constant S_ .f32 0x3F800000#32),
    unary main_cst_7 main_v38 (broadcastInDim S200000 ![] bcast_S_S200000 : (⟨S_, .f32⟩ : BufTy).Contents (Elt F) → (⟨S200000, .f32⟩ : BufTy).Contents (Elt F)),
    nullary main_cst_8 (constant S_ .f32 0x00000000#32),
    unary main_cst_8 main_v39 (broadcastInDim S20000 ![] bcast_S_S20000 : (⟨S_, .f32⟩ : BufTy).Contents (Elt F) → (⟨S20000, .f32⟩ : BufTy).Contents (Elt F)),
    unary main_arg4 main_v40 (broadcastInDim S200000x1 ![0] bcast_S200000_S200000x1_0 : (⟨S200000, .i32⟩ : BufTy).Contents (Elt F) → (⟨S200000x1, .i32⟩ : BufTy).Contents (Elt F)),
    ternary main_v39 main_v40 main_v38 main_v41 ((fun x i u => Host.scatterAdd scatter_S20000_S200000x1_S200000_n_0_0_1 x i u) : (⟨S20000, .f32⟩ : BufTy).Contents (Elt F) → (⟨S200000x1, .i32⟩ : BufTy).Contents (Elt F) → (⟨S200000, .f32⟩ : BufTy).Contents (Elt F) → (⟨S20000, .f32⟩ : BufTy).Contents (Elt F)),
    unary main_v41 main_v42 (broadcastInDim S20000x1 ![0] bcast_S20000_S20000x1_0 : (⟨S20000, .f32⟩ : BufTy).Contents (Elt F) → (⟨S20000x1, .f32⟩ : BufTy).Contents (Elt F)),
    nullary main_cst_9 (constant S_ .f32 0x3F800000#32),
    unary main_cst_9 main_v43 (broadcastInDim S20000x1 ![] bcast_S_S20000x1 : (⟨S_, .f32⟩ : BufTy).Contents (Elt F) → (⟨S20000x1, .f32⟩ : BufTy).Contents (Elt F)),
    binary main_v42 main_v43 main_v44 (maximumf : (⟨S20000x1, .f32⟩ : BufTy).Contents (Elt F) → (⟨S20000x1, .f32⟩ : BufTy).Contents (Elt F) → (⟨S20000x1, .f32⟩ : BufTy).Contents (Elt F)),
    unary main_v44 main_v45 (broadcastInDim S20000x256 ![0, 1] bcast_S20000x1_S20000x256_0_1 : (⟨S20000x1, .f32⟩ : BufTy).Contents (Elt F) → (⟨S20000x256, .f32⟩ : BufTy).Contents (Elt F)),
    binary main_v37 main_v45 main_v46 (Host.divf : (⟨S20000x256, .f32⟩ : BufTy).Contents (Elt F) → (⟨S20000x256, .f32⟩ : BufTy).Contents (Elt F) → (⟨S20000x256, .f32⟩ : BufTy).Contents (Elt F)),
    binary main_v46 main_arg10 main_v47 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    binary main_v27 main_arg11 main_v48 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    binary main_v47 main_v48 main_v49 (addf : (⟨S20000x256, .f32⟩ : BufTy).Contents (Elt F) → (⟨S20000x256, .f32⟩ : BufTy).Contents (Elt F) → (⟨S20000x256, .f32⟩ : BufTy).Contents (Elt F)),
    unary main_arg12 main_v50 (broadcastInDim S1x256 ![1] bcast_S256_S1x256_1 : (⟨S256, .f32⟩ : BufTy).Contents (Elt F) → (⟨S1x256, .f32⟩ : BufTy).Contents (Elt F)),
    unary main_v50 main_v51 (broadcastInDim S20000x256 ![0, 1] bcast_S1x256_S20000x256_0_1 : (⟨S1x256, .f32⟩ : BufTy).Contents (Elt F) → (⟨S20000x256, .f32⟩ : BufTy).Contents (Elt F)),
    binary main_v49 main_v51 main_v52 (addf : (⟨S20000x256, .f32⟩ : BufTy).Contents (Elt F) → (⟨S20000x256, .f32⟩ : BufTy).Contents (Elt F) → (⟨S20000x256, .f32⟩ : BufTy).Contents (Elt F)) ]

/-- Layer 1, the rectifier's three operations: 68 to 70, through the one that writes `main_v53`. -/
abbrev opsB2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S20000x256, .f32⟩) main_call1_v0) (broadcastInDim S20000x256 ![] bcast_S_S20000x256),
    TRef.binary (TRef.of (T := ⟨S20000x256, .f32⟩) main_v52) (TRef.of (T := ⟨S20000x256, .f32⟩) main_call1_v0) (TRef.of (T := ⟨S20000x256, .f32⟩) main_v53) maximumf ]

/-- Layer 2, the plain operations: 71 to 102, through the one that writes `main_v79`. -/
abbrev opsC1 : List (HloOp τ sig (Elt F)) :=
  [ unary main_v53 main_v54 ((extractStridedSlice S4096x256 ![0, 0] · slices_S20000x256_S4096x256_0_0) : (⟨S20000x256, .f32⟩ : BufTy).Contents (Elt F) → (⟨S4096x256, .f32⟩ : BufTy).Contents (Elt F)),
    nullary main_c_10 (constantI S_ 32 0#32),
    unary main_c_10 main_v55 (broadcastInDim S40960 ![] bcast_S_S40960 : (⟨S_, .i32⟩ : BufTy).Contents (Elt F) → (⟨S40960, .i32⟩ : BufTy).Contents (Elt F)),
    binary main_arg5 main_v55 main_v56 (cmpi .slt : (⟨S40960, .i32⟩ : BufTy).Contents (Elt F) → (⟨S40960, .i32⟩ : BufTy).Contents (Elt F) → (⟨S40960, .i1⟩ : BufTy).Contents (Elt F)),
    nullary main_c_11 (constantI S_ 32 20000#32),
    unary main_c_11 main_v57 (broadcastInDim S40960 ![] bcast_S_S40960 : (⟨S_, .i32⟩ : BufTy).Contents (Elt F) → (⟨S40960, .i32⟩ : BufTy).Contents (Elt F)),
    binary main_arg5 main_v57 main_v58 (addi : (⟨S40960, .i32⟩ : BufTy).Contents (Elt F) → (⟨S40960, .i32⟩ : BufTy).Contents (Elt F) → (⟨S40960, .i32⟩ : BufTy).Contents (Elt F)),
    ternary main_v56 main_v58 main_arg5 main_v59 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
    unary main_v59 main_v60 (broadcastInDim S40960x1 ![0] bcast_S40960_S40960x1_0 : (⟨S40960, .i32⟩ : BufTy).Contents (Elt F) → (⟨S40960x1, .i32⟩ : BufTy).Contents (Elt F)),
    binary main_v53 main_v60 main_v61 ((fun x i => Host.gather gather_S20000x256_S40960x1_S40960x256_1_0_n_n_0_1_1256 x i) : (⟨S20000x256, .f32⟩ : BufTy).Contents (Elt F) → (⟨S40960x1, .i32⟩ : BufTy).Contents (Elt F) → (⟨S40960x256, .f32⟩ : BufTy).Contents (Elt F)),
    nullary main_cst_12 (constant S_ .f32 0x00000000#32),
    unary main_cst_12 main_v62 (broadcastInDim S4096x256 ![] bcast_S_S4096x256 : (⟨S_, .f32⟩ : BufTy).Contents (Elt F) → (⟨S4096x256, .f32⟩ : BufTy).Contents (Elt F)),
    unary main_arg6 main_v63 (broadcastInDim S40960x1 ![0] bcast_S40960_S40960x1_0 : (⟨S40960, .i32⟩ : BufTy).Contents (Elt F) → (⟨S40960x1, .i32⟩ : BufTy).Contents (Elt F)),
    ternary main_v62 main_v63 main_v61 main_v64 ((fun x i u => Host.scatterAdd scatter_S4096x256_S40960x1_S40960x256_1_0_0_1 x i u) : (⟨S4096x256, .f32⟩ : BufTy).Contents (Elt F) → (⟨S40960x1, .i32⟩ : BufTy).Contents (Elt F) → (⟨S40960x256, .f32⟩ : BufTy).Contents (Elt F) → (⟨S4096x256, .f32⟩ : BufTy).Contents (Elt F)),
    nullary main_cst_13 (constant S_ .f32 0x3F800000#32),
    unary main_cst_13 main_v65 (broadcastInDim S40960 ![] bcast_S_S40960 : (⟨S_, .f32⟩ : BufTy).Contents (Elt F) → (⟨S40960, .f32⟩ : BufTy).Contents (Elt F)),
    nullary main_cst_14 (constant S_ .f32 0x00000000#32),
    unary main_cst_14 main_v66 (broadcastInDim S4096 ![] bcast_S_S4096 : (⟨S_, .f32⟩ : BufTy).Contents (Elt F) → (⟨S4096, .f32⟩ : BufTy).Contents (Elt F)),
    unary main_arg6 main_v67 (broadcastInDim S40960x1 ![0] bcast_S40960_S40960x1_0 : (⟨S40960, .i32⟩ : BufTy).Contents (Elt F) → (⟨S40960x1, .i32⟩ : BufTy).Contents (Elt F)),
    ternary main_v66 main_v67 main_v65 main_v68 ((fun x i u => Host.scatterAdd scatter_S4096_S40960x1_S40960_n_0_0_1 x i u) : (⟨S4096, .f32⟩ : BufTy).Contents (Elt F) → (⟨S40960x1, .i32⟩ : BufTy).Contents (Elt F) → (⟨S40960, .f32⟩ : BufTy).Contents (Elt F) → (⟨S4096, .f32⟩ : BufTy).Contents (Elt F)),
    unary main_v68 main_v69 (broadcastInDim S4096x1 ![0] bcast_S4096_S4096x1_0 : (⟨S4096, .f32⟩ : BufTy).Contents (Elt F) → (⟨S4096x1, .f32⟩ : BufTy).Contents (Elt F)),
    nullary main_cst_15 (constant S_ .f32 0x3F800000#32),
    unary main_cst_15 main_v70 (broadcastInDim S4096x1 ![] bcast_S_S4096x1 : (⟨S_, .f32⟩ : BufTy).Contents (Elt F) → (⟨S4096x1, .f32⟩ : BufTy).Contents (Elt F)),
    binary main_v69 main_v70 main_v71 (maximumf : (⟨S4096x1, .f32⟩ : BufTy).Contents (Elt F) → (⟨S4096x1, .f32⟩ : BufTy).Contents (Elt F) → (⟨S4096x1, .f32⟩ : BufTy).Contents (Elt F)),
    unary main_v71 main_v72 (broadcastInDim S4096x256 ![0, 1] bcast_S4096x1_S4096x256_0_1 : (⟨S4096x1, .f32⟩ : BufTy).Contents (Elt F) → (⟨S4096x256, .f32⟩ : BufTy).Contents (Elt F)),
    binary main_v64 main_v72 main_v73 (Host.divf : (⟨S4096x256, .f32⟩ : BufTy).Contents (Elt F) → (⟨S4096x256, .f32⟩ : BufTy).Contents (Elt F) → (⟨S4096x256, .f32⟩ : BufTy).Contents (Elt F)),
    binary main_v73 main_arg13 main_v74 ((fun l r => Host.dotGeneral dot_S4096x256_S256x47_S4096x47_1_0_0_1_n_n none l r) : (⟨S4096x256, .f32⟩ : BufTy).Contents (Elt F) → (⟨S256x47, .f32⟩ : BufTy).Contents (Elt F) → (⟨S4096x47, .f32⟩ : BufTy).Contents (Elt F)),
    binary main_v54 main_arg14 main_v75 ((fun l r => Host.dotGeneral dot_S4096x256_S256x47_S4096x47_1_0_0_1_n_n none l r) : (⟨S4096x256, .f32⟩ : BufTy).Contents (Elt F) → (⟨S256x47, .f32⟩ : BufTy).Contents (Elt F) → (⟨S4096x47, .f32⟩ : BufTy).Contents (Elt F)),
    binary main_v74 main_v75 main_v76 (addf : (⟨S4096x47, .f32⟩ : BufTy).Contents (Elt F) → (⟨S4096x47, .f32⟩ : BufTy).Contents (Elt F) → (⟨S4096x47, .f32⟩ : BufTy).Contents (Elt F)),
    unary main_arg15 main_v77 (broadcastInDim S1x47 ![1] bcast_S47_S1x47_1 : (⟨S47, .f32⟩ : BufTy).Contents (Elt F) → (⟨S1x47, .f32⟩ : BufTy).Contents (Elt F)),
    unary main_v77 main_v78 (broadcastInDim S4096x47 ![0, 1] bcast_S1x47_S4096x47_0_1 : (⟨S1x47, .f32⟩ : BufTy).Contents (Elt F) → (⟨S4096x47, .f32⟩ : BufTy).Contents (Elt F)),
    binary main_v76 main_v78 main_v79 (addf : (⟨S4096x47, .f32⟩ : BufTy).Contents (Elt F) → (⟨S4096x47, .f32⟩ : BufTy).Contents (Elt F) → (⟨S4096x47, .f32⟩ : BufTy).Contents (Elt F)) ]

/-- Layer 2, the log-softmax's fifteen operations: 103 to 117, through the one that writes `main_v80`. -/
abbrev opsC2 : List (HloOp τ sig (Elt F)) :=
  [ TRef.nullary (TRef.of (T := ⟨S_, .f32⟩) main_call2_cst) (constant S_ .f32 0xFF800000#32),
    TRef.binary (TRef.of (T := ⟨S4096x47, .f32⟩) main_v79) (TRef.of (T := ⟨S_, .f32⟩) main_call2_cst) (TRef.of (T := ⟨S4096, .f32⟩) main_call2_v0) (fun x v => Host.reduce FloatOps.maximumf x v reducesTo_S4096x47_S4096_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S4096, .f32⟩) main_call2_v1) (broadcastInDim S4096 ![] bcast_S_S4096),
    TRef.binary (TRef.of (T := ⟨S4096, .f32⟩) main_call2_v1) (TRef.of (T := ⟨S4096, .f32⟩) main_call2_v0) (TRef.of (T := ⟨S4096, .f32⟩) main_call2_v2) maximumf,
    TRef.unary (TRef.of (T := ⟨S4096, .f32⟩) main_call2_v2) (TRef.of (T := ⟨S4096x1, .f32⟩) main_call2_v3) (broadcastInDim S4096x1 ![0] bcast_S4096_S4096x1_0),
    TRef.unary (TRef.of (T := ⟨S4096x1, .f32⟩) main_call2_v3) (TRef.of (T := ⟨S4096x47, .f32⟩) main_call2_v4) (broadcastInDim S4096x47 ![0, 1] bcast_S4096x1_S4096x47_0_1),
    TRef.binary (TRef.of (T := ⟨S4096x47, .f32⟩) main_v79) (TRef.of (T := ⟨S4096x47, .f32⟩) main_call2_v4) (TRef.of (T := ⟨S4096x47, .f32⟩) main_call2_v5) subf,
    TRef.unary (TRef.of (T := ⟨S4096x47, .f32⟩) main_call2_v5) (TRef.of (T := ⟨S4096x47, .f32⟩) main_call2_v6) Host.exp,
    TRef.nullary (TRef.of (T := ⟨S_, .f32⟩) main_call2_cst_1) (constant S_ .f32 0x00000000#32),
    TRef.binary (TRef.of (T := ⟨S4096x47, .f32⟩) main_call2_v6) (TRef.of (T := ⟨S_, .f32⟩) main_call2_cst_1) (TRef.of (T := ⟨S4096, .f32⟩) main_call2_v7) (fun x v => Host.reduceAdd x v reducesTo_S4096x47_S4096_d1 h_S_),
    TRef.unary (TRef.of (T := ⟨S4096, .f32⟩) main_call2_v7) (TRef.of (T := ⟨S4096x1, .f32⟩) main_call2_v8) (broadcastInDim S4096x1 ![0] bcast_S4096_S4096x1_0),
    TRef.unary (TRef.of (T := ⟨S4096x1, .f32⟩) main_call2_v8) (TRef.of (T := ⟨S4096x1, .f32⟩) main_call2_v9) Host.log,
    TRef.unary (TRef.of (T := ⟨S4096x1, .f32⟩) main_call2_v9) (TRef.of (T := ⟨S4096x47, .f32⟩) main_call2_v10) (broadcastInDim S4096x47 ![0, 1] bcast_S4096x1_S4096x47_0_1),
    TRef.binary (TRef.of (T := ⟨S4096x47, .f32⟩) main_call2_v5) (TRef.of (T := ⟨S4096x47, .f32⟩) main_call2_v10) (TRef.of (T := ⟨S4096x47, .f32⟩) main_v80) subf ]

set_option maxRecDepth 8192 in
/-- The six lists, in order, are the whole program. -/
theorem ops_split : (ops : List (HloOp τ sig (Elt F))) = opsA1 ++ (opsA2 ++ (opsB1 ++ (opsB2 ++ (opsC1 ++ opsC2)))) := rfl

/-- Folding two lists one after the other is folding their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The whole program's fold is the six lists' folds, one after the other. -/
theorem after_ops (V : Valuation τ sig (Elt F)) :
    after ops V = after opsC2 (after opsC1 (after opsB2 (after opsB1 (after opsA2 (after opsA1 V))))) := by
  rw [ops_split, after_append, after_append, after_append, after_append, after_append]

/-! ## What each list writes, and that it leaves the rest -/

/-- The references `opsA1`'s operations write. -/
abbrev opsA1_W : List (Ref sig .tc) := [main_v0, main_c, main_v1, main_v2, main_c_0, main_v3, main_v4, main_v5, main_v6, main_v7, main_cst, main_v8, main_v9, main_v10, main_cst_1, main_v11, main_cst_2, main_v12, main_v13, main_v14, main_v15, main_cst_3, main_v16, main_v17, main_v18, main_v19, main_v20, main_v21, main_v22, main_v23, main_v24, main_v25]
theorem opsA1_writes : (opsA1 : List (HloOp τ sig (Elt F))).Forall fun op => op.writes ⊆ (opsA1_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer `opsA1` does not write keeps its contents through it. -/
theorem keep_opsA1 (V : Valuation τ sig (Elt F)) (r : Ref sig .tc) (h : r ∉ opsA1_W) :
    after (opsA1 (F := F)) V (Proc.devRef .tc r) = V (Proc.devRef .tc r) :=
  after_of_writes_sub opsA1 V opsA1_writes h

/-- The references `opsA2`'s operations write. -/
abbrev opsA2_W : List (Ref sig .tc) := [main_call0_cst, main_call0_v0, main_v26]
theorem opsA2_writes : (opsA2 : List (HloOp τ sig (Elt F))).Forall fun op => op.writes ⊆ (opsA2_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer `opsA2` does not write keeps its contents through it. -/
theorem keep_opsA2 (V : Valuation τ sig (Elt F)) (r : Ref sig .tc) (h : r ∉ opsA2_W) :
    after (opsA2 (F := F)) V (Proc.devRef .tc r) = V (Proc.devRef .tc r) :=
  after_of_writes_sub opsA2 V opsA2_writes h

/-- The references `opsB1`'s operations write. -/
abbrev opsB1_W : List (Ref sig .tc) := [main_v27, main_c_4, main_v28, main_v29, main_c_5, main_v30, main_v31, main_v32, main_v33, main_v34, main_cst_6, main_v35, main_v36, main_v37, main_cst_7, main_v38, main_cst_8, main_v39, main_v40, main_v41, main_v42, main_cst_9, main_v43, main_v44, main_v45, main_v46, main_v47, main_v48, main_v49, main_v50, main_v51, main_v52]
theorem opsB1_writes : (opsB1 : List (HloOp τ sig (Elt F))).Forall fun op => op.writes ⊆ (opsB1_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer `opsB1` does not write keeps its contents through it. -/
theorem keep_opsB1 (V : Valuation τ sig (Elt F)) (r : Ref sig .tc) (h : r ∉ opsB1_W) :
    after (opsB1 (F := F)) V (Proc.devRef .tc r) = V (Proc.devRef .tc r) :=
  after_of_writes_sub opsB1 V opsB1_writes h

/-- The references `opsB2`'s operations write. -/
abbrev opsB2_W : List (Ref sig .tc) := [main_call1_cst, main_call1_v0, main_v53]
theorem opsB2_writes : (opsB2 : List (HloOp τ sig (Elt F))).Forall fun op => op.writes ⊆ (opsB2_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer `opsB2` does not write keeps its contents through it. -/
theorem keep_opsB2 (V : Valuation τ sig (Elt F)) (r : Ref sig .tc) (h : r ∉ opsB2_W) :
    after (opsB2 (F := F)) V (Proc.devRef .tc r) = V (Proc.devRef .tc r) :=
  after_of_writes_sub opsB2 V opsB2_writes h

/-- The references `opsC1`'s operations write. -/
abbrev opsC1_W : List (Ref sig .tc) := [main_v54, main_c_10, main_v55, main_v56, main_c_11, main_v57, main_v58, main_v59, main_v60, main_v61, main_cst_12, main_v62, main_v63, main_v64, main_cst_13, main_v65, main_cst_14, main_v66, main_v67, main_v68, main_v69, main_cst_15, main_v70, main_v71, main_v72, main_v73, main_v74, main_v75, main_v76, main_v77, main_v78, main_v79]
theorem opsC1_writes : (opsC1 : List (HloOp τ sig (Elt F))).Forall fun op => op.writes ⊆ (opsC1_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer `opsC1` does not write keeps its contents through it. -/
theorem keep_opsC1 (V : Valuation τ sig (Elt F)) (r : Ref sig .tc) (h : r ∉ opsC1_W) :
    after (opsC1 (F := F)) V (Proc.devRef .tc r) = V (Proc.devRef .tc r) :=
  after_of_writes_sub opsC1 V opsC1_writes h

/-- The references `opsC2`'s operations write. -/
abbrev opsC2_W : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v80]
theorem opsC2_writes : (opsC2 : List (HloOp τ sig (Elt F))).Forall fun op => op.writes ⊆ (opsC2_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A buffer `opsC2` does not write keeps its contents through it. -/
theorem keep_opsC2 (V : Valuation τ sig (Elt F)) (r : Ref sig .tc) (h : r ∉ opsC2_W) :
    after (opsC2 (F := F)) V (Proc.devRef .tc r) = V (Proc.devRef .tc r) :=
  after_of_writes_sub opsC2 V opsC2_writes h

end Cert.ReferenceIdeal.RefLists

end
-- ==== Proof.HostR.lean ====
/-
  The host side of the three graph-convolution layers, as functions of a layer's input array.

  For a layer with source indices `src`, target indices `dst` (one pair per edge) and input rows `x`: the messages are
  the rows `x[src]` (a negative index counted from the end); they are summed per target row, the edges of each target row
  are counted the same way from ones, the count is raised to at least one, and the sum is divided by it: the mean of a
  row's incoming messages. The layer's target features are the first rows of `x`. Both programs apply exactly these
  operations, so each is kept as one function and never opened.
-/
import proofs.«137784_j76347338654181_1_alg».proof.Proof.Gen.ReferenceIdeal
import Idealize.ShloMosaic.PureOps.Ideal

noncomputable section

namespace Cert.ReferenceIdeal.HostTerms

open Cert.ReferenceIdeal Cert.ReferenceIdeal.Facts₀ Cert.ReferenceIdeal.Facts Idealize.ShloMosaic

/-- The mean of the incoming messages of layer 0's 100000 target rows. -/
def agg0 (src dst : (⟨S1500000, .i32⟩ : BufTy).Contents (Elt Ideal)) (x : (⟨S600000x100, .f32⟩ : BufTy).Contents (Elt Ideal)) : (⟨S100000x100, .f32⟩ : BufTy).Contents (Elt Ideal) :=
  (Host.divf (F := Ideal) (Host.scatterAdd (F := Ideal) scatter_S100000x100_S1500000x1_S1500000x100_1_0_0_1 (broadcastInDim S100000x100 ![] bcast_S_S100000x100 (constant (F := Ideal) S_ .f32 0x00000000#32)) (broadcastInDim S1500000x1 ![0] bcast_S1500000_S1500000x1_0 dst) (Host.gather gather_S600000x100_S1500000x1_S1500000x100_1_0_n_n_0_1_1100 x (broadcastInDim S1500000x1 ![0] bcast_S1500000_S1500000x1_0 (select (cmpi .slt src (broadcastInDim S1500000 ![] bcast_S_S1500000 (constantI S_ 32 0#32))) (addi src (broadcastInDim S1500000 ![] bcast_S_S1500000 (constantI S_ 32 600000#32))) src)))) (broadcastInDim S100000x100 ![0, 1] bcast_S100000x1_S100000x100_0_1 (maximumf (F := Ideal) (broadcastInDim S100000x1 ![0] bcast_S100000_S100000x1_0 (Host.scatterAdd (F := Ideal) scatter_S100000_S1500000x1_S1500000_n_0_0_1 (broadcastInDim S100000 ![] bcast_S_S100000 (constant (F := Ideal) S_ .f32 0x00000000#32)) (broadcastInDim S1500000x1 ![0] bcast_S1500000_S1500000x1_0 dst) (broadcastInDim S1500000 ![] bcast_S_S1500000 (constant (F := Ideal) S_ .f32 0x3F800000#32)))) (broadcastInDim S100000x1 ![] bcast_S_S100000x1 (constant (F := Ideal) S_ .f32 0x3F800000#32)))))

/-- Layer 0's target features: the first 100000 rows. -/
def tgt0 (x : (⟨S600000x100, .f32⟩ : BufTy).Contents (Elt Ideal)) : (⟨S100000x100, .f32⟩ : BufTy).Contents (Elt Ideal) :=
  (extractStridedSlice S100000x100 ![0, 0] x slices_S600000x100_S100000x100_0_0)

/-- The mean of the incoming messages of layer 1's 20000 target rows. -/
def agg1 (src dst : (⟨S200000, .i32⟩ : BufTy).Contents (Elt Ideal)) (x : (⟨S100000x256, .f32⟩ : BufTy).Contents (Elt Ideal)) : (⟨S20000x256, .f32⟩ : BufTy).Contents (Elt Ideal) :=
  (Host.divf (F := Ideal) (Host.scatterAdd (F := Ideal) scatter_S20000x256_S200000x1_S200000x256_1_0_0_1 (broadcastInDim S20000x256 ![] bcast_S_S20000x256 (constant (F := Ideal) S_ .f32 0x00000000#32)) (broadcastInDim S200000x1 ![0] bcast_S200000_S200000x1_0 dst) (Host.gather gather_S100000x256_S200000x1_S200000x256_1_0_n_n_0_1_1256 x (broadcastInDim S200000x1 ![0] bcast_S200000_S200000x1_0 (select (cmpi .slt src (broadcastInDim S200000 ![] bcast_S_S200000 (constantI S_ 32 0#32))) (addi src (broadcastInDim S200000 ![] bcast_S_S200000 (constantI S_ 32 100000#32))) src)))) (broadcastInDim S20000x256 ![0, 1] bcast_S20000x1_S20000x256_0_1 (maximumf (F := Ideal) (broadcastInDim S20000x1 ![0] bcast_S20000_S20000x1_0 (Host.scatterAdd (F := Ideal) scatter_S20000_S200000x1_S200000_n_0_0_1 (broadcastInDim S20000 ![] bcast_S_S20000 (constant (F := Ideal) S_ .f32 0x00000000#32)) (broadcastInDim S200000x1 ![0] bcast_S200000_S200000x1_0 dst) (broadcastInDim S200000 ![] bcast_S_S200000 (constant (F := Ideal) S_ .f32 0x3F800000#32)))) (broadcastInDim S20000x1 ![] bcast_S_S20000x1 (constant (F := Ideal) S_ .f32 0x3F800000#32)))))

/-- Layer 1's target features: the first 20000 rows. -/
def tgt1 (x : (⟨S100000x256, .f32⟩ : BufTy).Contents (Elt Ideal)) : (⟨S20000x256, .f32⟩ : BufTy).Contents (Elt Ideal) :=
  (extractStridedSlice S20000x256 ![0, 0] x slices_S100000x256_S20000x256_0_0)

/-- The mean of the incoming messages of layer 2's 4096 target rows. -/
def agg2 (src dst : (⟨S40960, .i32⟩ : BufTy).Contents (Elt Ideal)) (x : (⟨S20000x256, .f32⟩ : BufTy).Contents (Elt Ideal)) : (⟨S4096x256, .f32⟩ : BufTy).Contents (Elt Ideal) :=
  (Host.divf (F := Ideal) (Host.scatterAdd (F := Ideal) scatter_S4096x256_S40960x1_S40960x256_1_0_0_1 (broadcastInDim S4096x256 ![] bcast_S_S4096x256 (constant (F := Ideal) S_ .f32 0x00000000#32)) (broadcastInDim S40960x1 ![0] bcast_S40960_S40960x1_0 dst) (Host.gather gather_S20000x256_S40960x1_S40960x256_1_0_n_n_0_1_1256 x (broadcastInDim S40960x1 ![0] bcast_S40960_S40960x1_0 (select (cmpi .slt src (broadcastInDim S40960 ![] bcast_S_S40960 (constantI S_ 32 0#32))) (addi src (broadcastInDim S40960 ![] bcast_S_S40960 (constantI S_ 32 20000#32))) src)))) (broadcastInDim S4096x256 ![0, 1] bcast_S4096x1_S4096x256_0_1 (maximumf (F := Ideal) (broadcastInDim S4096x1 ![0] bcast_S4096_S4096x1_0 (Host.scatterAdd (F := Ideal) scatter_S4096_S40960x1_S40960_n_0_0_1 (broadcastInDim S4096 ![] bcast_S_S4096 (constant (F := Ideal) S_ .f32 0x00000000#32)) (broadcastInDim S40960x1 ![0] bcast_S40960_S40960x1_0 dst) (broadcastInDim S40960 ![] bcast_S_S40960 (constant (F := Ideal) S_ .f32 0x3F800000#32)))) (broadcastInDim S4096x1 ![] bcast_S_S4096x1 (constant (F := Ideal) S_ .f32 0x3F800000#32)))))

/-- Layer 2's target features: the first 4096 rows. -/
def tgt2 (x : (⟨S20000x256, .f32⟩ : BufTy).Contents (Elt Ideal)) : (⟨S4096x256, .f32⟩ : BufTy).Contents (Elt Ideal) :=
  (extractStridedSlice S4096x256 ![0, 0] x slices_S20000x256_S4096x256_0_0)

end Cert.ReferenceIdeal.HostTerms

end
-- ==== Proof.RefStages.lean ====
/-
  What each of the six lists leaves in the buffer it is read back at. A layer's plain operations leave the layer's affine
  term — the two products and the bias row, as the operations nest — of the layer's aggregated rows and target rows; the
  rectifier's operations leave the larger of their input buffer and a splat of zero; the log-softmax's operations leave the
  row-wise log-softmax of their input buffer, as its operations nest.
-/
import proofs.«137784_j76347338654181_1_alg».proof.Proof.RefLists
import proofs.«137784_j76347338654181_1_alg».proof.Proof.HostR
import Idealize.ShloMosaic.PureOps.Ideal

noncomputable section

namespace Cert.ReferenceIdeal.RefStages

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RefLists

/-! ## The layers' dense terms, as the operations nest -/

/-- Layer 0's affine term: the two products and the bias row broadcast down the rows. -/
def affine0 (a xt : (⟨S100000x100, .f32⟩ : BufTy).Contents (Elt Ideal)) (wl wr : (⟨S100x256, .f32⟩ : BufTy).Contents (Elt Ideal)) (b : (⟨S256, .f32⟩ : BufTy).Contents (Elt Ideal)) : (⟨S100000x256, .f32⟩ : BufTy).Contents (Elt Ideal) :=
  addf (F := Ideal) (φ := .f32) (addf (F := Ideal) (φ := .f32) (Host.dotGeneral (F := Ideal) (φ₁ := .f32) (φ₂ := .f32) dot_S100000x100_S100x256_S100000x256_1_0_0_1_n_n none a wl) (Host.dotGeneral (F := Ideal) (φ₁ := .f32) (φ₂ := .f32) dot_S100000x100_S100x256_S100000x256_1_0_0_1_n_n none xt wr)) (broadcastInDim S100000x256 ![0, 1] bcast_S1x256_S100000x256_0_1 (broadcastInDim S1x256 ![1] bcast_S256_S1x256_1 b))

/-- Layer 1's affine term, the same at layer 1's shapes. -/
def affine1 (a xt : (⟨S20000x256, .f32⟩ : BufTy).Contents (Elt Ideal)) (wl wr : (⟨S256x256, .f32⟩ : BufTy).Contents (Elt Ideal)) (b : (⟨S256, .f32⟩ : BufTy).Contents (Elt Ideal)) : (⟨S20000x256, .f32⟩ : BufTy).Contents (Elt Ideal) :=
  addf (F := Ideal) (φ := .f32) (addf (F := Ideal) (φ := .f32) (Host.dotGeneral (F := Ideal) (φ₁ := .f32) (φ₂ := .f32) dot_S20000x256_S256x256_S20000x256_1_0_0_1_n_n none a wl) (Host.dotGeneral (F := Ideal) (φ₁ := .f32) (φ₂ := .f32) dot_S20000x256_S256x256_S20000x256_1_0_0_1_n_n none xt wr)) (broadcastInDim S20000x256 ![0, 1] bcast_S1x256_S20000x256_0_1 (broadcastInDim S1x256 ![1] bcast_S256_S1x256_1 b))

/-- Layer 2's affine term, the same at layer 2's shapes. -/
def affine2 (a xt : (⟨S4096x256, .f32⟩ : BufTy).Contents (Elt Ideal)) (wl wr : (⟨S256x47, .f32⟩ : BufTy).Contents (Elt Ideal)) (b : (⟨S47, .f32⟩ : BufTy).Contents (Elt Ideal)) : (⟨S4096x47, .f32⟩ : BufTy).Contents (Elt Ideal) :=
  addf (F := Ideal) (φ := .f32) (addf (F := Ideal) (φ := .f32) (Host.dotGeneral (F := Ideal) (φ₁ := .f32) (φ₂ := .f32) dot_S4096x256_S256x47_S4096x47_1_0_0_1_n_n none a wl) (Host.dotGeneral (F := Ideal) (φ₁ := .f32) (φ₂ := .f32) dot_S4096x256_S256x47_S4096x47_1_0_0_1_n_n none xt wr)) (broadcastInDim S4096x47 ![0, 1] bcast_S1x47_S4096x47_0_1 (broadcastInDim S1x47 ![1] bcast_S47_S1x47_1 b))

/-- Layer 0's rectifier: the larger of an entry and zero. -/
def relu0 (y : (⟨S100000x256, .f32⟩ : BufTy).Contents (Elt Ideal)) : (⟨S100000x256, .f32⟩ : BufTy).Contents (Elt Ideal) :=
  maximumf (F := Ideal) (φ := .f32) y (broadcastInDim S100000x256 ![] bcast_S_S100000x256 (constant (F := Ideal) S_ .f32 0x00000000#32))

/-- Layer 1's rectifier. -/
def relu1 (y : (⟨S20000x256, .f32⟩ : BufTy).Contents (Elt Ideal)) : (⟨S20000x256, .f32⟩ : BufTy).Contents (Elt Ideal) :=
  maximumf (F := Ideal) (φ := .f32) y (broadcastInDim S20000x256 ![] bcast_S_S20000x256 (constant (F := Ideal) S_ .f32 0x00000000#32))

/-- The row maxima the log-softmax subtracts, as a vector: the word of minus infinity joined with the rows' max-reduce from it. -/
def lsmMax (z : (⟨S4096x47, .f32⟩ : BufTy).Contents (Elt Ideal)) : (⟨S4096, .f32⟩ : BufTy).Contents (Elt Ideal) :=
  maximumf (F := Ideal) (φ := .f32) (broadcastInDim S4096 ![] bcast_S_S4096 (constant (F := Ideal) S_ .f32 0xFF800000#32)) (Host.reduce (FloatOps.maximumf (F := Ideal) (φ := .f32)) z (constant (F := Ideal) S_ .f32 0xFF800000#32) reducesTo_S4096x47_S4096_d1 h_S_)

/-- The shifted rows: every entry less its row's maximum. -/
def lsmShift (z : (⟨S4096x47, .f32⟩ : BufTy).Contents (Elt Ideal)) : (⟨S4096x47, .f32⟩ : BufTy).Contents (Elt Ideal) :=
  subf (F := Ideal) (φ := .f32) z (broadcastInDim S4096x47 ![0, 1] bcast_S4096x1_S4096x47_0_1 (broadcastInDim S4096x1 ![0] bcast_S4096_S4096x1_0 (lsmMax z)))

/-- The row-wise log-softmax as the operations nest: the shifted rows less the logarithm of their exponentials' row sums. -/
def lsm (z : (⟨S4096x47, .f32⟩ : BufTy).Contents (Elt Ideal)) : (⟨S4096x47, .f32⟩ : BufTy).Contents (Elt Ideal) :=
  subf (F := Ideal) (φ := .f32) (lsmShift z) (broadcastInDim S4096x47 ![0, 1] bcast_S4096x1_S4096x47_0_1 (Host.log (F := Ideal) (φ := .f32) (broadcastInDim S4096x1 ![0] bcast_S4096_S4096x1_0 (Host.reduceAdd (F := Ideal) (φ := .f32) (Host.exp (F := Ideal) (φ := .f32) (lsmShift z)) (constant (F := Ideal) S_ .f32 0x00000000#32) reducesTo_S4096x47_S4096_d1 h_S_))))

/-- Layer 0's dense term. -/
def dense0 (a xt : (⟨S100000x100, .f32⟩ : BufTy).Contents (Elt Ideal)) (wl wr : (⟨S100x256, .f32⟩ : BufTy).Contents (Elt Ideal)) (b : (⟨S256, .f32⟩ : BufTy).Contents (Elt Ideal)) : (⟨S100000x256, .f32⟩ : BufTy).Contents (Elt Ideal) :=
  relu0 (affine0 a xt wl wr b)
/-- Layer 1's dense term. -/
def dense1 (a xt : (⟨S20000x256, .f32⟩ : BufTy).Contents (Elt Ideal)) (wl wr : (⟨S256x256, .f32⟩ : BufTy).Contents (Elt Ideal)) (b : (⟨S256, .f32⟩ : BufTy).Contents (Elt Ideal)) : (⟨S20000x256, .f32⟩ : BufTy).Contents (Elt Ideal) :=
  relu1 (affine1 a xt wl wr b)
/-- Layer 2's dense term. -/
def dense2 (a xt : (⟨S4096x256, .f32⟩ : BufTy).Contents (Elt Ideal)) (wl wr : (⟨S256x47, .f32⟩ : BufTy).Contents (Elt Ideal)) (b : (⟨S47, .f32⟩ : BufTy).Contents (Elt Ideal)) : (⟨S4096x47, .f32⟩ : BufTy).Contents (Elt Ideal) :=
  lsm (affine2 a xt wl wr b)

/-! ## What each list leaves -/

variable (W : Valuation τ sig (Elt Ideal))

set_option maxRecDepth 8192 in
set_option maxHeartbeats 1000000 in
/-- After layer 0's plain operations `main_v25` holds layer 0's affine term of the arguments. -/
theorem stageA1 :
    after (opsA1 (F := Ideal)) W (Proc.devRef .tc main_v25)
      = affine0 (HostTerms.agg0 (W (Proc.devRef .tc main_arg1)) (W (Proc.devRef .tc main_arg2)) (W (Proc.devRef .tc main_arg0))) (HostTerms.tgt0 (W (Proc.devRef .tc main_arg0))) (W (Proc.devRef .tc main_arg7)) (W (Proc.devRef .tc main_arg8)) (W (Proc.devRef .tc main_arg9)) := by
  after_results_simp
  unfold affine0 HostTerms.agg0 HostTerms.tgt0
  with_reducible rfl

/-- After the rectifier's operations `main_v26` holds the rectified `main_v25`. -/
theorem stageA2 : after (opsA2 (F := Ideal)) W (Proc.devRef .tc main_v26) = relu0 (W (Proc.devRef .tc main_v25)) := by
  after_results_simp
  rfl

set_option maxRecDepth 8192 in
set_option maxHeartbeats 1000000 in
/-- After layer 1's plain operations `main_v52` holds layer 1's affine term of `main_v26` and the arguments. -/
theorem stageB1 :
    after (opsB1 (F := Ideal)) W (Proc.devRef .tc main_v52)
      = affine1 (HostTerms.agg1 (W (Proc.devRef .tc main_arg3)) (W (Proc.devRef .tc main_arg4)) (W (Proc.devRef .tc main_v26))) (HostTerms.tgt1 (W (Proc.devRef .tc main_v26))) (W (Proc.devRef .tc main_arg10)) (W (Proc.devRef .tc main_arg11)) (W (Proc.devRef .tc main_arg12)) := by
  after_results_simp
  unfold affine1 HostTerms.agg1 HostTerms.tgt1
  with_reducible rfl

/-- After the rectifier's operations `main_v53` holds the rectified `main_v52`. -/
theorem stageB2 : after (opsB2 (F := Ideal)) W (Proc.devRef .tc main_v53) = relu1 (W (Proc.devRef .tc main_v52)) := by
  after_results_simp
  rfl

set_option maxRecDepth 8192 in
set_option maxHeartbeats 1000000 in
/-- After layer 2's plain operations `main_v79` holds layer 2's affine term of `main_v53` and the arguments. -/
theorem stageC1 :
    after (opsC1 (F := Ideal)) W (Proc.devRef .tc main_v79)
      = affine2 (HostTerms.agg2 (W (Proc.devRef .tc main_arg5)) (W (Proc.devRef .tc main_arg6)) (W (Proc.devRef .tc main_v53))) (HostTerms.tgt2 (W (Proc.devRef .tc main_v53))) (W (Proc.devRef .tc main_arg13)) (W (Proc.devRef .tc main_arg14)) (W (Proc.devRef .tc main_arg15)) := by
  after_results_simp
  unfold affine2 HostTerms.agg2 HostTerms.tgt2
  with_reducible rfl

set_option maxRecDepth 8192 in
/-- After the log-softmax's operations `main_v80` holds the log-softmax of `main_v79`. -/
theorem stageC2 : after (opsC2 (F := Ideal)) W (Proc.devRef .tc main_v80) = lsm (W (Proc.devRef .tc main_v79)) := by
  after_results_simp
  simp only [TRef.ofBuf, TRef.toBuf, cast_cast, cast_eq]
  unfold lsm lsmShift lsmMax
  rfl

end Cert.ReferenceIdeal.RefStages

end
-- ==== Proof.RefDense.lean ====
/-
  Each layer's dense term, as the reference's operations nest, is the dense layer of the specification, index by index.
  The host's two products are the row-by-column sums; the bias vector made a one-row array and then broadcast down the
  rows reads, at (r, j), the bias at j; a splat of a word reads that word's value everywhere; the rectifier is the larger
  of an entry and the zero word's value. For the log-softmax: a vector made a column and broadcast along the rows reads,
  at (r, j), the vector at r; the row maxima are the fold of `max` along each row from minus infinity, joined with minus
  infinity; the row sums of the exponentials of the shifted rows are finite sums over the columns from zero.
-/
import proofs.«137784_j76347338654181_1_alg».proof.Proof.RefStages
import proofs.«137784_j76347338654181_1_alg».proof.Proof.LibDense
import proofs.«137784_j76347338654181_1_alg».proof.Proof.LibLogSoftmax
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefDense

open Cert.ReferenceIdeal Cert.ReferenceIdeal.Gen Idealize.ShloMosaic Idealize.ShloMosaic.ValueIdx
open Cert.ReferenceIdeal.RefStages Cert

/-! ## Broadcasts read at an index -/

/-- A splat of the word `w` broadcast to any shape reads `w`'s value everywhere. -/
theorem splat_read {t : Shape} (w : BitVec 32) (h : (⟨0, ![]⟩ : Shape).BroadcastsInDim t ![]) (i : t.Idx) :
    broadcastInDim t ![] h (constant (F := Ideal) (⟨0, ![]⟩ : Shape) .f32 w) i = Ideal.ofBits .f32 w :=
  broadcastInDim_apply _ h _ i (fun a => a.elim0) (fun a => a.elim0)

/-- A vector `b : [d]` made the one-row array `[1, d]` and broadcast down `n` rows, at (r, j), is `b j`. -/
theorem bias_read {n d : ℕ} (b : (⟨1, ![d]⟩ : Shape).Idx → EReal)
    (h1 : (⟨1, ![d]⟩ : Shape).BroadcastsInDim ⟨2, ![1, d]⟩ ![1])
    (h2 : (⟨2, ![1, d]⟩ : Shape).BroadcastsInDim ⟨2, ![n, d]⟩ ![0, 1]) (i : (⟨2, ![n, d]⟩ : Shape).Idx) :
    broadcastInDim ⟨2, ![n, d]⟩ ![0, 1] h2 (broadcastInDim ⟨2, ![1, d]⟩ ![1] h1 b) i = b (ix1 (i 1)) := by
  refine (broadcastInDim_apply _ h2 _ i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine broadcastInDim_apply _ h1 b _ (ix1 (i 1)) (fun a => ?_)
    match a with
    | ⟨0, _⟩ =>
      show (i 1).val = if d = 1 then 0 else (i 1).val
      have hlt : (i 1).val < d := idx2_lt1 i
      split
      · omega
      · rfl

/-- A vector `v : [n]` made the column `[n, 1]`, at (r, 0), is `v r`. -/
theorem col1_read {n : ℕ} (v : (⟨1, ![n]⟩ : Shape).Idx → EReal)
    (h : (⟨1, ![n]⟩ : Shape).BroadcastsInDim ⟨2, ![n, 1]⟩ ![0]) (y : (⟨2, ![n, 1]⟩ : Shape).Idx) :
    broadcastInDim ⟨2, ![n, 1]⟩ ![0] h v y = v (ix1 (y 0)) := by
  refine broadcastInDim_apply _ h v y (ix1 (y 0)) (fun a => ?_)
  match a with
  | ⟨0, _⟩ =>
    show (y 0).val = if n = 1 then 0 else (y 0).val
    have hlt : (y 0).val < n := idx2_lt0 y
    split
    · omega
    · rfl

/-- A column `u : [n, 1]` broadcast along `d` columns, at (r, j), is `u (r, 0)`. -/
theorem col2_read {n d : ℕ} (u : (⟨2, ![n, 1]⟩ : Shape).Idx → EReal)
    (h : (⟨2, ![n, 1]⟩ : Shape).BroadcastsInDim ⟨2, ![n, d]⟩ ![0, 1]) (i : (⟨2, ![n, d]⟩ : Shape).Idx) :
    broadcastInDim ⟨2, ![n, d]⟩ ![0, 1] h u i = u (ix2 (i 0) ⟨0, Nat.one_pos⟩) := by
  refine broadcastInDim_apply _ h u i (ix2 (i 0) ⟨0, Nat.one_pos⟩) (fun a => ?_)
  match a with
  | ⟨0, _⟩ =>
    show (i 0).val = if n = 1 then 0 else (i 0).val
    have hlt : (i 0).val < n := idx2_lt0 i
    split
    · omega
    · rfl
  | ⟨1, _⟩ => exact (if_pos rfl).symm

/-! ## The affine part and the rectifier, at any extents -/

section Dense

variable {n K d : ℕ} (a xt : (⟨2, ![n, K]⟩ : Shape).Idx → EReal) (wl wr : (⟨2, ![K, d]⟩ : Shape).Idx → EReal)
  (b : (⟨1, ![d]⟩ : Shape).Idx → EReal)
  (h1 : (⟨1, ![d]⟩ : Shape).BroadcastsInDim ⟨2, ![1, d]⟩ ![1])
  (h2 : (⟨2, ![1, d]⟩ : Shape).BroadcastsInDim ⟨2, ![n, d]⟩ ![0, 1])
  (h0 : (⟨0, ![]⟩ : Shape).BroadcastsInDim ⟨2, ![n, d]⟩ ![])

/-- The affine part as the host's operations nest: the sum of the two products, plus the broadcast bias. -/
def affT : (⟨2, ![n, d]⟩ : Shape).Idx → EReal :=
  addf (F := Ideal) (φ := .f32) (addf (F := Ideal) (φ := .f32)
      (Host.dotGeneral (F := Ideal) (φ₁ := .f32) (φ₂ := .f32) (DotDims.plain n K d) none a wl)
      (Host.dotGeneral (F := Ideal) (φ₁ := .f32) (φ₂ := .f32) (DotDims.plain n K d) none xt wr))
    (broadcastInDim ⟨2, ![n, d]⟩ ![0, 1] h2 (broadcastInDim ⟨2, ![1, d]⟩ ![1] h1 b))

theorem affT_apply (i : (⟨2, ![n, d]⟩ : Shape).Idx) : affT a xt wl wr b h1 h2 i = LibDense.affine a xt wl wr b i := by
  show (FloatOps.dotGeneral (F := Ideal) (φ₁ := .f32) (φ₂ := .f32) (DotDims.plain n K d) none .single a wl i
      + FloatOps.dotGeneral (F := Ideal) (φ₁ := .f32) (φ₂ := .f32) (DotDims.plain n K d) none .single xt wr i)
      + broadcastInDim ⟨2, ![n, d]⟩ ![0, 1] h2 (broadcastInDim ⟨2, ![1, d]⟩ ![1] h1 b) i = _
  rw [LibDense.dotGeneral_plain, LibDense.dotGeneral_plain, bias_read]
  rfl

/-- The rectified layer as the host's operations nest: the larger of the affine part and a splat of the zero word. -/
def reluT : (⟨2, ![n, d]⟩ : Shape).Idx → EReal :=
  maximumf (F := Ideal) (φ := .f32) (affT a xt wl wr b h1 h2)
    (broadcastInDim ⟨2, ![n, d]⟩ ![] h0 (constant (F := Ideal) (⟨0, ![]⟩ : Shape) .f32 0x00000000#32))

theorem reluT_eq : reluT a xt wl wr b h1 h2 h0 = LibDense.relu a xt wl wr b := by
  funext i
  show max (affT a xt wl wr b h1 h2 i)
      (broadcastInDim ⟨2, ![n, d]⟩ ![] h0 (constant (F := Ideal) (⟨0, ![]⟩ : Shape) .f32 0x00000000#32) i) = _
  rw [affT_apply, splat_read]
  rfl

end Dense

/-! ## The row-wise log-softmax, at any extents -/

section LogSoftmax

variable {m n : ℕ} (z : (⟨2, ![m, n]⟩ : Shape).Idx → EReal)
  (h' : (⟨2, ![m, n]⟩ : Shape).ReducesTo ([1] : List (Fin 2)) (⟨1, ![m]⟩ : Shape))
  (h : (⟨2, ![m, n]⟩ : Shape).Reduces ([1] : List (Fin 2)) (⟨1, ![m]⟩ : Shape))
  (hu : 0 < (⟨0, ![]⟩ : Shape).numel)
  (h0 : (⟨0, ![]⟩ : Shape).BroadcastsInDim ⟨1, ![m]⟩ ![])
  (hc1 : (⟨1, ![m]⟩ : Shape).BroadcastsInDim ⟨2, ![m, 1]⟩ ![0])
  (hc2 : (⟨2, ![m, 1]⟩ : Shape).BroadcastsInDim ⟨2, ![m, n]⟩ ![0, 1])

/-- The reduced index `r` with column `k` put back is (r, k). -/
theorem lift_col (r : Fin m) (k : Fin ((⟨2, ![m, n]⟩ : Shape).size 1)) :
    h.lift (ix1 r) k = ix2 r (⟨k.val, k.isLt⟩ : Fin n) := by
  funext c; apply Fin.ext
  fin_cases c <;> rfl

/-- The row maxima as the host's operations nest. -/
def maxT : (⟨1, ![m]⟩ : Shape).Idx → EReal :=
  maximumf (F := Ideal) (φ := .f32) (broadcastInDim ⟨1, ![m]⟩ ![] h0 (constant (F := Ideal) (⟨0, ![]⟩ : Shape) .f32 0xFF800000#32))
    (Host.reduce (FloatOps.maximumf (F := Ideal) (φ := .f32)) z (constant (F := Ideal) (⟨0, ![]⟩ : Shape) .f32 0xFF800000#32) h' hu)

include h in
theorem maxT_apply (r : Fin m) : maxT z h' hu h0 (ix1 r) = LibLogSoftmax.rowMax (fun k : Fin n => z (ix2 r k)) := by
  show max (broadcastInDim ⟨1, ![m]⟩ ![] h0 (constant (F := Ideal) (⟨0, ![]⟩ : Shape) .f32 0xFF800000#32) (ix1 r))
      (Host.reduce (FloatOps.maximumf (F := Ideal) (φ := .f32)) z (constant (F := Ideal) (⟨0, ![]⟩ : Shape) .f32 0xFF800000#32) h' hu (ix1 r)) = _
  rw [splat_read, Host.reduce_eq_fold_single (α := Ideal .f32) (FloatOps.maximumf (F := Ideal) (φ := .f32)) z _ h' h hu]
  have hf : (z ∘ h.lift (ix1 r)) = fun k : Fin n => z (ix2 r k) := funext fun k => congrArg z (lift_col h r k)
  exact congrArg (fun f => max (Ideal.ofBits .f32 0xFF800000#32)
    (Finset.fold max (Ideal.ofBits .f32 0xFF800000#32) f (Finset.univ : Finset (Fin n)))) hf

/-- The shifted rows as the host's operations nest. -/
def shiftT : (⟨2, ![m, n]⟩ : Shape).Idx → EReal :=
  subf (F := Ideal) (φ := .f32) z
    (broadcastInDim ⟨2, ![m, n]⟩ ![0, 1] hc2 (broadcastInDim ⟨2, ![m, 1]⟩ ![0] hc1 (maxT z h' hu h0)))

include h in
theorem shiftT_apply (i : (⟨2, ![m, n]⟩ : Shape).Idx) :
    shiftT z h' hu h0 hc1 hc2 i = z i - LibLogSoftmax.rowMax (fun k : Fin n => z (ix2 (i 0) k)) := by
  show z i - broadcastInDim ⟨2, ![m, n]⟩ ![0, 1] hc2 (broadcastInDim ⟨2, ![m, 1]⟩ ![0] hc1 (maxT z h' hu h0)) i = _
  rw [col2_read, col1_read]
  exact congrArg (z i - ·) (maxT_apply z h' h hu h0 (i 0))

/-- The log-softmax as the host's operations nest. -/
def lsmT : (⟨2, ![m, n]⟩ : Shape).Idx → EReal :=
  subf (F := Ideal) (φ := .f32) (shiftT z h' hu h0 hc1 hc2)
    (broadcastInDim ⟨2, ![m, n]⟩ ![0, 1] hc2 (Host.log (F := Ideal) (φ := .f32)
      (broadcastInDim ⟨2, ![m, 1]⟩ ![0] hc1 (Host.reduceAdd (F := Ideal) (φ := .f32)
        (Host.exp (F := Ideal) (φ := .f32) (shiftT z h' hu h0 hc1 hc2)) (constant (F := Ideal) (⟨0, ![]⟩ : Shape) .f32 0x00000000#32) h' hu))))

include h in
theorem lsmT_eq : lsmT z h' hu h0 hc1 hc2 = LibLogSoftmax.logSoftmax z := by
  funext i
  show shiftT z h' hu h0 hc1 hc2 i - broadcastInDim ⟨2, ![m, n]⟩ ![0, 1] hc2 (Host.log (F := Ideal) (φ := .f32)
      (broadcastInDim ⟨2, ![m, 1]⟩ ![0] hc1 (Host.reduceAdd (F := Ideal) (φ := .f32)
        (Host.exp (F := Ideal) (φ := .f32) (shiftT z h' hu h0 hc1 hc2)) (constant (F := Ideal) (⟨0, ![]⟩ : Shape) .f32 0x00000000#32) h' hu))) i = _
  rw [col2_read]
  show shiftT z h' hu h0 hc1 hc2 i - Ideal.log (broadcastInDim ⟨2, ![m, 1]⟩ ![0] hc1 (Host.reduceAdd (F := Ideal) (φ := .f32)
        (Host.exp (F := Ideal) (φ := .f32) (shiftT z h' hu h0 hc1 hc2)) (constant (F := Ideal) (⟨0, ![]⟩ : Shape) .f32 0x00000000#32) h' hu)
        (ix2 (i 0) ⟨0, Nat.one_pos⟩)) = _
  rw [col1_read]
  show shiftT z h' hu h0 hc1 hc2 i - Ideal.log (Ideal.hostReduceAdd h'
        (Host.exp (F := Ideal) (φ := .f32) (shiftT z h' hu h0 hc1 hc2)) (Ideal.ofBits .f32 0x00000000#32) (ix1 (i 0))) = _
  rw [Ideal.hostReduceAdd_single h' h, Ideal.ofBits_zero_f32, zero_add, shiftT_apply z h' h hu h0 hc1 hc2 i]
  have hs : ∀ k : Fin n, Host.exp (F := Ideal) (φ := .f32) (shiftT z h' hu h0 hc1 hc2) (h.lift (ix1 (i 0)) k)
      = Ideal.exp (z (ix2 (i 0) k) - LibLogSoftmax.rowMax (fun k : Fin n => z (ix2 (i 0) k))) := fun k => by
    rw [lift_col h (i 0) k]
    show Ideal.exp (shiftT z h' hu h0 hc1 hc2 (ix2 (i 0) k)) = _
    rw [shiftT_apply z h' h hu h0 hc1 hc2]
    rfl
  have hi : z i = z (ix2 (i 0) (i 1)) := congrArg z (eq_ix2 i)
  unfold LibLogSoftmax.logSoftmax LibLogSoftmax.lsmRow
  rw [hi]
  exact congrArg (fun s => z (ix2 (i 0) (i 1)) - LibLogSoftmax.rowMax (fun k : Fin n => z (ix2 (i 0) k)) - Ideal.log s)
    (Finset.sum_congr rfl fun k _ => hs k)

end LogSoftmax

/-! ## The three layers -/

/-- Layer 0's dense term is the rectified dense layer. -/
theorem dense0_eq (a xt : (⟨S100000x100, .f32⟩ : BufTy).Contents (Elt Ideal)) (wl wr : (⟨S100x256, .f32⟩ : BufTy).Contents (Elt Ideal)) (b : (⟨S256, .f32⟩ : BufTy).Contents (Elt Ideal)) :
    dense0 a xt wl wr b = LibDense.relu (n := 100000) (K := 100) (d := 256) a xt wl wr b :=
  reluT_eq (n := 100000) (K := 100) (d := 256) a xt wl wr b bcast_S256_S1x256_1 bcast_S1x256_S100000x256_0_1 bcast_S_S100000x256

/-- Layer 1's dense term is the rectified dense layer. -/
theorem dense1_eq (a xt : (⟨S20000x256, .f32⟩ : BufTy).Contents (Elt Ideal)) (wl wr : (⟨S256x256, .f32⟩ : BufTy).Contents (Elt Ideal)) (b : (⟨S256, .f32⟩ : BufTy).Contents (Elt Ideal)) :
    dense1 a xt wl wr b = LibDense.relu (n := 20000) (K := 256) (d := 256) a xt wl wr b :=
  reluT_eq (n := 20000) (K := 256) (d := 256) a xt wl wr b bcast_S256_S1x256_1 bcast_S1x256_S20000x256_0_1 bcast_S_S20000x256

/-- Layer 2's affine part is the dense layer's. -/
theorem affine2_eq (a xt : (⟨S4096x256, .f32⟩ : BufTy).Contents (Elt Ideal)) (wl wr : (⟨S256x47, .f32⟩ : BufTy).Contents (Elt Ideal)) (b : (⟨S47, .f32⟩ : BufTy).Contents (Elt Ideal)) :
    affine2 a xt wl wr b = LibDense.affine (n := 4096) (K := 256) (d := 47) a xt wl wr b :=
  funext fun i => affT_apply (n := 4096) (K := 256) (d := 47) a xt wl wr b bcast_S47_S1x47_1 bcast_S1x47_S4096x47_0_1 i

/-- Layer 2's dense term is the log-softmax of the dense layer. -/
theorem dense2_eq (a xt : (⟨S4096x256, .f32⟩ : BufTy).Contents (Elt Ideal)) (wl wr : (⟨S256x47, .f32⟩ : BufTy).Contents (Elt Ideal)) (b : (⟨S47, .f32⟩ : BufTy).Contents (Elt Ideal)) :
    dense2 a xt wl wr b = LibLogSoftmax.logSoftmax (LibDense.affine (n := 4096) (K := 256) (d := 47) a xt wl wr b) := by
  unfold dense2
  rw [affine2_eq]
  exact lsmT_eq (m := 4096) (n := 47) _ reducesTo_S4096x47_S4096_d1 (by decide) h_S_ bcast_S_S4096 bcast_S4096_S4096x1_0
    bcast_S4096x1_S4096x47_0_1

end Cert.ReferenceIdeal.RefDense

end
-- ==== Proof.RefValue.lean ====
/-
  The reference program's run and value. From any memory with zero counters every weakly fair execution of @main
  terminates; its result buffer then holds the three-layer network of the specification — each layer's mean of incoming
  messages and target rows being the host's own gather / scatter-add / count / divide chain and row slice of the layer's
  input — of the launch contents of the sixteen arguments, and every argument buffer is unchanged.

  The run is the fold of the 117 operations over the launch contents; the fold is read back list by list: a layer's plain
  operations leave its affine term, the called function's operations the rectifier or the log-softmax of it, and each of
  these is the specification's dense layer index by index.
-/
import proofs.«137784_j76347338654181_1_alg».proof.Proof.RefDense
import proofs.«137784_j76347338654181_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RefLists Cert.ReferenceIdeal.RefStages Cert.ReferenceIdeal.RefDense

variable (W : Valuation τ sig (Elt Ideal))

/-! ## Buffers kept through the first lists -/

/-- A buffer layer 0's lists do not write is, after them, as it was. -/
theorem keep2 (r : Ref sig .tc) (h1 : r ∉ opsA1_W) (h2 : r ∉ opsA2_W) :
    after (opsA2 (F := Ideal)) (after opsA1 W) (Proc.devRef .tc r) = W (Proc.devRef .tc r) :=
  (keep_opsA2 _ r h2).trans (keep_opsA1 W r h1)

/-- A buffer the first two layers' lists do not write is, after them, as it was. -/
theorem keep4 (r : Ref sig .tc) (h1 : r ∉ opsA1_W) (h2 : r ∉ opsA2_W) (h3 : r ∉ opsB1_W) (h4 : r ∉ opsB2_W) :
    after (opsB2 (F := Ideal)) (after opsB1 (after opsA2 (after opsA1 W))) (Proc.devRef .tc r) = W (Proc.devRef .tc r) :=
  (keep_opsB2 _ r h4).trans ((keep_opsB1 _ r h3).trans (keep2 W r h1 h2))

/-- A buffer no list writes is, after the whole program, as it was. -/
theorem keep6 (r : Ref sig .tc) (h1 : r ∉ opsA1_W) (h2 : r ∉ opsA2_W) (h3 : r ∉ opsB1_W) (h4 : r ∉ opsB2_W)
    (h5 : r ∉ opsC1_W) (h6 : r ∉ opsC2_W) :
    after (ops (F := Ideal)) W (Proc.devRef .tc r) = W (Proc.devRef .tc r) := by
  rw [after_ops]
  exact (keep_opsC2 _ r h6).trans ((keep_opsC1 _ r h5).trans (keep4 W r h1 h2 h3 h4))

/-! ## The layers' results -/

/-- After layer 0's lists `main_v26` holds the specification's first hidden layer. -/
theorem layer0 :
    after (opsA2 (F := Ideal)) (after opsA1 W) (Proc.devRef .tc main_v26)
      = Cert.Spec.hidden (HostTerms.agg0 (W (Proc.devRef .tc main_arg1)) (W (Proc.devRef .tc main_arg2))) HostTerms.tgt0 (W (Proc.devRef .tc main_arg0)) (W (Proc.devRef .tc main_arg7)) (W (Proc.devRef .tc main_arg8)) (W (Proc.devRef .tc main_arg9)) := by
  rw [stageA2, stageA1]
  exact dense0_eq _ _ _ _ _

/-- After layer 1's lists `main_v53` holds the specification's second hidden layer of `main_v26`. -/
theorem layer1 (W : Valuation τ sig (Elt Ideal)) :
    after (opsB2 (F := Ideal)) (after opsB1 W) (Proc.devRef .tc main_v53)
      = Cert.Spec.hidden (HostTerms.agg1 (W (Proc.devRef .tc main_arg3)) (W (Proc.devRef .tc main_arg4))) HostTerms.tgt1 (W (Proc.devRef .tc main_v26)) (W (Proc.devRef .tc main_arg10)) (W (Proc.devRef .tc main_arg11)) (W (Proc.devRef .tc main_arg12)) := by
  rw [stageB2, stageB1]
  exact dense1_eq _ _ _ _ _

/-- After layer 2's lists `main_v80` holds the specification's last layer of `main_v53`. -/
theorem layer2 (W : Valuation τ sig (Elt Ideal)) :
    after (opsC2 (F := Ideal)) (after opsC1 W) (Proc.devRef .tc main_v80)
      = Cert.Spec.last (HostTerms.agg2 (W (Proc.devRef .tc main_arg5)) (W (Proc.devRef .tc main_arg6))) HostTerms.tgt2 (W (Proc.devRef .tc main_v53)) (W (Proc.devRef .tc main_arg13)) (W (Proc.devRef .tc main_arg14)) (W (Proc.devRef .tc main_arg15)) := by
  rw [stageC2, stageC1]
  exact dense2_eq _ _ _ _ _

/-- After the whole program `main_v80` holds the network of the arguments' contents. -/
theorem value :
    after (ops (F := Ideal)) W (Proc.devRef .tc main_v80) = Cert.Spec.net (HostTerms.agg0 (W (Proc.devRef .tc main_arg1)) (W (Proc.devRef .tc main_arg2))) HostTerms.tgt0 (HostTerms.agg1 (W (Proc.devRef .tc main_arg3)) (W (Proc.devRef .tc main_arg4))) HostTerms.tgt1 (HostTerms.agg2 (W (Proc.devRef .tc main_arg5)) (W (Proc.devRef .tc main_arg6))) HostTerms.tgt2 (W (Proc.devRef .tc main_arg0)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [after_ops, layer2, layer1, layer0 W]
  rw [keep4 W main_arg5 (by decide) (by decide) (by decide) (by decide), keep4 W main_arg6 (by decide) (by decide) (by decide) (by decide), keep4 W main_arg13 (by decide) (by decide) (by decide) (by decide), keep4 W main_arg14 (by decide) (by decide) (by decide) (by decide),
    keep4 W main_arg15 (by decide) (by decide) (by decide) (by decide), keep2 W main_arg3 (by decide) (by decide), keep2 W main_arg4 (by decide) (by decide), keep2 W main_arg10 (by decide) (by decide),
    keep2 W main_arg11 (by decide) (by decide), keep2 W main_arg12 (by decide) (by decide)]
  rfl

/-! ## The run -/

/-- On every device, from any memory with zero counters: every weakly fair execution of @main terminates with the result
    buffer at the network of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80) = Cert.Spec.net (HostTerms.agg0 (m ((c.tc : Thread nD τ).loc main_arg1)) (m ((c.tc : Thread nD τ).loc main_arg2))) HostTerms.tgt0 (HostTerms.agg1 (m ((c.tc : Thread nD τ).loc main_arg3)) (m ((c.tc : Thread nD τ).loc main_arg4))) HostTerms.tgt1 (HostTerms.agg2 (m ((c.tc : Thread nD τ).loc main_arg5)) (m ((c.tc : Thread nD τ).loc main_arg6))) HostTerms.tgt2 (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v80).trans (value (launchContents m c)),
      (h c main_arg0).trans (keep6 (launchContents m c) main_arg0 (by decide) (by decide) (by decide) (by decide) (by decide) (by decide)),
      (h c main_arg1).trans (keep6 (launchContents m c) main_arg1 (by decide) (by decide) (by decide) (by decide) (by decide) (by decide)),
      (h c main_arg2).trans (keep6 (launchContents m c) main_arg2 (by decide) (by decide) (by decide) (by decide) (by decide) (by decide)),
      (h c main_arg3).trans (keep6 (launchContents m c) main_arg3 (by decide) (by decide) (by decide) (by decide) (by decide) (by decide)),
      (h c main_arg4).trans (keep6 (launchContents m c) main_arg4 (by decide) (by decide) (by decide) (by decide) (by decide) (by decide)),
      (h c main_arg5).trans (keep6 (launchContents m c) main_arg5 (by decide) (by decide) (by decide) (by decide) (by decide) (by decide)),
      (h c main_arg6).trans (keep6 (launchContents m c) main_arg6 (by decide) (by decide) (by decide) (by decide) (by decide) (by decide)),
      (h c main_arg7).trans (keep6 (launchContents m c) main_arg7 (by decide) (by decide) (by decide) (by decide) (by decide) (by decide)),
      (h c main_arg8).trans (keep6 (launchContents m c) main_arg8 (by decide) (by decide) (by decide) (by decide) (by decide) (by decide)),
      (h c main_arg9).trans (keep6 (launchContents m c) main_arg9 (by decide) (by decide) (by decide) (by decide) (by decide) (by decide)),
      (h c main_arg10).trans (keep6 (launchContents m c) main_arg10 (by decide) (by decide) (by decide) (by decide) (by decide) (by decide)),
      (h c main_arg11).trans (keep6 (launchContents m c) main_arg11 (by decide) (by decide) (by decide) (by decide) (by decide) (by decide)),
      (h c main_arg12).trans (keep6 (launchContents m c) main_arg12 (by decide) (by decide) (by decide) (by decide) (by decide) (by decide)),
      (h c main_arg13).trans (keep6 (launchContents m c) main_arg13 (by decide) (by decide) (by decide) (by decide) (by decide) (by decide)),
      (h c main_arg14).trans (keep6 (launchContents m c) main_arg14 (by decide) (by decide) (by decide) (by decide) (by decide) (by decide)),
      (h c main_arg15).trans (keep6 (launchContents m c) main_arg15 (by decide) (by decide) (by decide) (by decide) (by decide) (by decide))⟩)
    (run_fold m ρ)

end Cert.ReferenceIdeal.RefValue

end
-- ==== Proof.lean ====
/-
  The certificate of the three-layer graph-convolution kernel against its reference.

  Both programs compute, on the extended reals, the same network of the sixteen argument arrays: per layer the mean of
  the incoming messages of every target row (a gather, a scatter-add of the rows and of ones, a maximum with one and a
  division: the same host operations in both programs, kept as one function), then `mean · Wl + target · Wr + b`, then the
  rectifier or, in the last layer, the row-wise log-softmax. The kernel program computes the dense part of each layer in a
  region tiled over the rows, with products rounded to a narrower format on the way in (the identity on the extended reals)
  and accumulated in any order; the reference computes it with whole-array host operations. A sum on the extended reals is
  a sum in a commutative monoid, so neither the tiling nor the order matters, and no finiteness of the inputs is used.
  The frames are the generated ones for the two kernel programs and the reference's run with its result dropped; the
  idealization rewrote nothing, so what it must preserve is trivial.
-/
import proofs.«137784_j76347338654181_1_alg».proof.Defs
import proofs.«137784_j76347338654181_1_alg».proof.Proof.Gen.Kernel
import proofs.«137784_j76347338654181_1_alg».proof.Proof.Gen.Kernel.Frame
import proofs.«137784_j76347338654181_1_alg».proof.Proof.Gen.KernelIdeal
import proofs.«137784_j76347338654181_1_alg».proof.Proof.Gen.KernelIdeal.Frame
import proofs.«137784_j76347338654181_1_alg».proof.Proof.Gen.ReferenceIdeal
import proofs.«137784_j76347338654181_1_alg».proof.Proof.Gen.Pre_finite_inputs
import proofs.«137784_j76347338654181_1_alg».proof.Proof.KerValue
import proofs.«137784_j76347338654181_1_alg».proof.Proof.RefValue
import Idealize.ShloMosaic.Adequacy
import Idealize.ShloMosaic.Init

noncomputable section

namespace Cert.Proof

open Idealize.ShloMosaic Idealize.SL.Sem

/-- The two programs' host functions of a layer are the same functions: the same operations over the same dimensions. -/
theorem agg0_eq : Cert.ReferenceIdeal.HostTerms.agg0 = Cert.KernelIdeal.HostTerms.agg0 := rfl
theorem tgt0_eq : Cert.ReferenceIdeal.HostTerms.tgt0 = Cert.KernelIdeal.HostTerms.tgt0 := rfl
theorem agg1_eq : Cert.ReferenceIdeal.HostTerms.agg1 = Cert.KernelIdeal.HostTerms.agg1 := rfl
theorem tgt1_eq : Cert.ReferenceIdeal.HostTerms.tgt1 = Cert.KernelIdeal.HostTerms.tgt1 := rfl
theorem agg2_eq : Cert.ReferenceIdeal.HostTerms.agg2 = Cert.KernelIdeal.HostTerms.agg2 := rfl
theorem tgt2_eq : Cert.ReferenceIdeal.HostTerms.tgt2 = Cert.KernelIdeal.HostTerms.tgt2 := rfl

/-- From memories agreeing on the arguments both programs end with the network of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.net (Cert.KernelIdeal.HostTerms.agg0 (m ((c.tc : Thread Cert.KernelIdeal.nD Cert.KernelIdeal.τ).loc Cert.KernelIdeal.main_arg1)) (m ((c.tc : Thread Cert.KernelIdeal.nD Cert.KernelIdeal.τ).loc Cert.KernelIdeal.main_arg2))) Cert.KernelIdeal.HostTerms.tgt0 (Cert.KernelIdeal.HostTerms.agg1 (m ((c.tc : Thread Cert.KernelIdeal.nD Cert.KernelIdeal.τ).loc Cert.KernelIdeal.main_arg3)) (m ((c.tc : Thread Cert.KernelIdeal.nD Cert.KernelIdeal.τ).loc Cert.KernelIdeal.main_arg4))) Cert.KernelIdeal.HostTerms.tgt1 (Cert.KernelIdeal.HostTerms.agg2 (m ((c.tc : Thread Cert.KernelIdeal.nD Cert.KernelIdeal.τ).loc Cert.KernelIdeal.main_arg5)) (m ((c.tc : Thread Cert.KernelIdeal.nD Cert.KernelIdeal.τ).loc Cert.KernelIdeal.main_arg6))) Cert.KernelIdeal.HostTerms.tgt2 (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12, e13, e14, e15⟩ := hagree c
  rw [e0, e1, e2, e3, e4, e5, e6, e7, e8, e9, e10, e11, e12, e13, e14, e15, agg0_eq, tgt0_eq, agg1_eq, tgt1_eq, agg2_eq, tgt2_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefValue.run m ρ),
  trivial,
  algebraic⟩

end Cert.Proof

end
